-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x40 : Shape := ⟨2, ![65536, 40]⟩
abbrev S65536x80 : Shape := ⟨2, ![65536, 80]⟩
abbrev S256x377 : Shape := ⟨2, ![256, 377]⟩
abbrev S256 : Shape := ⟨1, ![256]⟩
abbrev S256x256 : Shape := ⟨2, ![256, 256]⟩
abbrev S768x256 : Shape := ⟨2, ![768, 256]⟩
abbrev S768 : Shape := ⟨1, ![768]⟩
abbrev S40x256 : Shape := ⟨2, ![40, 256]⟩
abbrev S40 : Shape := ⟨1, ![40]⟩
abbrev S1x256 : Shape := ⟨2, ![1, 256]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x40 : S_.BroadcastsInDim S65536x40 (![] : Fin 0 → Fin S65536x40.rank)
  reducesTo_S65536x40_S_d0_1 : S65536x40.ReducesTo [0, 1] S_
  bcast_S_S65536x80 : S_.BroadcastsInDim S65536x80 (![] : Fin 0 → Fin S65536x80.rank)
  reducesTo_S65536x80_S_d0_1 : S65536x80.ReducesTo [0, 1] S_
  bcast_S_S256x377 : S_.BroadcastsInDim S256x377 (![] : Fin 0 → Fin S256x377.rank)
  reducesTo_S256x377_S_d0_1 : S256x377.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S1 .f32) (main_v118 : IVec S_ 1) (main_v119 : FVec F S1x256 .f32) : IVec S_ 1 :=
  let main_cst_46 : FVec F S_ .f32 := constant S_ .f32 0x7F800000#32
  let main_v120 : FVec F S1x256 .f32 := broadcastInDim S1x256 ![] bcast_S_S1x256 main_cst_46
  let main_v121 : IVec S1x256 1 := cmpf .olt main_v119 main_v120
  let main_c_47 : IVec S_ 1 := constantI S_ 1 1#1
  let main_v122 : IVec S_ 1 := (fun x v => Host.reduce IntOp.andi x v reducesTo_S1x256_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg21 : FVec F S768 .f32) (main_arg22 : FVec F S40x256 .f32) (main_arg23 : FVec F S40 .f32) (main_arg24 : FVec F S1x256 .f32) (main_arg25 : FVec F S1 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_v104 : FVec F S768 .f32 := Host.absf main_arg21
  let main_cst_40 : FVec F S_ .f32 := constant S_ .f32 0x7F800000#32
  let main_v105 : FVec F S768 .f32 := broadcastInDim S768 ![] bcast_S_S768 main_cst_40
  let main_v106 : IVec S768 1 := cmpf .olt main_v104 main_v105
  let main_c_41 : IVec S_ 1 := constantI S_ 1 1#1
  let main_v107 : IVec S_ 1 := (fun x v => Host.reduce IntOp.andi x v reducesTo_S768_S_d0 h_S_) main_v106 main_c_41
  let main_v108 : IVec S_ 1 := andi main_v103 main_v107
  let main_v109 : FVec F S40x256 .f32 := Host.absf main_arg22
  let main_cst_42 : FVec F S_ .f32 := constant S_ .f32 0x7F800000#32
  let main_v110 : FVec F S40x256 .f32 := broadcastInDim S40x256 ![] bcast_S_S40x256 main_cst_42
  let main_v111 : IVec S40x256 1 := cmpf .olt main_v109 main_v110
  let main_c_43 : IVec S_ 1 := constantI S_ 1 1#1
  let main_v112 : IVec S_ 1 := (fun x v => Host.reduce IntOp.andi x v reducesTo_S40x256_S_d0_1 h_S_) main_v111 main_c_43
  let main_v113 : IVec S_ 1 := andi main_v108 main_v112
  let main_v114 : FVec F S40 .f32 := Host.absf main_arg23
  let main_cst_44 : FVec F S_ .f32 := constant S_ .f32 0x7F800000#32
  let main_v115 : FVec F S40 .f32 := broadcastInDim S40 ![] bcast_S_S40 main_cst_44
  let main_v116 : IVec S40 1 := cmpf .olt main_v114 main_v115
  let main_c_45 : IVec S_ 1 := constantI S_ 1 1#1
  let main_v117 : IVec S_ 1 := (fun x v => Host.reduce IntOp.andi x v reducesTo_S40_S_d0 h_S_) main_v116 main_c_45
  let main_v118 : IVec S_ 1 := andi main_v113 main_v117
  let main_v119 : FVec F S1x256 .f32 := Host.absf main_arg24
  fn_part7 (F := F) main_arg25 main_v118 main_v119

def fn_part5 {F : FTy → Type} [FloatOps F] (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768x256 .f32 := Host.absf main_arg18
  let main_cst_34 : FVec F S_ .f32 := constant S_ .f32 0x7F800000#32
  let main_v90 : FVec F S768x256 .f32 := broadcastInDim S768x256 ![] bcast_S_S768x256 main_cst_34
  let main_v91 : IVec S768x256 1 := cmpf .olt main_v89 main_v90
  let main_c_35 : IVec S_ 1 := constantI S_ 1 1#1
  let main_v92 : IVec S_ 1 := (fun x v => Host.reduce IntOp.andi x v reducesTo_S768x256_S_d0_1 h_S_) main_v91 main_c_35
  let main_v93 : IVec S_ 1 := andi main_v88 main_v92
  let main_v94 : FVec F S768x256 .f32 := Host.absf main_arg19
  let main_cst_36 : FVec F S_ .f32 := constant S_ .f32 0x7F800000#32
  let main_v95 : FVec F S768x256 .f32 := broadcastInDim S768x256 ![] bcast_S_S768x256 main_cst_36
  let main_v96 : IVec S768x256 1 := cmpf .olt main_v94 main_v95
  let main_c_37 : IVec S_ 1 := constantI S_ 1 1#1
  let main_v97 : IVec S_ 1 := (fun x v => Host.reduce IntOp.andi x v reducesTo_S768x256_S_d0_1 h_S_) main_v96 main_c_37
  let main_v98 : IVec S_ 1 := andi main_v93 main_v97
  let main_v99 : FVec F S768 .f32 := Host.absf main_arg20
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S768x256 .f32) (main_arg15 : FVec F S768x256 .f32) (main_arg16 : FVec F S768 .f32) (main_arg17 : FVec F S768 .f32) (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) (main_v63 : IVec S_ 1) (main_v67 : IVec S_ 1) : IVec S_ 1 :=
  let main_v68 : IVec S_ 1 := andi main_v63 main_v67
  let main_v69 : FVec F S768x256 .f32 := Host.absf main_arg14
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S768x256 .f32 := Host.absf main_arg15
  let main_cst_28 : FVec F S_ .f32 := constant S_ .f32 0x7F800000#32
  let main_v75 : FVec F S768x256 .f32 := broadcastInDim S768x256 ![] bcast_S_S768x256 main_cst_28
  let main_v76 : IVec S768x256 1 := cmpf .olt main_v74 main_v75
  let main_c_29 : IVec S_ 1 := constantI S_ 1 1#1
  let main_v77 : IVec S_ 1 := (fun x v => Host.reduce IntOp.andi x v reducesTo_S768x256_S_d0_1 h_S_) main_v76 main_c_29
  let main_v78 : IVec S_ 1 := andi main_v73 main_v77
  let main_v79 : FVec F S768 .f32 := Host.absf main_arg16
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S768x256 .f32) (main_arg12 : FVec F S768 .f32) (main_arg13 : FVec F S768 .f32) (main_arg14 : FVec F S768x256 .f32) (main_arg15 : FVec F S768x256 .f32) (main_arg16 : FVec F S768 .f32) (main_arg17 : FVec F S768 .f32) (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S768x256 .f32) (main_arg11 : FVec F S768x256 .f32) (main_arg12 : FVec F S768 .f32) (main_arg13 : FVec F S768 .f32) (main_arg14 : FVec F S768x256 .f32) (main_arg15 : FVec F S768x256 .f32) (main_arg16 : FVec F S768 .f32) (main_arg17 : FVec F S768 .f32) (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S65536x256 .f32) (main_arg5 : FVec F S65536x256 .f32) (main_arg6 : FVec F S256x377 .f32) (main_arg7 : FVec F S256 .f32) (main_arg8 : FVec F S256x256 .f32) (main_arg9 : FVec F S256 .f32) (main_arg10 : FVec F S768x256 .f32) (main_arg11 : FVec F S768x256 .f32) (main_arg12 : FVec F S768 .f32) (main_arg13 : FVec F S768 .f32) (main_arg14 : FVec F S768x256 .f32) (main_arg15 : FVec F S768x256 .f32) (main_arg16 : FVec F S768 .f32) (main_arg17 : FVec F S768 .f32) (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S65536x256 .f32 := Host.absf main_arg4
  let main_cst_6 : FVec F S_ .f32 := constant S_ .f32 0x7F800000#32
  let main_v20 : FVec F S65536x256 .f32 := broadcastInDim S65536x256 ![] bcast_S_S65536x256 main_cst_6
  let main_v21 : IVec S65536x256 1 := cmpf .olt main_v19 main_v20
  let main_c_7 : IVec S_ 1 := constantI S_ 1 1#1
  let main_v22 : IVec S_ 1 := (fun x v => Host.reduce IntOp.andi x v reducesTo_S65536x256_S_d0_1 h_S_) main_v21 main_c_7
  let main_v23 : IVec S_ 1 := andi main_v18 main_v22
  let main_v24 : FVec F S65536x256 .f32 := Host.absf main_arg5
  let main_cst_8 : FVec F S_ .f32 := constant S_ .f32 0x7F800000#32
  let main_v25 : FVec F S65536x256 .f32 := broadcastInDim S65536x256 ![] bcast_S_S65536x256 main_cst_8
  let main_v26 : IVec S65536x256 1 := cmpf .olt main_v24 main_v25
  let main_c_9 : IVec S_ 1 := constantI S_ 1 1#1
  let main_v27 : IVec S_ 1 := (fun x v => Host.reduce IntOp.andi x v reducesTo_S65536x256_S_d0_1 h_S_) main_v26 main_c_9
  let main_v28 : IVec S_ 1 := andi main_v23 main_v27
  let main_v29 : FVec F S256x377 .f32 := Host.absf main_arg6
  let main_cst_10 : FVec F S_ .f32 := constant S_ .f32 0x7F800000#32
  let main_v30 : FVec F S256x377 .f32 := broadcastInDim S256x377 ![] bcast_S_S256x377 main_cst_10
  let main_v31 : IVec S256x377 1 := cmpf .olt main_v29 main_v30
  let main_c_11 : IVec S_ 1 := constantI S_ 1 1#1
  let main_v32 : IVec S_ 1 := (fun x v => Host.reduce IntOp.andi x v reducesTo_S256x377_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x256 .f32) (main_arg1 : FVec F S65536x40 .f32) (main_arg2 : FVec F S65536x80 .f32) (main_arg3 : FVec F S65536x256 .f32) (main_arg4 : FVec F S65536x256 .f32) (main_arg5 : FVec F S65536x256 .f32) (main_arg6 : FVec F S256x377 .f32) (main_arg7 : FVec F S256 .f32) (main_arg8 : FVec F S256x256 .f32) (main_arg9 : FVec F S256 .f32) (main_arg10 : FVec F S768x256 .f32) (main_arg11 : FVec F S768x256 .f32) (main_arg12 : FVec F S768 .f32) (main_arg13 : FVec F S768 .f32) (main_arg14 : FVec F S768x256 .f32) (main_arg15 : FVec F S768x256 .f32) (main_arg16 : FVec F S768 .f32) (main_arg17 : FVec F S768 .f32) (main_arg18 : FVec F S768x256 .f32) (main_arg19 : FVec F S768x256 .f32) (main_arg20 : FVec F S768 .f32) (main_arg21 : FVec F S768 .f32) (main_arg22 : FVec F S40x256 .f32) (main_arg23 : FVec F S40 .f32) (main_arg24 : FVec F S1x256 .f32) (main_arg25 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x40 .f32 := Host.absf main_arg1
  let main_cst_0 : FVec F S_ .f32 := constant S_ .f32 0x7F800000#32
  let main_v5 : FVec F S65536x40 .f32 := broadcastInDim S65536x40 ![] bcast_S_S65536x40 main_cst_0
  let main_v6 : IVec S65536x40 1 := cmpf .olt main_v4 main_v5
  let main_c_1 : IVec S_ 1 := constantI S_ 1 1#1
  let main_v7 : IVec S_ 1 := (fun x v => Host.reduce IntOp.andi x v reducesTo_S65536x40_S_d0_1 h_S_) main_v6 main_c_1
  let main_v8 : IVec S_ 1 := andi main_v3 main_v7
  let main_v9 : FVec F S65536x80 .f32 := Host.absf main_arg2
  let main_cst_2 : FVec F S_ .f32 := constant S_ .f32 0x7F800000#32
  let main_v10 : FVec F S65536x80 .f32 := broadcastInDim S65536x80 ![] bcast_S_S65536x80 main_cst_2
  let main_v11 : IVec S65536x80 1 := cmpf .olt main_v9 main_v10
  let main_c_3 : IVec S_ 1 := constantI S_ 1 1#1
  let main_v12 : IVec S_ 1 := (fun x v => Host.reduce IntOp.andi x v reducesTo_S65536x80_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x256 : Shape := ⟨2, ![65536, 256]⟩
abbrev S65536x40 : Shape := ⟨2, ![65536, 40]⟩
abbrev S65536x80 : Shape := ⟨2, ![65536, 80]⟩
abbrev S256x377 : Shape := ⟨2, ![256, 377]⟩
abbrev S256 : Shape := ⟨1, ![256]⟩
abbrev S256x256 : Shape := ⟨2, ![256, 256]⟩
abbrev S768x256 : Shape := ⟨2, ![768, 256]⟩
abbrev S768 : Shape := ⟨1, ![768]⟩
abbrev S40x256 : Shape := ⟨2, ![40, 256]⟩
abbrev S40 : Shape := ⟨1, ![40]⟩
abbrev S1x256 : Shape := ⟨2, ![1, 256]⟩
abbrev S1 : Shape := ⟨1, ![1]⟩
abbrev S256x40 : Shape := ⟨2, ![256, 40]⟩
abbrev S256x1 : Shape := ⟨2, ![256, 1]⟩
abbrev S256x80 : Shape := ⟨2, ![256, 80]⟩
abbrev S1024x256 : Shape := ⟨2, ![1024, 256]⟩
abbrev S1024x40 : Shape := ⟨2, ![1024, 40]⟩
abbrev S1024x80 : Shape := ⟨2, ![1024, 80]⟩
abbrev S1024 : Shape := ⟨1, ![1024]⟩
abbrev S1024x1 : Shape := ⟨2, ![1024, 1]⟩
abbrev S80x256 : Shape := ⟨2, ![80, 256]⟩
abbrev S256x768 : Shape := ⟨2, ![256, 768]⟩
abbrev S1024x768 : Shape := ⟨2, ![1024, 768]⟩
abbrev S1x768 : Shape := ⟨2, ![1, 768]⟩
abbrev S1x40 : Shape := ⟨2, ![1, 40]⟩
abbrev S1x1 : Shape := ⟨2, ![1, 1]⟩

abbrev nBuf : Space → Nat
  | .hbm => 47
  | .vmem => 43
  | .smem => 0
  | _ => 0

abbrev bufTy : (tb : Table) → Fin (tcTables nBuf tb) → BufTy
  | .hbm, ⟨0, _⟩ => ⟨S65536x256, .f32⟩
  | .hbm, ⟨1, _⟩ => ⟨S65536x40, .f32⟩
  | .hbm, ⟨2, _⟩ => ⟨S65536x80, .f32⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S256x377, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S768x256, .f32⟩
  | .hbm, ⟨15, _⟩ => ⟨S768x256, .f32⟩
  | .hbm, ⟨16, _⟩ => ⟨S768, .f32⟩
  | .hbm, ⟨17, _⟩ => ⟨S768, .f32⟩
  | .hbm, ⟨18, _⟩ => ⟨S768x256, .f32⟩
  | .hbm, ⟨19, _⟩ => ⟨S768x256, .f32⟩
  | .hbm, ⟨20, _⟩ => ⟨S768, .f32⟩
  | .hbm, ⟨21, _⟩ => ⟨S768, .f32⟩
  | .hbm, ⟨22, _⟩ => ⟨S40x256, .f32⟩
  | .hbm, ⟨23, _⟩ => ⟨S40, .f32⟩
  | .hbm, ⟨24, _⟩ => ⟨S1x256, .f32⟩
  | .hbm, ⟨25, _⟩ => ⟨S1, .f32⟩
  | .hbm, ⟨26, _⟩ => ⟨S256x256, .f32⟩
  | .hbm, ⟨27, _⟩ => ⟨S256x256, .bf16⟩
  | .hbm, ⟨28, _⟩ => ⟨S256x40, .f32⟩
  | .hbm, ⟨29, _⟩ => ⟨S256x40, .bf16⟩
  | .hbm, ⟨30, _⟩ => ⟨S256x1, .f32⟩
  | .hbm, ⟨31, _⟩ => ⟨S256, .f32⟩
  | .hbm, ⟨32, _⟩ => ⟨S256x80, .f32⟩
  | .hbm, ⟨33, _⟩ => ⟨S256x80, .bf16⟩
  | .hbm, ⟨34, _⟩ => ⟨S256, .f32⟩
  | .hbm, ⟨35, _⟩ => ⟨S256x256, .bf16⟩
  | .hbm, ⟨36, _⟩ => ⟨S768x256, .bf16⟩
  | .hbm, ⟨37, _⟩ => ⟨S768x256, .bf16⟩
  | .hbm, ⟨38, _⟩ => ⟨S768x256, .bf16⟩
  | .hbm, ⟨39, _⟩ => ⟨S768x256, .bf16⟩
  | .hbm, ⟨40, _⟩ => ⟨S768x256, .bf16⟩
  | .hbm, ⟨41, _⟩ => ⟨S768x256, .bf16⟩
  | .hbm, ⟨42, _⟩ => ⟨S40x256, .bf16⟩
  | .hbm, ⟨43, _⟩ => ⟨S65536x40, .f32⟩
  | .hbm, ⟨44, _⟩ => ⟨S65536x256, .f32⟩
  | .hbm, ⟨45, _⟩ => ⟨S65536x256, .f32⟩
  | .hbm, ⟨46, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x40, .f32⟩
  | .local _ .vmem, ⟨3, _⟩ => ⟨S1024x40, .f32⟩
  | .local _ .vmem, ⟨4, _⟩ => ⟨S1024x80, .f32⟩
  | .local _ .vmem, ⟨5, _⟩ => ⟨S1024x80, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x256, .bf16⟩
  | .local _ .vmem, ⟨13, _⟩ => ⟨S256x40, .bf16⟩
  | .local _ .vmem, ⟨14, _⟩ => ⟨S256, .f32⟩
  | .local _ .vmem, ⟨15, _⟩ => ⟨S256x80, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S768x256, .bf16⟩
  | .local _ .vmem, ⟨20, _⟩ => ⟨S768x256, .bf16⟩
  | .local _ .vmem, ⟨21, _⟩ => ⟨S768, .f32⟩
  | .local _ .vmem, ⟨22, _⟩ => ⟨S768, .f32⟩
  | .local _ .vmem, ⟨23, _⟩ => ⟨S768x256, .bf16⟩
  | .local _ .vmem, ⟨24, _⟩ => ⟨S768x256, .bf16⟩
  | .local _ .vmem, ⟨25, _⟩ => ⟨S768, .f32⟩
  | .local _ .vmem, ⟨26, _⟩ => ⟨S768, .f32⟩
  | .local _ .vmem, ⟨27, _⟩ => ⟨S768x256, .bf16⟩
  | .local _ .vmem, ⟨28, _⟩ => ⟨S768x256, .bf16⟩
  | .local _ .vmem, ⟨29, _⟩ => ⟨S768, .f32⟩
  | .local _ .vmem, ⟨30, _⟩ => ⟨S768, .f32⟩
  | .local _ .vmem, ⟨31, _⟩ => ⟨S40x256, .bf16⟩
  | .local _ .vmem, ⟨32, _⟩ => ⟨S40, .f32⟩
  | .local _ .vmem, ⟨33, _⟩ => ⟨S256, .f32⟩
  | .local _ .vmem, ⟨34, _⟩ => ⟨S1, .f32⟩
  | .local _ .vmem, ⟨35, _⟩ => ⟨S1024x40, .f32⟩
  | .local _ .vmem, ⟨36, _⟩ => ⟨S1024x40, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_v17_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg29_0 : Ref sig .tc := ⟨.vmem, 35, rfl⟩
abbrev cc0_stg29_1 : Ref sig .tc := ⟨.vmem, 36, rfl⟩
abbrev cc0_stg30_0 : Ref sig .tc := ⟨.vmem, 37, rfl⟩
abbrev cc0_stg30_1 : Ref sig .tc := ⟨.vmem, 38, rfl⟩
abbrev cc0_stg31_0 : Ref sig .tc := ⟨.vmem, 39, rfl⟩
abbrev cc0_stg31_1 : Ref sig .tc := ⟨.vmem, 40, rfl⟩
abbrev cc0_stg32_0 : Ref sig .tc := ⟨.vmem, 41, rfl⟩
abbrev cc0_stg32_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem29_0 : DmaSem sig := 35
abbrev cc0_sem29_1 : DmaSem sig := 36
abbrev cc0_sem30_0 : DmaSem sig := 37
abbrev cc0_sem30_1 : DmaSem sig := 38
abbrev cc0_sem31_0 : DmaSem sig := 39
abbrev cc0_sem31_1 : DmaSem sig := 40
abbrev cc0_sem32_0 : DmaSem sig := 41
abbrev cc0_sem32_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x40 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x80 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S768x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S768x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S768 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S40x256 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S40 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1024x40 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1024x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1024x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

class Facts₀ : Prop where
  slices_S256x377_S256x256_0_0 : S256x377.Slices ![0, 0] S256x256
  bitsLt_bf16_f32 : FTy.bits .bf16 < FTy.bits .f32
  slices_S256x377_S256x40_0_256 : S256x377.Slices ![0, 256] S256x40
  slices_S256x377_S256x1_0_296 : S256x377.Slices ![0, 296] S256x1
  shapeCasts_S256x1_S256 : S256x1.ShapeCasts S256
  slices_S256x377_S256x80_0_297 : S256x377.Slices ![0, 297] S256x80
  shapeCasts_S1x256_S256 : S1x256.ShapeCasts S256
  inb_S1024x40_S1024x40_0_0 : ∀ a, (![0, 0] : Fin 2 → Nat) a + S1024x40.size a ≤ S1024x40.size a
  h_S1024x40 : 0 < S1024x40.numel
  reduces_S1024x40_S1024 : S1024x40.Reduces [1] S1024
  shapeCasts_S1024_S1024x1 : S1024.ShapeCasts S1024x1
  broadcasts_S1024x1_S1024x40 : S1024x1.Broadcasts S1024x40
  inb_S1024x256_S1024x256_0_0 : ∀ a, (![0, 0] : Fin 2 → Nat) a + S1024x256.size a ≤ S1024x256.size a
  h_S1024x256 : 0 < S1024x256.numel
  inb_S1024x80_S1024x80_0_0 : ∀ a, (![0, 0] : Fin 2 → Nat) a + S1024x80.size a ≤ S1024x80.size a
  h_S1024x80 : 0 < S1024x80.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  transposes_S256x40_p1_0_S40x256 : S256x40.Transposes [1, 0] S40x256
  inb_S256x80_S256x80_0_0 : ∀ a, (![0, 0] : Fin 2 → Nat) a + S256x80.size a ≤ S256x80.size a
  h_S256x80 : 0 < S256x80.numel
  shapeCasts_S256x80_S256x80 : S256x80.ShapeCasts S256x80
  transposes_S256x80_p1_0_S80x256 : S256x80.Transposes [1, 0] S80x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1024x1_S1024x256 : S1024x1.Broadcasts S1024x256
  broadcasts_S1x256_S1024x256 : S1x256.Broadcasts S1024x256
  inb_S768x256_S768x256_0_0 : ∀ a, (![0, 0] : Fin 2 → Nat) a + S768x256.size a ≤ S768x256.size a
  h_S768x256 : 0 < S768x256.numel
  shapeCasts_S768x256_S768x256 : S768x256.ShapeCasts S768x256
  transposes_S768x256_p1_0_S256x768 : S768x256.Transposes [1, 0] S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S40x256_S40x256_0_0 : ∀ a, (![0, 0] : Fin 2 → Nat) a + S40x256.size a ≤ S40x256.size a
  h_S40x256 : 0 < S40x256.numel
  shapeCasts_S40x256_S40x256 : S40x256.ShapeCasts S40x256
  transposes_S40x256_p1_0_S256x40 : S40x256.Transposes [1, 0] S256x40
  inb_S40_S40_0 : ∀ a, (![0] : Fin 1 → Nat) a + S40.size a ≤ S40.size a
  h_S40 : 0 < S40.numel
  shapeCasts_S40_S1x40 : S40.ShapeCasts S1x40
  broadcasts_S1x40_S1024x40 : S1x40.Broadcasts S1024x40
  reduces_S1024x256_S1024 : S1024x256.Reduces [1] S1024
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  dot_S1024x256_S256x256_S1024x256_1_0_0_1_n_n_wf : DotDims.WF S1024x256 S256x256 S1024x256 [1] [0] [0] [1] [] []
  dot_S1024x40_S40x256_S1024x256_1_0_0_1_n_n_wf : DotDims.WF S1024x40 S40x256 S1024x256 [1] [0] [0] [1] [] []
  dot_S1024x80_S80x256_S1024x256_1_0_0_1_n_n_wf : DotDims.WF S1024x80 S80x256 S1024x256 [1] [0] [0] [1] [] []
  dot_S1024x256_S256x768_S1024x768_1_0_0_1_n_n_wf : DotDims.WF S1024x256 S256x768 S1024x768 [1] [0] [0] [1] [] []
  dot_S1024x256_S256x40_S1024x40_1_0_0_1_n_n_wf : DotDims.WF S1024x256 S256x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x40.size a ≤ S65536x40.size a
  hwx0_1 : ∀ i : grid0.Coords, EltTy.bits .f32 = 32 ∨ (Rect.block (s := S65536x40) S1024x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x80.size a ≤ S65536x80.size a
  hwx0_2 : ∀ i : grid0.Coords, EltTy.bits .f32 = 32 ∨ (Rect.block (s := S65536x80) S1024x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S65536x256.size a
  hwx0_4 : ∀ i : grid0.Coords, EltTy.bits .f32 = 32 ∨ (Rect.block (s := S65536x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x40.size a ≤ S256x40.size a
  hwx0_7 : ∀ i : grid0.Coords, EltTy.bits .bf16 = 32 ∨ (Rect.block (s := S256x40) S256x40.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x80.size a ≤ S256x80.size a
  hwx0_9 : ∀ i : grid0.Coords, EltTy.bits .bf16 = 32 ∨ (Rect.block (s := S256x80) S256x80.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x256.size a ≤ S768x256.size a
  hwx0_13 : ∀ i : grid0.Coords, EltTy.bits .bf16 = 32 ∨ (Rect.block (s := S768x256) S768x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x256.size a ≤ S768x256.size a
  hwx0_14 : ∀ i : grid0.Coords, EltTy.bits .bf16 = 32 ∨ (Rect.block (s := S768x256) S768x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768.size a ≤ S768.size a
  hwx0_15 : ∀ i : grid0.Coords, EltTy.bits .f32 = 32 ∨ (Rect.block (s := S768) S768.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S768.size a ≤ S768.size a
  hwx0_16 : ∀ i : grid0.Coords, EltTy.bits .f32 = 32 ∨ (Rect.block (s := S768) S768.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S768x256.size a ≤ S768x256.size a
  hwx0_17 : ∀ i : grid0.Coords, EltTy.bits .bf16 = 32 ∨ (Rect.block (s := S768x256) S768x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S768x256.size a ≤ S768x256.size a
  hwx0_18 : ∀ i : grid0.Coords, EltTy.bits .bf16 = 32 ∨ (Rect.block (s := S768x256) S768x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S768.size a ≤ S768.size a
  hwx0_19 : ∀ i : grid0.Coords, EltTy.bits .f32 = 32 ∨ (Rect.block (s := S768) S768.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S768.size a ≤ S768.size a
  hwx0_20 : ∀ i : grid0.Coords, EltTy.bits .f32 = 32 ∨ (Rect.block (s := S768) S768.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S768x256.size a ≤ S768x256.size a
  hwx0_21 : ∀ i : grid0.Coords, EltTy.bits .bf16 = 32 ∨ (Rect.block (s := S768x256) S768x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S768x256.size a ≤ S768x256.size a
  hwx0_22 : ∀ i : grid0.Coords, EltTy.bits .bf16 = 32 ∨ (Rect.block (s := S768x256) S768x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S768.size a ≤ S768.size a
  hwx0_23 : ∀ i : grid0.Coords, EltTy.bits .f32 = 32 ∨ (Rect.block (s := S768) S768.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S768.size a ≤ S768.size a
  hwx0_24 : ∀ i : grid0.Coords, EltTy.bits .f32 = 32 ∨ (Rect.block (s := S768) S768.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S40x256.size a ≤ S40x256.size a
  hwx0_25 : ∀ i : grid0.Coords, EltTy.bits .bf16 = 32 ∨ (Rect.block (s := S40x256) S40x256.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S40.size a ≤ S40.size a
  hwx0_26 : ∀ i : grid0.Coords, EltTy.bits .f32 = 32 ∨ (Rect.block (s := S40) S40.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256.size a ≤ S256.size a
  hwx0_27 : ∀ i : grid0.Coords, EltTy.bits .f32 = 32 ∨ (Rect.block (s := S256) S256.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1.size a ≤ S1.size a
  hwx0_28 : ∀ i : grid0.Coords, EltTy.bits .f32 = 32 ∨ (Rect.block (s := S1) S1.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x40.size a ≤ S65536x40.size a
  hwx0_29 : ∀ i : grid0.Coords, EltTy.bits .f32 = 32 ∨ (Rect.block (s := S65536x40) S1024x40.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1024x256.size a ≤ S65536x256.size a
  hwx0_30 : ∀ i : grid0.Coords, EltTy.bits .f32 = 32 ∨ (Rect.block (s := S65536x256) S1024x256.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S1024x256.size a ≤ S65536x256.size a
  hwx0_31 : ∀ i : grid0.Coords, EltTy.bits .f32 = 32 ∨ (Rect.block (s := S65536x256) S1024x256.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S1024x256.size a ≤ S65536x256.size a
  hwx0_32 : ∀ i : grid0.Coords, EltTy.bits .f32 = 32 ∨ (Rect.block (s := S65536x256) S1024x256.size (cc0_transform_32 i) (hinb0_32 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x40_S40x256_S1024x256_1_0_0_1_n_n : DotDims S1024x40 S40x256 S1024x256 where
  lhsContracting := [1]
  rhsContracting := [0]
  lhsNonContracting := [0]
  rhsNonContracting := [1]
  lhsBatch := []
  rhsBatch := []
  wf := dot_S1024x40_S40x256_S1024x256_1_0_0_1_n_n_wf
def dot_S1024x80_S80x256_S1024x256_1_0_0_1_n_n : DotDims S1024x80 S80x256 S1024x256 where
  lhsContracting := [1]
  rhsContracting := [0]
  lhsNonContracting := [0]
  rhsNonContracting := [1]
  lhsBatch := []
  rhsBatch := []
  wf := dot_S1024x80_S80x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x40_S1024x40_1_0_0_1_n_n : DotDims S1024x256 S256x40 S1024x40 where
  lhsContracting := [1]
  rhsContracting := [0]
  lhsNonContracting := [0]
  rhsNonContracting := [1]
  lhsBatch := []
  rhsBatch := []
  wf := dot_S1024x256_S256x40_S1024x40_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x80.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S768x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S768x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12) S768x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S768x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg16) S768.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg17) S768.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v14) S768x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v15) S768x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg20) S768.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg21) S768.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v16) S40x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg23) S40.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v8) S256.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg25) S1.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v17_0) S1024x40.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v17_1) S1024x256.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v17_2) S1024x256.size cc0_transform_31 reads0_31 true false 2 stage0_31 sem0_31
    hrank0 hreads0_31 hinb0_31 nbuf0_31 (Memref.isWhole_whole _) hwx0_31 hstage0_31

abbrev win0_32 : Pipeline.Window sig grid0 :=
  Pipeline.Window.ofSpec (Memref.whole main_v17_3) S1024x256.size cc0_transform_32 reads0_32 true false 2 stage0_32 sem0_32
    hrank0 hreads0_32 hinb0_32 nbuf0_32 (Memref.isWhole_whole _) hwx0_32 hstage0_32

abbrev win0 : Fin 33 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | ⟨_ + 33, h⟩ => absurd h (Nat.not_lt.2 (Nat.le_add_left _ _))
abbrev spec0 : Fin 33 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x40 : Shape := ⟨2, ![65536, 40]⟩
abbrev S65536x80 : Shape := ⟨2, ![65536, 80]⟩
abbrev S256x377 : Shape := ⟨2, ![256, 377]⟩
abbrev S256 : Shape := ⟨1, ![256]⟩
abbrev S256x256 : Shape := ⟨2, ![256, 256]⟩
abbrev S768x256 : Shape := ⟨2, ![768, 256]⟩
abbrev S768 : Shape := ⟨1, ![768]⟩
abbrev S40x256 : Shape := ⟨2, ![40, 256]⟩
abbrev S40 : Shape := ⟨1, ![40]⟩
abbrev S1x256 : Shape := ⟨2, ![1, 256]⟩
abbrev S1 : Shape := ⟨1, ![1]⟩
abbrev S_ : Shape := ⟨0, ![]⟩
abbrev S65536 : Shape := ⟨1, ![65536]⟩
abbrev S65536x1 : Shape := ⟨2, ![65536, 1]⟩
abbrev S65536x41 : Shape := ⟨2, ![65536, 41]⟩
abbrev S65536x377 : Shape := ⟨2, ![65536, 377]⟩
abbrev S377x256 : Shape := ⟨2, ![377, 256]⟩
abbrev S256x768 : Shape := ⟨2, ![256, 768]⟩
abbrev S65536x768 : Shape := ⟨2, ![65536, 768]⟩
abbrev S1x768 : Shape := ⟨2, ![1, 768]⟩
abbrev S256x40 : Shape := ⟨2, ![256, 40]⟩
abbrev S1x40 : Shape := ⟨2, ![1, 40]⟩
abbrev S256x1 : Shape := ⟨2, ![256, 1]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S65536x256, .f32⟩
  | 1 => ⟨S65536x40, .f32⟩
  | 2 => ⟨S65536x80, .f32⟩
  | 3 => ⟨S65536x256, .f32⟩
  | 4 => ⟨S65536x256, .f32⟩
  | 5 => ⟨S65536x256, .f32⟩
  | 6 => ⟨S256x377, .f32⟩
  | 7 => ⟨S256, .f32⟩
  | 8 => ⟨S256x256, .f32⟩
  | 9 => ⟨S256, .f32⟩
  | 10 => ⟨S768x256, .f32⟩
  | 11 => ⟨S768x256, .f32⟩
  | 12 => ⟨S768, .f32⟩
  | 13 => ⟨S768, .f32⟩
  | 14 => ⟨S768x256, .f32⟩
  | 15 => ⟨S768x256, .f32⟩
  | 16 => ⟨S768, .f32⟩
  | 17 => ⟨S768, .f32⟩
  | 18 => ⟨S768x256, .f32⟩
  | 19 => ⟨S768x256, .f32⟩
  | 20 => ⟨S768, .f32⟩
  | 21 => ⟨S768, .f32⟩
  | 22 => ⟨S40x256, .f32⟩
  | 23 => ⟨S40, .f32⟩
  | 24 => ⟨S1x256, .f32⟩
  | 25 => ⟨S1, .f32⟩
  | 26 => ⟨S65536x40, .f32⟩
  | 27 => ⟨S_, .f32⟩
  | 28 => ⟨S65536, .f32⟩
  | 29 => ⟨S65536x1, .f32⟩
  | 30 => ⟨S65536x1, .f32⟩
  | 31 => ⟨S_, .f32⟩
  | 32 => ⟨S65536x1, .f32⟩
  | 33 => ⟨S65536x1, .f32⟩
  | 34 => ⟨S65536x40, .f32⟩
  | 35 => ⟨S65536x40, .f32⟩
  | 36 => ⟨S_, .f32⟩
  | 37 => ⟨S65536x1, .f32⟩
  | 38 => ⟨S65536x1, .f32⟩
  | 39 => ⟨S65536x1, .f32⟩
  | 40 => ⟨S65536x41, .f32⟩
  | 41 => ⟨S65536x377, .f32⟩
  | 42 => ⟨S377x256, .f32⟩
  | 43 => ⟨S65536x256, .f32⟩
  | 44 => ⟨S1x256, .f32⟩
  | 45 => ⟨S65536x256, .f32⟩
  | 46 => ⟨S65536x256, .f32⟩
  | 47 => ⟨S65536x256, .f32⟩
  | 48 => ⟨S256x256, .f32⟩
  | 49 => ⟨S65536x256, .f32⟩
  | 50 => ⟨S1x256, .f32⟩
  | 51 => ⟨S65536x256, .f32⟩
  | 52 => ⟨S65536x256, .f32⟩
  | 53 => ⟨S65536x256, .f32⟩
  | 54 => ⟨S256x768, .f32⟩
  | 55 => ⟨S65536x768, .f32⟩
  | 56 => ⟨S1x768, .f32⟩
  | 57 => ⟨S65536x768, .f32⟩
  | 58 => ⟨S65536x768, .f32⟩
  | 59 => ⟨S256x768, .f32⟩
  | 60 => ⟨S65536x768, .f32⟩
  | 61 => ⟨S1x768, .f32⟩
  | 62 => ⟨S65536x768, .f32⟩
  | 63 => ⟨S65536x768, .f32⟩
  | 64 => ⟨S65536x256, .f32⟩
  | 65 => ⟨S65536x256, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S65536x256, .f32⟩
  | 72 => ⟨S65536x256, .f32⟩
  | 73 => ⟨S_, .f32⟩
  | 74 => ⟨S65536x256, .f32⟩
  | 75 => ⟨S65536x256, .f32⟩
  | 76 => ⟨S_, .f32⟩
  | 77 => ⟨S65536x256, .f32⟩
  | 78 => ⟨S65536x256, .f32⟩
  | 79 => ⟨S65536x256, .f32⟩
  | 80 => ⟨S65536x256, .f32⟩
  | 81 => ⟨S65536x256, .f32⟩
  | 82 => ⟨S_, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S65536x256, .f32⟩
  | 89 => ⟨S65536x256, .f32⟩
  | 90 => ⟨S65536x256, .f32⟩
  | 91 => ⟨S_, .f32⟩
  | 92 => ⟨S65536x256, .f32⟩
  | 93 => ⟨S65536x256, .f32⟩
  | 94 => ⟨S65536x256, .f32⟩
  | 95 => ⟨S65536x256, .f32⟩
  | 96 => ⟨S65536x256, .f32⟩
  | 97 => ⟨S256x768, .f32⟩
  | 98 => ⟨S65536x768, .f32⟩
  | 99 => ⟨S1x768, .f32⟩
  | 100 => ⟨S65536x768, .f32⟩
  | 101 => ⟨S65536x768, .f32⟩
  | 102 => ⟨S256x768, .f32⟩
  | 103 => ⟨S65536x768, .f32⟩
  | 104 => ⟨S1x768, .f32⟩
  | 105 => ⟨S65536x768, .f32⟩
  | 106 => ⟨S65536x768, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S65536x256, .f32⟩
  | 115 => ⟨S65536x256, .f32⟩
  | 116 => ⟨S_, .f32⟩
  | 117 => ⟨S65536x256, .f32⟩
  | 118 => ⟨S65536x256, .f32⟩
  | 119 => ⟨S_, .f32⟩
  | 120 => ⟨S65536x256, .f32⟩
  | 121 => ⟨S65536x256, .f32⟩
  | 122 => ⟨S65536x256, .f32⟩
  | 123 => ⟨S65536x256, .f32⟩
  | 124 => ⟨S65536x256, .f32⟩
  | 125 => ⟨S_, .f32⟩
  | 126 => ⟨S65536x256, .f32⟩
  | 127 => ⟨S65536x256, .f32⟩
  | _ => ⟨S65536x256, .f32⟩

abbrev hbmTy0_1 (i : Nat) : BufTy := match i % 128 with
  | 0 => ⟨S_, .f32⟩
  | 1 => ⟨S65536x256, .f32⟩
  | 2 => ⟨S65536x256, .f32⟩
  | 3 => ⟨S65536x256, .f32⟩
  | 4 => ⟨S65536x256, .f32⟩
  | 5 => ⟨S65536x256, .f32⟩
  | 6 => ⟨S_, .f32⟩
  | 7 => ⟨S65536x256, .f32⟩
  | 8 => ⟨S65536x256, .f32⟩
  | 9 => ⟨S65536x256, .f32⟩
  | 10 => ⟨S65536x256, .f32⟩
  | 11 => ⟨S65536x256, .f32⟩
  | 12 => ⟨S256x768, .f32⟩
  | 13 => ⟨S65536x768, .f32⟩
  | 14 => ⟨S1x768, .f32⟩
  | 15 => ⟨S65536x768, .f32⟩
  | 16 => ⟨S65536x768, .f32⟩
  | 17 => ⟨S256x768, .f32⟩
  | 18 => ⟨S65536x768, .f32⟩
  | 19 => ⟨S1x768, .f32⟩
  | 20 => ⟨S65536x768, .f32⟩
  | 21 => ⟨S65536x768, .f32⟩
  | 22 => ⟨S65536x256, .f32⟩
  | 23 => ⟨S65536x256, .f32⟩
  | 24 => ⟨S65536x256, .f32⟩
  | 25 => ⟨S65536x256, .f32⟩
  | 26 => ⟨S65536x256, .f32⟩
  | 27 => ⟨S65536x256, .f32⟩
  | 28 => ⟨S65536x256, .f32⟩
  | 29 => ⟨S65536x256, .f32⟩
  | 30 => ⟨S65536x256, .f32⟩
  | 31 => ⟨S_, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S65536x256, .f32⟩
  | 38 => ⟨S65536x256, .f32⟩
  | 39 => ⟨S65536x256, .f32⟩
  | 40 => ⟨S_, .f32⟩
  | 41 => ⟨S65536x256, .f32⟩
  | 42 => ⟨S65536x256, .f32⟩
  | 43 => ⟨S_, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S_, .f32⟩
  | 50 => ⟨S65536x256, .f32⟩
  | 51 => ⟨S65536x256, .f32⟩
  | 52 => ⟨S65536x256, .f32⟩
  | 53 => ⟨S65536x256, .f32⟩
  | 54 => ⟨S65536x256, .f32⟩
  | 55 => ⟨S256x40, .f32⟩
  | 56 => ⟨S65536x40, .f32⟩
  | 57 => ⟨S1x40, .f32⟩
  | 58 => ⟨S65536x40, .f32⟩
  | 59 => ⟨S65536x40, .f32⟩
  | 60 => ⟨S65536x40, .f32⟩
  | 61 => ⟨S256x1, .f32⟩
  | 62 => ⟨S65536x1, .f32⟩
  | 63 => ⟨S1x1, .f32⟩
  | 64 => ⟨S65536x1, .f32⟩
  | 65 => ⟨S65536x1, .f32⟩
  | 66 => ⟨S65536x1, .f32⟩
  | 67 => ⟨S65536x40, .f32⟩
  | 68 => ⟨S65536x40, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_1 : Ref sig .tc := ⟨.hbm, 73, rfl⟩
abbrev main_v41 : Ref sig .tc := ⟨.hbm, 74, rfl⟩
abbrev main_v42 : Ref sig .tc := ⟨.hbm, 75, rfl⟩
abbrev main_cst_2 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_3 : Ref sig .tc := ⟨.hbm, 82, rfl⟩
abbrev main_v48 : Ref sig .tc := ⟨.hbm, 83, rfl⟩
abbrev main_v49 : Ref sig .tc := ⟨.hbm, 84, rfl⟩
abbrev main_cst_4 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_5 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_6 : Ref sig .tc := ⟨.hbm, 116, rfl⟩
abbrev main_v79 : Ref sig .tc := ⟨.hbm, 117, rfl⟩
abbrev main_v80 : Ref sig .tc := ⟨.hbm, 118, rfl⟩
abbrev main_cst_7 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_8 : Ref sig .tc := ⟨.hbm, 125, rfl⟩
abbrev main_v86 : Ref sig .tc := ⟨.hbm, 126, rfl⟩
abbrev main_v87 : Ref sig .tc := ⟨.hbm, 127, rfl⟩
abbrev main_cst_9 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_10 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_11 : Ref sig .tc := ⟨.hbm, 159, rfl⟩
abbrev main_v117 : Ref sig .tc := ⟨.hbm, 160, rfl⟩
abbrev main_v118 : Ref sig .tc := ⟨.hbm, 161, rfl⟩
abbrev main_cst_12 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_13 : Ref sig .tc := ⟨.hbm, 168, rfl⟩
abbrev main_v124 : Ref sig .tc := ⟨.hbm, 169, rfl⟩
abbrev main_v125 : Ref sig .tc := ⟨.hbm, 170, rfl⟩
abbrev main_cst_14 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_15 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩

abbrev nD : Nat := 1
abbrev τ : Topo := Topo.v7x

variable {F : FTy → Type} [FloatOps F]

class Facts₀ : Prop where
  reducesTo_S65536x40_S65536_d1 : S65536x40.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x40_0_1 : S65536x1.BroadcastsInDim S65536x40 (![0, 1] : Fin 2 → Fin S65536x40.rank)
  concatenates_S65536x40_S65536x1_S65536x41_d1 : Shape.Concatenates [S65536x40, S65536x1] S65536x41 1
  concatenates_S65536x256_S65536x41_S65536x80_S65536x377_d1 : Shape.Concatenates [S65536x256, S65536x41, S65536x80] S65536x377 1
  transposes_S256x377_S377x256_1_0 : S256x377.Transposes [1, 0] S377x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S256x256_S256x256_1_0 : S256x256.Transposes [1, 0] S256x256
  transposes_S768x256_S256x768_1_0 : S768x256.Transposes [1, 0] S256x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  transposes_S40x256_S256x40_1_0 : S40x256.Transposes [1, 0] S256x40
  bcast_S40_S1x40_1 : S40.BroadcastsInDim S1x40 (![1] : Fin 1 → Fin S1x40.rank)
  bcast_S1x40_S65536x40_0_1 : S1x40.BroadcastsInDim S65536x40 (![0, 1] : Fin 2 → Fin S65536x40.rank)
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x377_S377x256_S65536x256_1_0_0_1_n_n_wf : DotDims.WF S65536x377 S377x256 S65536x256 [1] [0] [0] [1] [] []
  dot_S65536x256_S256x256_S65536x256_1_0_0_1_n_n_wf : DotDims.WF S65536x256 S256x256 S65536x256 [1] [0] [0] [1] [] []
  dot_S65536x256_S256x768_S65536x768_1_0_0_1_n_n_wf : DotDims.WF S65536x256 S256x768 S65536x768 [1] [0] [0] [1] [] []
  dot_S65536x256_S256x40_S65536x40_1_0_0_1_n_n_wf : DotDims.WF S65536x256 S256x40 S65536x40 [1] [0] [0] [1] [] []
  dot_S65536x256_S256x1_S65536x1_1_0_0_1_n_n_wf : DotDims.WF S65536x256 S256x1 S65536x1 [1] [0] [0] [1] [] []

variable [Facts₀]

def dot_S65536x377_S377x256_S65536x256_1_0_0_1_n_n : DotDims S65536x377 S377x256 S65536x256 where
  lhsContracting := [1]
  rhsContracting := [0]
  lhsNonContracting := [0]
  rhsNonContracting := [1]
  lhsBatch := []
  rhsBatch := []
  wf := dot_S65536x377_S377x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x40_S65536x40_1_0_0_1_n_n : DotDims S65536x256 S256x40 S65536x40 where
  lhsContracting := [1]
  rhsContracting := [0]
  lhsNonContracting := [0]
  rhsNonContracting := [1]
  lhsBatch := []
  rhsBatch := []
  wf := dot_S65536x256_S256x40_S65536x40_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.Spec.lean ====
/-
  The specification: what every output of this network is, as a function of the argument arrays, ROW BY ROW.

  Every result row `r` depends only on row `r` of the six activation arrays (cond, prev, phase, h1, h2, h3) and on the
  whole weight arrays. Over the extended reals:
    denom r = 1e-5 + sqrt (Σ_k prev(r,k)²)
    pre1 r o = Σ_{k<256} cond(r,k)·d1w(o,k) + Σ_{k<40} (prev(r,k) / denom r)·d1w(o,256+k)
                 + Σ_{k<80} phase(r,k)·d1w(o,297+k) + log (denom r)·d1w(o,296) + d1b(o)
    t1 = tanh pre1,  t2 = tanh (t1·d2wᵀ + d2b),
    g1 = gru t2 h1,  g2 = gru g1 h2,  g3 = gru g2 h3   (the r, z, n gates in that order along the 768 gate rows),
    sig = tanh (g3·doutwᵀ + doutb) · exp (Σ_k g3(k)·gainw(0,k) + gainb).
  The first dense layer is written the way the four separate products compute it; `pre1_eq_concat` is the one algebraic
  law of the certificate: a sum over 377 consecutive positions is the sum of its four consecutive stretches (256, 40, 1, 80),
  in any order — commutativity and associativity of + on the extended reals, no finiteness.
-/
import Idealize.ShloMosaic.PureOps.Ideal
import Idealize.ShloMosaic.Lib.ValueIdx

noncomputable section

open scoped BigOperators

namespace Cert.Spec

open Idealize.ShloMosaic Idealize.ShloMosaic.ValueIdx

/-- An a × b array of extended reals. -/
abbrev Mat (a b : ℕ) : Type := (⟨2, ![a, b]⟩ : Shape).Idx → EReal
/-- A length-a array of extended reals. -/
abbrev Vc (a : ℕ) : Type := (⟨1, ![a]⟩ : Shape).Idx → EReal

/-- The float 1.0, kept as its word. -/
abbrev one : EReal := Ideal.ofBits .f32 0x3F800000#32
/-- The float nearest 1e-5, kept as its word. -/
abbrev eps : EReal := Ideal.ofBits .f32 0x3727C5AC#32

/-- The 26 argument arrays. -/
structure Args where
  cond : Mat 65536 256
  prev : Mat 65536 40
  phase : Mat 65536 80
  h1 : Mat 65536 256
  h2 : Mat 65536 256
  h3 : Mat 65536 256
  d1w : Mat 256 377
  d1b : Vc 256
  d2w : Mat 256 256
  d2b : Vc 256
  wih1 : Mat 768 256
  whh1 : Mat 768 256
  bih1 : Vc 768
  bhh1 : Vc 768
  wih2 : Mat 768 256
  whh2 : Mat 768 256
  bih2 : Vc 768
  bhh2 : Vc 768
  wih3 : Mat 768 256
  whh3 : Mat 768 256
  bih3 : Vc 768
  bhh3 : Vc 768
  doutw : Mat 40 256
  doutb : Vc 40
  gainw : Mat 1 256
  gainb : Vc 1

/-! ## Column positions inside the 377 columns of the first dense layer's weight: [cond 256 | prev 40 | log-gain 1 | phase 80] -/

/-- Column k of the cond stretch. -/
abbrev c0 (k : Fin 256) : Fin 377 := ⟨k.val, by omega⟩
/-- Column k of the normalized-prev stretch. -/
abbrev c1 (k : Fin 40) : Fin 377 := ⟨k.val + 256, by omega⟩
/-- The log-gain column. -/
abbrev c2 : Fin 377 := ⟨296, by omega⟩
/-- Column k of the phase stretch. -/
abbrev c3 (k : Fin 80) : Fin 377 := ⟨k.val + 297, by omega⟩

/-! ## The three gate stretches of a GRU's 768 gate rows: [r 256 | z 256 | n 256] -/

abbrev lo (j : Fin 256) : Fin 768 := ⟨j.val, by omega⟩
abbrev mid (j : Fin 256) : Fin 768 := ⟨j.val + 256, by omega⟩
abbrev hi (j : Fin 256) : Fin 768 := ⟨j.val + 512, by omega⟩

/-- A dense layer on one row: Σ_k x(k)·W(o,k) + b(o). -/
def lin {K N : ℕ} (x : Fin K → EReal) (W : Mat N K) (b : Vc N) (o : Fin N) : EReal :=
  (∑ k : Fin K, x k * W (ix2 o k)) + b (ix1 o)

/-- A GRU cell on one row: input x, state h. -/
def gru (x h : Fin 256 → EReal) (Wi Wh : Mat 768 256) (bi bh : Vc 768) (j : Fin 256) : EReal :=
  (one - Ideal.logistic (lin x Wi bi (mid j) + lin h Wh bh (mid j)))
      * Ideal.tanh (lin x Wi bi (hi j) + Ideal.logistic (lin x Wi bi (lo j) + lin h Wh bh (lo j)) * lin h Wh bh (hi j))
    + Ideal.logistic (lin x Wi bi (mid j) + lin h Wh bh (mid j)) * h j

variable (A : Args) (r : Fin 65536)

/-- 1e-5 + the row's Euclidean norm. -/
def denom : EReal := eps + Ideal.sqrt (∑ k : Fin 40, A.prev (ix2 r k) * A.prev (ix2 r k))

/-- The normalized prev row. -/
def prevn (k : Fin 40) : EReal := Ideal.div (A.prev (ix2 r k)) (denom A r)

/-- The first dense layer before its tanh, as four separate products. -/
def pre1 (o : Fin 256) : EReal :=
  ((((∑ k : Fin 256, A.cond (ix2 r k) * A.d1w (ix2 o (c0 k))) + (∑ k : Fin 40, prevn A r k * A.d1w (ix2 o (c1 k))))
      + (∑ k : Fin 80, A.phase (ix2 r k) * A.d1w (ix2 o (c3 k)))) + Ideal.log (denom A r) * A.d1w (ix2 o c2)) + A.d1b (ix1 o)

def t1 (o : Fin 256) : EReal := Ideal.tanh (pre1 A r o)
def t2 (o : Fin 256) : EReal := Ideal.tanh (lin (t1 A r) A.d2w A.d2b o)
def g1 : Fin 256 → EReal := gru (t2 A r) (fun k => A.h1 (ix2 r k)) A.wih1 A.whh1 A.bih1 A.bhh1
def g2 : Fin 256 → EReal := gru (g1 A r) (fun k => A.h2 (ix2 r k)) A.wih2 A.whh2 A.bih2 A.bhh2
def g3 : Fin 256 → EReal := gru (g2 A r) (fun k => A.h3 (ix2 r k)) A.wih3 A.whh3 A.bih3 A.bhh3
/-- The output gain's logit. -/
def gainLogit : EReal := (∑ k : Fin 256, g3 A r k * A.gainw (ix2 (0 : Fin 1) k)) + A.gainb (ix1 (0 : Fin 1))
def sig (o : Fin 40) : EReal := Ideal.tanh (lin (g3 A r) A.doutw A.doutb o) * Ideal.exp (gainLogit A r)

/-! ## The result arrays -/

def Gsig : Mat 65536 40 := fun i => sig A (i 0) (i 1)
def G1 : Mat 65536 256 := fun i => g1 A (i 0) (i 1)
def G2 : Mat 65536 256 := fun i => g2 A (i 0) (i 1)
def G3 : Mat 65536 256 := fun i => g3 A (i 0) (i 1)

/-! ## The one law: a sum over 377 consecutive columns is the sum of its stretches -/

/-- The concatenated input row [cond | prevn | log denom | phase] at column k. -/
def catRow (k : Fin 377) : EReal :=
  if h : k.val < 256 then A.cond (ix2 r ⟨k.val, h⟩)
  else if h' : k.val < 296 then prevn A r ⟨k.val - 256, by omega⟩
  else if h'' : k.val < 297 then Ideal.log (denom A r)
  else A.phase (ix2 r ⟨k.val - 297, by have := k.isLt; omega⟩)

/-- A sum over the 377 columns, stretch by stretch. -/
theorem sum_377 (f : Fin 377 → EReal) :
    ∑ k : Fin 377, f k = (((∑ k : Fin 256, f (c0 k)) + (∑ k : Fin 40, f (c1 k))) + (∑ k : Fin 80, f (c3 k))) + f c2 := by
  have e1 : ∑ k : Fin 377, f k = ∑ k : Fin (297 + 80), f k := rfl
  have e2 := Fin.sum_univ_add (M := EReal) (a := 297) (b := 80) (fun k => f k)
  have e3 := Fin.sum_univ_add (M := EReal) (a := 296) (b := 1) (fun k => f (Fin.castAdd 80 k))
  have e4 := Fin.sum_univ_add (M := EReal) (a := 256) (b := 40) (fun k => f (Fin.castAdd 80 (Fin.castAdd 1 k)))
  rw [e1, e2]
  have e3' : ∑ k : Fin 297, f (Fin.castAdd 80 k) = ∑ k : Fin (296 + 1), f (Fin.castAdd 80 k) := rfl
  rw [e3', e3]
  have e4' : ∑ k : Fin 296, f (Fin.castAdd 80 (Fin.castAdd 1 k)) = ∑ k : Fin (256 + 40), f (Fin.castAdd 80 (Fin.castAdd 1 k)) := rfl
  rw [e4', e4, Fin.sum_univ_one]
  have h0 : ∀ k : Fin 256, f (Fin.castAdd 80 (Fin.castAdd 1 (Fin.castAdd 40 k))) = f (c0 k) := fun k => congrArg f (Fin.ext rfl)
  have h1 : ∀ k : Fin 40, f (Fin.castAdd 80 (Fin.castAdd 1 (Fin.natAdd 256 k))) = f (c1 k) := fun k =>
    congrArg f (Fin.ext (by show 256 + k.val = k.val + 256; omega))
  have h2 : f (Fin.castAdd 80 (Fin.natAdd 296 (0 : Fin 1))) = f c2 := congrArg f (Fin.ext rfl)
  have h3 : ∀ k : Fin 80, f (Fin.natAdd 297 k) = f (c3 k) := fun k =>
    congrArg f (Fin.ext (by show 297 + k.val = k.val + 297; omega))
  simp only [h0, h1, h2, h3]
  abel

theorem catRow_c0 (k : Fin 256) : catRow A r (c0 k) = A.cond (ix2 r k) := by
  unfold catRow; rw [dif_pos (show (c0 k).val < 256 from k.isLt)]
theorem catRow_c1 (k : Fin 40) : catRow A r (c1 k) = prevn A r k := by
  unfold catRow
  rw [dif_neg (show ¬ (c1 k).val < 256 by show ¬ k.val + 256 < 256; omega),
    dif_pos (show (c1 k).val < 296 by show k.val + 256 < 296; have := k.isLt; omega)]
  exact congrArg (prevn A r) (Fin.ext (by show k.val + 256 - 256 = k.val; omega))
theorem catRow_c2 : catRow A r c2 = Ideal.log (denom A r) := by
  unfold catRow
  rw [dif_neg (show ¬ (c2).val < 256 by show ¬ 296 < 256; omega), dif_neg (show ¬ (c2).val < 296 by show ¬ 296 < 296; omega),
    dif_pos (show (c2).val < 297 by show 296 < 297; omega)]
theorem catRow_c3 (k : Fin 80) : catRow A r (c3 k) = A.phase (ix2 r k) := by
  unfold catRow
  rw [dif_neg (show ¬ (c3 k).val < 256 by show ¬ k.val + 297 < 256; omega),
    dif_neg (show ¬ (c3 k).val < 296 by show ¬ k.val + 297 < 296; omega),
    dif_neg (show ¬ (c3 k).val < 297 by show ¬ k.val + 297 < 297; omega)]
  exact congrArg (fun q => A.phase (ix2 r q)) (Fin.ext (by show k.val + 297 - 297 = k.val; omega))

/-- The first dense layer as ONE product over the concatenated row: the four stretches of the 377-term sum. -/
theorem pre1_eq_concat (o : Fin 256) :
    lin (catRow A r) A.d1w A.d1b o = pre1 A r o := by
  unfold lin pre1
  rw [sum_377]
  simp only [catRow_c0, catRow_c1, catRow_c2, catRow_c3]

/-- The word 0x3F800000 is the real number 1. -/
theorem one_eq : one = 1 := by
  show Ideal.ofBits .f32 0x3F800000#32 = 1
  simp [Ideal.ofBits, Ideal.ieee, -EReal.coe_mul]; norm_num

/-- The sigmoid spelled out with that literal, 1 / (1 + e^(-x)), is the logistic function. -/
theorem logistic_spelled (x : EReal) : Ideal.div one (one + Ideal.exp (-x)) = Ideal.logistic x := by
  rw [one_eq]; rfl

/-! ## A grid point's blocks, seen from row p of the block, are row r of the arrays

The kernel body at one grid point sees 29 blocks: a 1024-row tile of each of the six activation arrays, and every weight
whole — the first dense layer's weight as its four column stretches (the log-gain stretch as a length-256 vector), the gain
head's 1×256 weight as a length-256 vector. `BlockAt A r p x0 … x28` says that row p of the tiles is row r of the arrays
and that the weight blocks are the arrays. -/

structure BlockAt (A : Args) (r : Fin 65536) (p : Fin 1024)
    (x0 : Mat 1024 256) (x1 : Mat 1024 40) (x2 : Mat 1024 80) (x3 x4 x5 : Mat 1024 256)
    (x6 : Mat 256 256) (x7 : Mat 256 40) (x8 : Vc 256) (x9 : Mat 256 80) (x10 : Vc 256)
    (x11 : Mat 256 256) (x12 : Vc 256)
    (x13 x14 : Mat 768 256) (x15 x16 : Vc 768) (x17 x18 : Mat 768 256) (x19 x20 : Vc 768)
    (x21 x22 : Mat 768 256) (x23 x24 : Vc 768)
    (x25 : Mat 40 256) (x26 : Vc 40) (x27 : Vc 256) (x28 : Vc 1) : Prop where
  cond : ∀ k : Fin 256, x0 (ix2 p k) = A.cond (ix2 r k)
  prev : ∀ k : Fin 40, x1 (ix2 p k) = A.prev (ix2 r k)
  phase : ∀ k : Fin 80, x2 (ix2 p k) = A.phase (ix2 r k)
  h1 : ∀ k : Fin 256, x3 (ix2 p k) = A.h1 (ix2 r k)
  h2 : ∀ k : Fin 256, x4 (ix2 p k) = A.h2 (ix2 r k)
  h3 : ∀ k : Fin 256, x5 (ix2 p k) = A.h3 (ix2 r k)
  wc : ∀ (o : Fin 256) (k : Fin 256), x6 (ix2 o k) = A.d1w (ix2 o (c0 k))
  wp : ∀ (o : Fin 256) (k : Fin 40), x7 (ix2 o k) = A.d1w (ix2 o (c1 k))
  wg : ∀ o : Fin 256, x8 (ix1 o) = A.d1w (ix2 o c2)
  wph : ∀ (o : Fin 256) (k : Fin 80), x9 (ix2 o k) = A.d1w (ix2 o (c3 k))
  d1b : x10 = A.d1b
  d2w : x11 = A.d2w
  d2b : x12 = A.d2b
  wih1 : x13 = A.wih1
  whh1 : x14 = A.whh1
  bih1 : x15 = A.bih1
  bhh1 : x16 = A.bhh1
  wih2 : x17 = A.wih2
  whh2 : x18 = A.whh2
  bih2 : x19 = A.bih2
  bhh2 : x20 = A.bhh2
  wih3 : x21 = A.wih3
  whh3 : x22 = A.whh3
  bih3 : x23 = A.bih3
  bhh3 : x24 = A.bhh3
  doutw : x25 = A.doutw
  doutb : x26 = A.doutb
  gainw : ∀ k : Fin 256, x27 (ix1 k) = A.gainw (ix2 (0 : Fin 1) k)
  gainb : x28 = A.gainb

end Cert.Spec

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.KVec.lean ====
/-
  The kernel body's building blocks as vector-level terms, each read on one row.

  A dense layer in the body is x·Wᵀ + b spelled as: narrow x to bf16 (the identity on extended reals), cast the weight block to
  its own shape, transpose it, multiply into a zero accumulator, add the bias spread over the rows. Entry (p, o) is
  Σ_k x(p,k)·W(o,k) + b(o): `Spec.lin` of row p. A GRU cell's gate arithmetic reads three column stretches of the two
  768-wide pre-activations; entry (p, j) depends on their entries (p, j), (p, j+256), (p, j+512) and on h(p, j). The row norm is
  a lane sum of squares kept as an [M, 1] column.
-/
import Idealize.ShloMosaic.PureOps.Ideal.Laws
import Idealize.ShloMosaic.Lib.Pipeline.Value
import Idealize.ShloMosaic.Lib.ValueIdx
import Idealize.ShloMosaic.Lib.ValueLayout
import proofs.«158528_j47012712022158_2_alg».proof.Proof.Spec
import proofs.«158528_j47012712022158_2_alg».proof.Proof.LibMatmulRows
import proofs.«158528_j47012712022158_2_alg».proof.Proof.LibKeepdims
import proofs.«158528_j47012712022158_2_alg».proof.Proof.LibVectorAsMatrix
import proofs.«158528_j47012712022158_2_alg».proof.Proof.LibReduceAt

noncomputable section

open scoped BigOperators

namespace Cert.KVec

open Idealize.ShloMosaic Idealize.ShloMosaic.ValueIdx Cert.Spec

variable {M K N : ℕ}

/-- What is needed of a rank-2 × rank-2 product's dimension record: it contracts the left operand's columns with the right
    operand's rows, and the two free axes are the result's. -/
structure RowsCols (d : DotDims (⟨2, ![M, K]⟩ : Shape) (⟨2, ![K, N]⟩ : Shape) (⟨2, ![M, N]⟩ : Shape)) : Prop where
  hcl : d.lhsContracting = [1]
  hcr : d.rhsContracting = [0]
  hrk : d.contr.rank = 1
  hs : d.contr.size ⟨0, by omega⟩ = K
  hl0 : ∀ i q, (d.lhsIdx i q 0).val = (i 0).val
  hr1 : ∀ i q, (d.rhsIdx i q 1).val = (i 1).val

/-- x·Wᵀ as the body spells it. -/
def mmT (d : DotDims (⟨2, ![M, K]⟩ : Shape) (⟨2, ![K, N]⟩ : Shape) (⟨2, ![M, N]⟩ : Shape))
    (x : FVec Ideal (⟨2, ![M, K]⟩ : Shape) .f32) (W : FVec Ideal (⟨2, ![N, K]⟩ : Shape) .bf16)
    (hb : FTy.bits .bf16 < FTy.bits .f32) (hc : (⟨2, ![N, K]⟩ : Shape).ShapeCasts ⟨2, ![N, K]⟩)
    (hT : (⟨2, ![N, K]⟩ : Shape).Transposes [1, 0] ⟨2, ![K, N]⟩) : FVec Ideal (⟨2, ![M, N]⟩ : Shape) .f32 :=
  matmul d none (truncf .bf16 x hb) (transpose ⟨2, ![K, N]⟩ [1, 0] (shapeCast ⟨2, ![N, K]⟩ W hc) hT)
    (constant ⟨2, ![M, N]⟩ .f32 0x00000000#32)

/-- Entry (p, o) of x·Wᵀ is the sum over k of x(p,k)·W(o,k). -/
theorem mmT_apply (d : DotDims (⟨2, ![M, K]⟩ : Shape) (⟨2, ![K, N]⟩ : Shape) (⟨2, ![M, N]⟩ : Shape)) (hd : RowsCols d)
    (x : FVec Ideal (⟨2, ![M, K]⟩ : Shape) .f32) (W : FVec Ideal (⟨2, ![N, K]⟩ : Shape) .bf16)
    (hb : FTy.bits .bf16 < FTy.bits .f32) (hc : (⟨2, ![N, K]⟩ : Shape).ShapeCasts ⟨2, ![N, K]⟩)
    (hT : (⟨2, ![N, K]⟩ : Shape).Transposes [1, 0] ⟨2, ![K, N]⟩) (p : Fin M) (o : Fin N) :
    mmT d x W hb hc hT (ix2 p o) = ∑ k : Fin K, x (ix2 p k) * W (ix2 o k) := by
  unfold mmT
  refine (MatmulRows.matmul_zero_apply d none hd.hcl hd.hcr hd.hrk hd.hs hd.hl0 hd.hr1 _ _ (ix2 p o)).trans ?_
  refine Finset.sum_congr rfl fun k _ => ?_
  have e : transpose (⟨2, ![K, N]⟩ : Shape) [1, 0] (shapeCast ⟨2, ![N, K]⟩ W hc) hT (ix2 k o) = W (ix2 o k) := by
    rw [shapeCast_self]
    exact transpose_apply [1, 0] W hT (ix2 k o) (ix2 o k) (fun b => match b with | ⟨0, _⟩ => rfl | ⟨1, _⟩ => rfl)
  show x (ix2 p k) * transpose (⟨2, ![K, N]⟩ : Shape) [1, 0] (shapeCast ⟨2, ![N, K]⟩ W hc) hT (ix2 k o) = x (ix2 p k) * W (ix2 o k)
  rw [e]

/-- A length-N bias spread over M rows: [N] → [1, N] → [M, N]. -/
def rowBias (b : FVec Ideal (⟨1, ![N]⟩ : Shape) .f32) (hc : (⟨1, ![N]⟩ : Shape).ShapeCasts ⟨2, ![1, N]⟩)
    (hbc : (⟨2, ![1, N]⟩ : Shape).Broadcasts ⟨2, ![M, N]⟩) : FVec Ideal (⟨2, ![M, N]⟩ : Shape) .f32 :=
  broadcastTo ⟨2, ![M, N]⟩ (shapeCast ⟨2, ![1, N]⟩ b hc) hbc

theorem rowBias_apply (b : FVec Ideal (⟨1, ![N]⟩ : Shape) .f32) (hc : (⟨1, ![N]⟩ : Shape).ShapeCasts ⟨2, ![1, N]⟩)
    (hbc : (⟨2, ![1, N]⟩ : Shape).Broadcasts ⟨2, ![M, N]⟩) (p : Fin M) (o : Fin N) :
    rowBias b hc hbc (ix2 p o) = b (ix1 o) :=
  (broadcastTo_1b_ab_apply _ hbc p o).trans (VectorAsMatrix.row_apply b hc 0 o)

/-- A dense layer as the body spells it. -/
def denseV (d : DotDims (⟨2, ![M, K]⟩ : Shape) (⟨2, ![K, N]⟩ : Shape) (⟨2, ![M, N]⟩ : Shape))
    (x : FVec Ideal (⟨2, ![M, K]⟩ : Shape) .f32) (W : FVec Ideal (⟨2, ![N, K]⟩ : Shape) .bf16)
    (b : FVec Ideal (⟨1, ![N]⟩ : Shape) .f32)
    (hb : FTy.bits .bf16 < FTy.bits .f32) (hc : (⟨2, ![N, K]⟩ : Shape).ShapeCasts ⟨2, ![N, K]⟩)
    (hT : (⟨2, ![N, K]⟩ : Shape).Transposes [1, 0] ⟨2, ![K, N]⟩)
    (hcb : (⟨1, ![N]⟩ : Shape).ShapeCasts ⟨2, ![1, N]⟩) (hbc : (⟨2, ![1, N]⟩ : Shape).Broadcasts ⟨2, ![M, N]⟩) :
    FVec Ideal (⟨2, ![M, N]⟩ : Shape) .f32 :=
  addf (mmT d x W hb hc hT) (rowBias b hcb hbc)

/-- Row p of a dense layer is `Spec.lin` of row p of its input. -/
theorem denseV_apply (d : DotDims (⟨2, ![M, K]⟩ : Shape) (⟨2, ![K, N]⟩ : Shape) (⟨2, ![M, N]⟩ : Shape)) (hd : RowsCols d)
    (x : FVec Ideal (⟨2, ![M, K]⟩ : Shape) .f32) (W : FVec Ideal (⟨2, ![N, K]⟩ : Shape) .bf16)
    (b : FVec Ideal (⟨1, ![N]⟩ : Shape) .f32)
    (hb : FTy.bits .bf16 < FTy.bits .f32) (hc : (⟨2, ![N, K]⟩ : Shape).ShapeCasts ⟨2, ![N, K]⟩)
    (hT : (⟨2, ![N, K]⟩ : Shape).Transposes [1, 0] ⟨2, ![K, N]⟩)
    (hcb : (⟨1, ![N]⟩ : Shape).ShapeCasts ⟨2, ![1, N]⟩) (hbc : (⟨2, ![1, N]⟩ : Shape).Broadcasts ⟨2, ![M, N]⟩)
    (p : Fin M) (X : Fin K → EReal) (hX : ∀ k, x (ix2 p k) = X k) (o : Fin N) :
    denseV d x W b hb hc hT hcb hbc (ix2 p o) = lin X W b o := by
  show mmT d x W hb hc hT (ix2 p o) + rowBias b hcb hbc (ix2 p o) = _
  rw [mmT_apply d hd, rowBias_apply]
  unfold lin
  simp only [hX]

/-- A column stretch of a row: columns off … off+255 of an [M, 768] array. -/
theorem stretch_apply (off : ℕ) (g : FVec Ideal (⟨2, ![M, 768]⟩ : Shape) .f32)
    (hs : (⟨2, ![M, 768]⟩ : Shape).Slices ![0, off] ⟨2, ![M, 256]⟩) (p : Fin M) (j : Fin 256) (hj : j.val + off < 768) :
    extractStridedSlice (⟨2, ![M, 256]⟩ : Shape) ![0, off] g hs (ix2 p j) = g (ix2 p ⟨j.val + off, hj⟩) :=
  extractStridedSlice_apply ![0, off] g hs (ix2 p j) (ix2 p ⟨j.val + off, hj⟩) (fun a => match a with
    | ⟨0, _⟩ => by show p.val = 0 + p.val; omega
    | ⟨1, _⟩ => by show j.val + off = off + j.val; omega)

/-- The GRU gate arithmetic as the body spells it, over the two 768-wide pre-activations and the state. -/
def gruV (gi gh : FVec Ideal (⟨2, ![M, 768]⟩ : Shape) .f32) (h : FVec Ideal (⟨2, ![M, 256]⟩ : Shape) .f32)
    (h0 : (⟨2, ![M, 768]⟩ : Shape).Slices ![0, 0] ⟨2, ![M, 256]⟩)
    (h256 : (⟨2, ![M, 768]⟩ : Shape).Slices ![0, 256] ⟨2, ![M, 256]⟩)
    (h512 : (⟨2, ![M, 768]⟩ : Shape).Slices ![0, 512] ⟨2, ![M, 256]⟩) : FVec Ideal (⟨2, ![M, 256]⟩ : Shape) .f32 :=
  addf
    (mulf
      (subf (broadcast (⟨2, ![M, 256]⟩ : Shape) (Scalar.ofBits .f32 0x3F800000#32))
        (logistic (addf (extractStridedSlice (⟨2, ![M, 256]⟩ : Shape) ![0, 256] gi h256)
          (extractStridedSlice (⟨2, ![M, 256]⟩ : Shape) ![0, 256] gh h256))))
      (tanh (addf (extractStridedSlice (⟨2, ![M, 256]⟩ : Shape) ![0, 512] gi h512)
        (mulf (logistic (addf (extractStridedSlice (⟨2, ![M, 256]⟩ : Shape) ![0, 0] gi h0)
            (extractStridedSlice (⟨2, ![M, 256]⟩ : Shape) ![0, 0] gh h0)))
          (extractStridedSlice (⟨2, ![M, 256]⟩ : Shape) ![0, 512] gh h512)))))
    (mulf (logistic (addf (extractStridedSlice (⟨2, ![M, 256]⟩ : Shape) ![0, 256] gi h256)
        (extractStridedSlice (⟨2, ![M, 256]⟩ : Shape) ![0, 256] gh h256))) h)

/-- Row p of the gate arithmetic, from row p of the pre-activations and of the state. -/
theorem gruV_apply (gi gh : FVec Ideal (⟨2, ![M, 768]⟩ : Shape) .f32) (h : FVec Ideal (⟨2, ![M, 256]⟩ : Shape) .f32)
    (h0 : (⟨2, ![M, 768]⟩ : Shape).Slices ![0, 0] ⟨2, ![M, 256]⟩)
    (h256 : (⟨2, ![M, 768]⟩ : Shape).Slices ![0, 256] ⟨2, ![M, 256]⟩)
    (h512 : (⟨2, ![M, 768]⟩ : Shape).Slices ![0, 512] ⟨2, ![M, 256]⟩)
    (p : Fin M) (Gi Gh : Fin 768 → EReal) (H : Fin 256 → EReal)
    (hgi : ∀ o, gi (ix2 p o) = Gi o) (hgh : ∀ o, gh (ix2 p o) = Gh o) (hh : ∀ j, h (ix2 p j) = H j) (j : Fin 256) :
    gruV gi gh h h0 h256 h512 (ix2 p j)
      = (one - Ideal.logistic (Gi (mid j) + Gh (mid j)))
          * Ideal.tanh (Gi (hi j) + Ideal.logistic (Gi (lo j) + Gh (lo j)) * Gh (hi j))
        + Ideal.logistic (Gi (mid j) + Gh (mid j)) * H j := by
  have hlo : j.val + 0 < 768 := by have := j.isLt; omega
  have hmid : j.val + 256 < 768 := by have := j.isLt; omega
  have hhi : j.val + 512 < 768 := by have := j.isLt; omega
  have elo : (⟨j.val + 0, hlo⟩ : Fin 768) = lo j := Fin.ext (by show j.val + 0 = j.val; omega)
  have si0 := stretch_apply 0 gi h0 p j hlo
  have sh0 := stretch_apply 0 gh h0 p j hlo
  have si1 := stretch_apply 256 gi h256 p j hmid
  have sh1 := stretch_apply 256 gh h256 p j hmid
  have si2 := stretch_apply 512 gi h512 p j hhi
  have sh2 := stretch_apply 512 gh h512 p j hhi
  rw [elo] at si0 sh0
  show (Ideal.ofBits .f32 0x3F800000#32
        - Ideal.logistic (extractStridedSlice (⟨2, ![M, 256]⟩ : Shape) ![0, 256] gi h256 (ix2 p j)
            + extractStridedSlice (⟨2, ![M, 256]⟩ : Shape) ![0, 256] gh h256 (ix2 p j)))
      * Ideal.tanh (extractStridedSlice (⟨2, ![M, 256]⟩ : Shape) ![0, 512] gi h512 (ix2 p j)
          + Ideal.logistic (extractStridedSlice (⟨2, ![M, 256]⟩ : Shape) ![0, 0] gi h0 (ix2 p j)
              + extractStridedSlice (⟨2, ![M, 256]⟩ : Shape) ![0, 0] gh h0 (ix2 p j))
            * extractStridedSlice (⟨2, ![M, 256]⟩ : Shape) ![0, 512] gh h512 (ix2 p j))
      + Ideal.logistic (extractStridedSlice (⟨2, ![M, 256]⟩ : Shape) ![0, 256] gi h256 (ix2 p j)
            + extractStridedSlice (⟨2, ![M, 256]⟩ : Shape) ![0, 256] gh h256 (ix2 p j)) * h (ix2 p j) = _
  rw [si0, sh0, si1, sh1, si2, sh2, hgi, hgi, hgi, hgh, hgh, hgh, hh]

/-- 1e-5 + the rows' Euclidean norms, kept as an [M, 1] column, as the body spells it. -/
def denomV (v : FVec Ideal (⟨2, ![M, 40]⟩ : Shape) .f32)
    (hr : (⟨2, ![M, 40]⟩ : Shape).Reduces [(1 : Fin 2)] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) : FVec Ideal (⟨2, ![M, 1]⟩ : Shape) .f32 :=
  addf (broadcast (⟨2, ![M, 1]⟩ : Shape) (Scalar.ofBits .f32 0x3727C5AC#32))
    (sqrt (shapeCast (⟨2, ![M, 1]⟩ : Shape) (multiReduction .add [(1 : Fin 2)] ⟨1, ![M]⟩ (mulf v v) 0x00000000#32 hr hφ hacc) hc))

theorem denomV_apply (v : FVec Ideal (⟨2, ![M, 40]⟩ : Shape) .f32)
    (hr : (⟨2, ![M, 40]⟩ : Shape).Reduces [(1 : Fin 2)] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (p : Fin M) (u : Fin 1) (P : Fin 40 → EReal)
    (hP : ∀ k, v (ix2 p k) = P k) :
    denomV v hr hφ hacc hc (ix2 p u) = eps + Ideal.sqrt (∑ k : Fin 40, P k * P k) := by
  show Ideal.ofBits .f32 0x3727C5AC#32
      + Ideal.sqrt (shapeCast (⟨2, ![M, 1]⟩ : Shape) (multiReduction .add [(1 : Fin 2)] ⟨1, ![M]⟩ (mulf v v) 0x00000000#32 hr hφ hacc) hc (ix2 p u)) = _
  rw [Keepdims.shapeCast_a_a1_apply, ReduceAt.row_sum_apply]
  refine congrArg (fun s => eps + Ideal.sqrt s) (Finset.sum_congr rfl fun k _ => ?_)
  show v (ix2 p k) * v (ix2 p k) = _
  rw [hP]

end Cert.KVec

end
-- ==== Proof.KPay.lean ====
/-
  The kernel body's payloads, layer by layer, read on one row.

  Each payload of the body is one of the building blocks of KVec (by unfolding): the first dense layer's pre-activation
  (three products against the column stretches of its weight, the log-gain term, the bias), the two dense layers that feed the
  first GRU cell's input gates, the state gates, the gate arithmetic (three times), the output product, and the output row
  tanh(·)·exp(gain). Each row lemma takes what the previous layer's row is as a hypothesis.
-/
import proofs.«158528_j47012712022158_2_alg».proof.Proof.Gen.KernelIdeal.Skeleton
import proofs.«158528_j47012712022158_2_alg».proof.Proof.KVec

noncomputable section

open scoped BigOperators

namespace Cert.KernelIdeal.Pay

open Cert.KernelIdeal Cert.KernelIdeal.Gen
open Idealize.ShloMosaic Idealize.ShloMosaic.ValueIdx Cert.Spec Cert.KVec

/-! ## The five products' dimension records -/

theorem rc256 : RowsCols dot_S1024x256_S256x256_S1024x256_1_0_0_1_n_n where
  hcl := rfl
  hcr := rfl
  hrk := rfl
  hs := rfl
  hl0 := fun i q => by
    unfold DotDims.lhsIdx
    rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
    rfl
  hr1 := fun i q => by
    unfold DotDims.rhsIdx
    rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
    rfl

theorem rc40 : RowsCols dot_S1024x40_S40x256_S1024x256_1_0_0_1_n_n where
  hcl := rfl
  hcr := rfl
  hrk := rfl
  hs := rfl
  hl0 := fun i q => by
    unfold DotDims.lhsIdx
    rw [dif_neg (show ¬(0 : Fin S1024x40.rank) ∈ dot_S1024x40_S40x256_S1024x256_1_0_0_1_n_n.lhsBatch by decide), dif_pos (show (0 : Fin S1024x40.rank) ∈ dot_S1024x40_S40x256_S1024x256_1_0_0_1_n_n.lhsNonContracting by decide)]
    rfl
  hr1 := fun i q => by
    unfold DotDims.rhsIdx
    rw [dif_neg (show ¬(1 : Fin S40x256.rank) ∈ dot_S1024x40_S40x256_S1024x256_1_0_0_1_n_n.rhsBatch by decide), dif_pos (show (1 : Fin S40x256.rank) ∈ dot_S1024x40_S40x256_S1024x256_1_0_0_1_n_n.rhsNonContracting by decide)]
    rfl

theorem rc80 : RowsCols dot_S1024x80_S80x256_S1024x256_1_0_0_1_n_n where
  hcl := rfl
  hcr := rfl
  hrk := rfl
  hs := rfl
  hl0 := fun i q => by
    unfold DotDims.lhsIdx
    rw [dif_neg (show ¬(0 : Fin S1024x80.rank) ∈ dot_S1024x80_S80x256_S1024x256_1_0_0_1_n_n.lhsBatch by decide), dif_pos (show (0 : Fin S1024x80.rank) ∈ dot_S1024x80_S80x256_S1024x256_1_0_0_1_n_n.lhsNonContracting by decide)]
    rfl
  hr1 := fun i q => by
    unfold DotDims.rhsIdx
    rw [dif_neg (show ¬(1 : Fin S80x256.rank) ∈ dot_S1024x80_S80x256_S1024x256_1_0_0_1_n_n.rhsBatch by decide), dif_pos (show (1 : Fin S80x256.rank) ∈ dot_S1024x80_S80x256_S1024x256_1_0_0_1_n_n.rhsNonContracting by decide)]
    rfl

theorem rc768 : RowsCols dot_S1024x256_S256x768_S1024x768_1_0_0_1_n_n where
  hcl := rfl
  hcr := rfl
  hrk := rfl
  hs := rfl
  hl0 := fun i q => by
    unfold DotDims.lhsIdx
    rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
    rfl
  hr1 := fun i q => by
    unfold DotDims.rhsIdx
    rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
    rfl

theorem rcOut : RowsCols dot_S1024x256_S256x40_S1024x40_1_0_0_1_n_n where
  hcl := rfl
  hcr := rfl
  hrk := rfl
  hs := rfl
  hl0 := fun i q => by
    unfold DotDims.lhsIdx
    rw [dif_neg (show ¬(0 : Fin S1024x256.rank) ∈ dot_S1024x256_S256x40_S1024x40_1_0_0_1_n_n.lhsBatch by decide), dif_pos (show (0 : Fin S1024x256.rank) ∈ dot_S1024x256_S256x40_S1024x40_1_0_0_1_n_n.lhsNonContracting by decide)]
    rfl
  hr1 := fun i q => by
    unfold DotDims.rhsIdx
    rw [dif_neg (show ¬(1 : Fin S256x40.rank) ∈ dot_S1024x256_S256x40_S1024x40_1_0_0_1_n_n.rhsBatch by decide), dif_pos (show (1 : Fin S256x40.rank) ∈ dot_S1024x256_S256x40_S1024x40_1_0_0_1_n_n.rhsNonContracting by decide)]
    rfl

/-! ## Elementwise operations at an index, at the ideal instance -/

theorem addf_at {s : Shape} {φ : FTy} (a b : FVec Ideal s φ) (i : s.Idx) : addf a b i = a i + b i := rfl
theorem mulf_at {s : Shape} {φ : FTy} (a b : FVec Ideal s φ) (i : s.Idx) : mulf a b i = a i * b i := rfl
theorem tanh_at {s : Shape} {φ : FTy} (a : FVec Ideal s φ) (i : s.Idx) : tanh a i = Ideal.tanh (a i) := rfl
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl
theorem divf_at {s : Shape} {φ : FTy} (a b : FVec Ideal s φ) (i : s.Idx) : divf a b i = Ideal.div (a i) (b i) := rfl

/-! ## The first dense layer's pre-activation -/

variable (p : Fin 1024)

theorem pay2_eq (v0 : Vec Ideal S1024x40 .f32) (v10 : Vec Ideal S1024x256 .f32) (v11 : Vec Ideal S1024x80 .f32)
    (v13 : Vec Ideal S256x256 .bf16) (v18 : Vec Ideal S256x40 .bf16) (v23 : Vec Ideal S256x80 .bf16)
    (v27 : Vec Ideal S256 .f32) (v36 : Vec Ideal S256 .f32) :
    k0_pay2 (F := Ideal) v0 v10 v11 v13 v18 v23 v27 v36
      = addf (addf (addf (addf
          (mmT dot_S1024x256_S256x256_S1024x256_1_0_0_1_n_n v10 v13 bitsLt_bf16_f32 shapeCasts_S256x256_S256x256 transposes_S256x256_p1_0_S256x256)
          (mmT dot_S1024x40_S40x256_S1024x256_1_0_0_1_n_n (divf v0 (broadcastTo S1024x40 (denomV v0 reduces_S1024x40_S1024 (.inl rfl) rfl shapeCasts_S1024_S1024x1) broadcasts_S1024x1_S1024x40)) v18 bitsLt_bf16_f32 shapeCasts_S256x40_S256x40 transposes_S256x40_p1_0_S40x256))
          (mmT dot_S1024x80_S80x256_S1024x256_1_0_0_1_n_n v11 v23 bitsLt_bf16_f32 shapeCasts_S256x80_S256x80 transposes_S256x80_p1_0_S80x256))
          (mulf (broadcastTo S1024x256 (log (denomV v0 reduces_S1024x40_S1024 (.inl rfl) rfl shapeCasts_S1024_S1024x1)) broadcasts_S1024x1_S1024x256)
            (rowBias (shapeCast S256 v27 shapeCasts_S256_S256) shapeCasts_S256_S1x256 broadcasts_S1x256_S1024x256)))
          (rowBias v36 shapeCasts_S256_S1x256 broadcasts_S1x256_S1024x256) := rfl

theorem pay2_row (v0 : Vec Ideal S1024x40 .f32) (v10 : Vec Ideal S1024x256 .f32) (v11 : Vec Ideal S1024x80 .f32)
    (v13 : Vec Ideal S256x256 .bf16) (v18 : Vec Ideal S256x40 .bf16) (v23 : Vec Ideal S256x80 .bf16)
    (v27 : Vec Ideal S256 .f32) (v36 : Vec Ideal S256 .f32)
    (C : Fin 256 → EReal) (P : Fin 40 → EReal) (Ph : Fin 80 → EReal)
    (hC : ∀ k, v10 (ix2 p k) = C k) (hP : ∀ k, v0 (ix2 p k) = P k) (hPh : ∀ k, v11 (ix2 p k) = Ph k) (q : Fin 256) :
    k0_pay2 (F := Ideal) v0 v10 v11 v13 v18 v23 v27 v36 (ix2 p q)
      = ((((∑ k : Fin 256, C k * v13 (ix2 q k))
            + (∑ k : Fin 40, Ideal.div (P k) (eps + Ideal.sqrt (∑ k' : Fin 40, P k' * P k')) * v18 (ix2 q k)))
          + (∑ k : Fin 80, Ph k * v23 (ix2 q k)))
        + Ideal.log (eps + Ideal.sqrt (∑ k' : Fin 40, P k' * P k')) * v27 (ix1 q)) + v36 (ix1 q) := by
  have hden : ∀ u : Fin 1, (denomV v0 reduces_S1024x40_S1024 (.inl rfl) rfl shapeCasts_S1024_S1024x1) (ix2 p u) = eps + Ideal.sqrt (∑ k' : Fin 40, P k' * P k') :=
    fun u => denomV_apply v0 _ _ _ _ p u P hP
  rw [pay2_eq, addf_at, addf_at, addf_at, addf_at, mulf_at, mmT_apply _ rc256, mmT_apply _ rc40, mmT_apply _ rc80,
    rowBias_apply, rowBias_apply, Keepdims.broadcastTo_a1_ab_apply, log_at, hden, shapeCast_self]
  simp only [divf_at, Keepdims.broadcastTo_a1_ab_apply, hden, hC, hP, hPh]

/-! ## The dense layers and the gates -/

theorem pay4_eq (v51 : Vec Ideal S1024x256 .f32) (v62 : Vec Ideal S768x256 .bf16) (v66 : Vec Ideal S768 .f32) :
    k0_pay4 (F := Ideal) v51 v62 v66 = (denseV dot_S1024x256_S256x768_S1024x768_1_0_0_1_n_n v51 v62 v66 bitsLt_bf16_f32 shapeCasts_S768x256_S768x256 transposes_S768x256_p1_0_S256x768 shapeCasts_S768_S1x768 broadcasts_S1x768_S1024x768) := rfl

theorem pay3_eq (v39 : FVec Ideal S1024x256 .f32) (v42 : Vec Ideal S256x256 .bf16) (v46 : Vec Ideal S256 .f32)
    (v53 : Vec Ideal S768x256 .bf16) (v57 : Vec Ideal S768 .f32) :
    k0_pay3 (F := Ideal) v39 v42 v46 v53 v57 = (denseV dot_S1024x256_S256x768_S1024x768_1_0_0_1_n_n (tanh (denseV dot_S1024x256_S256x256_S1024x256_1_0_0_1_n_n (tanh v39) v42 v46 bitsLt_bf16_f32 shapeCasts_S256x256_S256x256 transposes_S256x256_p1_0_S256x256 shapeCasts_S256_S1x256 broadcasts_S1x256_S1024x256)) v53 v57 bitsLt_bf16_f32 shapeCasts_S768x256_S768x256 transposes_S768x256_p1_0_S256x768 shapeCasts_S768_S1x768 broadcasts_S1x768_S1024x768) := rfl

/-- The state gates' pre-activations on row p. -/
theorem pay4_row (v51 : Vec Ideal S1024x256 .f32) (v62 : Vec Ideal S768x256 .bf16) (v66 : Vec Ideal S768 .f32)
    (H : Fin 256 → EReal) (hH : ∀ k, v51 (ix2 p k) = H k) (o : Fin 768) :
    k0_pay4 (F := Ideal) v51 v62 v66 (ix2 p o) = lin H v62 v66 o := by
  rw [pay4_eq]
  exact denseV_apply _ rc768 _ _ _ _ _ _ _ _ p H hH o

/-- The first cell's input gates' pre-activations on row p: two dense layers with tanh over the first layer's row X. -/
theorem pay3_row (v39 : FVec Ideal S1024x256 .f32) (v42 : Vec Ideal S256x256 .bf16) (v46 : Vec Ideal S256 .f32)
    (v53 : Vec Ideal S768x256 .bf16) (v57 : Vec Ideal S768 .f32)
    (X : Fin 256 → EReal) (hX : ∀ k, v39 (ix2 p k) = X k) (o : Fin 768) :
    k0_pay3 (F := Ideal) v39 v42 v46 v53 v57 (ix2 p o)
      = lin (fun q => Ideal.tanh (lin (fun q' => Ideal.tanh (X q')) v42 v46 q)) v53 v57 o := by
  rw [pay3_eq]
  refine denseV_apply _ rc768 _ _ _ _ _ _ _ _ p _ (fun q => ?_) o
  rw [tanh_at]
  refine congrArg Ideal.tanh ?_
  refine denseV_apply _ rc256 _ _ _ _ _ _ _ _ p _ (fun q' => ?_) q
  rw [tanh_at, hX]

theorem pay8_eq (v39 : FVec Ideal S1024x256 .f32) (v42 : Vec Ideal S256x256 .bf16) (v46 : Vec Ideal S256 .f32)
    (v51 : Vec Ideal S1024x256 .f32) (v53 : Vec Ideal S768x256 .bf16) (v57 : Vec Ideal S768 .f32)
    (v62 : Vec Ideal S768x256 .bf16) (v66 : Vec Ideal S768 .f32) :
    k0_pay8 (F := Ideal) v51 (k0_pay5 v39 v42 v46 v51 v53 v57 v62 v66) (k0_pay6 v39 v42 v46 v51 v53 v57 v62 v66)
        (k0_pay7 v39 v42 v46 v51 v53 v57 v62 v66)
      = gruV (k0_pay3 v39 v42 v46 v53 v57) (k0_pay4 v51 v62 v66) v51 slices_S1024x768_o0_0_S1024x256 slices_S1024x768_o0_256_S1024x256 slices_S1024x768_o0_512_S1024x256 := rfl

/-- The first GRU cell on row p. -/
theorem pay8_row (v39 : FVec Ideal S1024x256 .f32) (v42 : Vec Ideal S256x256 .bf16) (v46 : Vec Ideal S256 .f32)
    (v51 : Vec Ideal S1024x256 .f32) (v53 : Vec Ideal S768x256 .bf16) (v57 : Vec Ideal S768 .f32)
    (v62 : Vec Ideal S768x256 .bf16) (v66 : Vec Ideal S768 .f32)
    (X H : Fin 256 → EReal) (hX : ∀ k, v39 (ix2 p k) = X k) (hH : ∀ k, v51 (ix2 p k) = H k) (j : Fin 256) :
    k0_pay8 (F := Ideal) v51 (k0_pay5 v39 v42 v46 v51 v53 v57 v62 v66) (k0_pay6 v39 v42 v46 v51 v53 v57 v62 v66)
        (k0_pay7 v39 v42 v46 v51 v53 v57 v62 v66) (ix2 p j)
      = gru (fun q => Ideal.tanh (lin (fun q' => Ideal.tanh (X q')) v42 v46 q)) H v53 v62 v57 v66 j := by
  rw [pay8_eq]
  exact gruV_apply _ _ _ _ _ _ p _ _ H (pay3_row p v39 v42 v46 v53 v57 X hX) (pay4_row p v51 v62 v66 H hH) hH j

theorem pay9_eq (v51 : Vec Ideal S1024x256 .f32) (v79 v82 v84 : FVec Ideal S1024x256 .f32) (v89 : Vec Ideal S1024x256 .f32)
    (v91 : Vec Ideal S768x256 .bf16) (v95 : Vec Ideal S768 .f32) (v100 : Vec Ideal S768x256 .bf16) (v104 : Vec Ideal S768 .f32) :
    k0_pay9 (F := Ideal) v51 v79 v82 v84 v89 v91 v95 v100 v104
      = gruV (denseV dot_S1024x256_S256x768_S1024x768_1_0_0_1_n_n (k0_pay8 v51 v79 v82 v84) v91 v95 bitsLt_bf16_f32 shapeCasts_S768x256_S768x256 transposes_S768x256_p1_0_S256x768 shapeCasts_S768_S1x768 broadcasts_S1x768_S1024x768) (denseV dot_S1024x256_S256x768_S1024x768_1_0_0_1_n_n v89 v100 v104 bitsLt_bf16_f32 shapeCasts_S768x256_S768x256 transposes_S768x256_p1_0_S256x768 shapeCasts_S768_S1x768 broadcasts_S1x768_S1024x768) v89 slices_S1024x768_o0_0_S1024x256 slices_S1024x768_o0_256_S1024x256 slices_S1024x768_o0_512_S1024x256 := rfl

/-- The second GRU cell on row p, from the first cell's row. -/
theorem pay9_row (v51 : Vec Ideal S1024x256 .f32) (v79 v82 v84 : FVec Ideal S1024x256 .f32) (v89 : Vec Ideal S1024x256 .f32)
    (v91 : Vec Ideal S768x256 .bf16) (v95 : Vec Ideal S768 .f32) (v100 : Vec Ideal S768x256 .bf16) (v104 : Vec Ideal S768 .f32)
    (G H : Fin 256 → EReal) (hG : ∀ k, k0_pay8 (F := Ideal) v51 v79 v82 v84 (ix2 p k) = G k) (hH : ∀ k, v89 (ix2 p k) = H k)
    (j : Fin 256) :
    k0_pay9 (F := Ideal) v51 v79 v82 v84 v89 v91 v95 v100 v104 (ix2 p j) = gru G H v91 v100 v95 v104 j := by
  rw [pay9_eq]
  exact gruV_apply _ _ _ _ _ _ p _ _ H (fun o => denseV_apply _ rc768 _ _ _ _ _ _ _ _ p G hG o)
    (fun o => denseV_apply _ rc768 _ _ _ _ _ _ _ _ p H hH o) hH j

theorem pay10_eq (v125 : FVec Ideal S1024x256 .f32) (v127 : Vec Ideal S1024x256 .f32)
    (v129 : Vec Ideal S768x256 .bf16) (v133 : Vec Ideal S768 .f32) (v138 : Vec Ideal S768x256 .bf16) (v142 : Vec Ideal S768 .f32) :
    k0_pay10 (F := Ideal) v125 v127 v129 v133 v138 v142
      = gruV (denseV dot_S1024x256_S256x768_S1024x768_1_0_0_1_n_n v125 v129 v133 bitsLt_bf16_f32 shapeCasts_S768x256_S768x256 transposes_S768x256_p1_0_S256x768 shapeCasts_S768_S1x768 broadcasts_S1x768_S1024x768) (denseV dot_S1024x256_S256x768_S1024x768_1_0_0_1_n_n v127 v138 v142 bitsLt_bf16_f32 shapeCasts_S768x256_S768x256 transposes_S768x256_p1_0_S256x768 shapeCasts_S768_S1x768 broadcasts_S1x768_S1024x768) v127 slices_S1024x768_o0_0_S1024x256 slices_S1024x768_o0_256_S1024x256 slices_S1024x768_o0_512_S1024x256 := rfl

/-- The third GRU cell on row p, from the second cell's row. -/
theorem pay10_row (v125 : FVec Ideal S1024x256 .f32) (v127 : Vec Ideal S1024x256 .f32)
    (v129 : Vec Ideal S768x256 .bf16) (v133 : Vec Ideal S768 .f32) (v138 : Vec Ideal S768x256 .bf16) (v142 : Vec Ideal S768 .f32)
    (G H : Fin 256 → EReal) (hG : ∀ k, v125 (ix2 p k) = G k) (hH : ∀ k, v127 (ix2 p k) = H k) (j : Fin 256) :
    k0_pay10 (F := Ideal) v125 v127 v129 v133 v138 v142 (ix2 p j) = gru G H v129 v138 v133 v142 j := by
  rw [pay10_eq]
  exact gruV_apply _ _ _ _ _ _ p _ _ H (fun o => denseV_apply _ rc768 _ _ _ _ _ _ _ _ p G hG o)
    (fun o => denseV_apply _ rc768 _ _ _ _ _ _ _ _ p H hH o) hH j

/-! ## The output row -/

theorem pay11_eq (v125 : FVec Ideal S1024x256 .f32) (v127 : Vec Ideal S1024x256 .f32)
    (v129 : Vec Ideal S768x256 .bf16) (v133 : Vec Ideal S768 .f32) (v138 : Vec Ideal S768x256 .bf16) (v142 : Vec Ideal S768 .f32)
    (v166 : Vec Ideal S40x256 .bf16) :
    k0_pay11 (F := Ideal) v125 v127 v129 v133 v138 v142 v166
      = mmT dot_S1024x256_S256x40_S1024x40_1_0_0_1_n_n (k0_pay10 v125 v127 v129 v133 v138 v142) v166 bitsLt_bf16_f32 shapeCasts_S40x256_S40x256 transposes_S40x256_p1_0_S256x40 := rfl

theorem pay11_row (v125 : FVec Ideal S1024x256 .f32) (v127 : Vec Ideal S1024x256 .f32)
    (v129 : Vec Ideal S768x256 .bf16) (v133 : Vec Ideal S768 .f32) (v138 : Vec Ideal S768x256 .bf16) (v142 : Vec Ideal S768 .f32)
    (v166 : Vec Ideal S40x256 .bf16)
    (G : Fin 256 → EReal) (hG : ∀ k, k0_pay10 (F := Ideal) v125 v127 v129 v133 v138 v142 (ix2 p k) = G k) (o : Fin 40) :
    k0_pay11 (F := Ideal) v125 v127 v129 v133 v138 v142 v166 (ix2 p o) = ∑ k : Fin 256, G k * v166 (ix2 o k) := by
  rw [pay11_eq, mmT_apply _ rcOut]
  simp only [hG]

theorem pay1_eq (v163 : FVec Ideal S1024x256 .f32) (v169 : FVec Ideal S1024x40 .f32) (v170 : Vec Ideal S40 .f32)
    (v175 : Vec Ideal S256 .f32) (v182 : Vec Ideal S1 .f32) :
    k0_pay1 (F := Ideal) v163 v169 v170 v175 v182
      = mulf (tanh (addf v169 (rowBias v170 shapeCasts_S40_S1x40 broadcasts_S1x40_S1024x40)))
          (broadcastTo S1024x40
            (exp (addf
              (shapeCast S1024x1
                (multiReduction .add [1] S1024
                  (mulf v163 (rowBias (shapeCast S256 v175 shapeCasts_S256_S256) shapeCasts_S256_S1x256 broadcasts_S1x256_S1024x256))
                  0x00000000#32 reduces_S1024x256_S1024 (.inl rfl) rfl)
                shapeCasts_S1024_S1024x1)
              (rowBias v182 shapeCasts_S1_S1x1 broadcasts_S1x1_S1024x1)))
            broadcasts_S1024x1_S1024x40) := rfl

/-- The output row: tanh of the output product plus bias, times the exponential of the gain logit. -/
theorem pay1_row (v163 : FVec Ideal S1024x256 .f32) (v169 : FVec Ideal S1024x40 .f32) (v170 : Vec Ideal S40 .f32)
    (v175 : Vec Ideal S256 .f32) (v182 : Vec Ideal S1 .f32)
    (G : Fin 256 → EReal) (S : Fin 40 → EReal) (hG : ∀ k, v163 (ix2 p k) = G k) (hS : ∀ o, v169 (ix2 p o) = S o) (o : Fin 40) :
    k0_pay1 (F := Ideal) v163 v169 v170 v175 v182 (ix2 p o)
      = Ideal.tanh (S o + v170 (ix1 o)) * Ideal.exp ((∑ k : Fin 256, G k * v175 (ix1 k)) + v182 (ix1 (0 : Fin 1))) := by
  rw [pay1_eq, mulf_at, tanh_at, addf_at, rowBias_apply, hS, Keepdims.broadcastTo_a1_ab_apply, exp_at, addf_at,
    Keepdims.shapeCast_a_a1_apply, rowBias_apply]
  refine congrArg (fun s => Ideal.tanh (S o + v170 (ix1 o)) * Ideal.exp (s + v182 (ix1 (0 : Fin 1)))) ?_
  refine (ReduceAt.row_sum_apply _ _ _ _ _ p).trans (Finset.sum_congr rfl fun k _ => ?_)
  rw [mulf_at, rowBias_apply, hG, shapeCast_self]

end Cert.KernelIdeal.Pay

end
-- ==== Proof.KernelRows.lean ====
/-
  What the kernel body leaves in each of its four output blocks, row by row: at a grid point whose blocks are row r of the
  arrays at row p (`Spec.BlockAt`), row p of the sig_out block is `Spec.sig A r`, and row p of the three state blocks is
  `Spec.g1 A r`, `Spec.g2 A r`, `Spec.g3 A r`. Each block is stored whole by one store, so the block is the store's payload;
  the payloads are the layers of KPay, chained.
-/
import proofs.«158528_j47012712022158_2_alg».proof.Proof.FrameKernelIdeal
import proofs.«158528_j47012712022158_2_alg».proof.Proof.KPay

noncomputable section

open scoped BigOperators

namespace Cert.KernelIdeal.Rows

open Cert.KernelIdeal Cert.KernelIdeal.Gen Cert.KernelIdeal.GenP Idealize.ShloMosaic Idealize.ShloMosaic.ValueIdx Cert.Spec Cert.KernelIdeal.Pay

theorem hz2 : (![0, 0] : Fin 2 → Nat) = fun _ => 0 := funext fun a => by fin_cases a <;> rfl
theorem hz1 : (![0] : Fin 1 → Nat) = fun _ => 0 := funext fun a => by fin_cases a <;> rfl

variable (A : Args) (r : Fin 65536) (p : Fin 1024)
  (x0 : Vec Ideal S1024x256 .f32) (x1 : Vec Ideal S1024x40 .f32) (x2 : Vec Ideal S1024x80 .f32) (x3 : Vec Ideal S1024x256 .f32) (x4 : Vec Ideal S1024x256 .f32) (x5 : Vec Ideal S1024x256 .f32) (x6 : Vec Ideal S256x256 .bf16) (x7 : Vec Ideal S256x40 .bf16) (x8 : Vec Ideal S256 .f32) (x9 : Vec Ideal S256x80 .bf16) (x10 : Vec Ideal S256 .f32) (x11 : Vec Ideal S256x256 .bf16) (x12 : Vec Ideal S256 .f32) (x13 : Vec Ideal S768x256 .bf16) (x14 : Vec Ideal S768x256 .bf16) (x15 : Vec Ideal S768 .f32) (x16 : Vec Ideal S768 .f32) (x17 : Vec Ideal S768x256 .bf16) (x18 : Vec Ideal S768x256 .bf16) (x19 : Vec Ideal S768 .f32) (x20 : Vec Ideal S768 .f32) (x21 : Vec Ideal S768x256 .bf16) (x22 : Vec Ideal S768x256 .bf16) (x23 : Vec Ideal S768 .f32) (x24 : Vec Ideal S768 .f32) (x25 : Vec Ideal S40x256 .bf16) (x26 : Vec Ideal S40 .f32) (x27 : Vec Ideal S256 .f32) (x28 : Vec Ideal S1 .f32)

/-! ## Each output block is its one store's payload -/

theorem out29_eq : out0_29 (F := Ideal) x0 x1 x2 x3 x4 x5 x6 x7 x8 x9 x10 x11 x12 x13 x14 x15 x16 x17 x18 x19 x20 x21 x22 x23 x24 x25 x26 x27 x28 = (k0_pay1 (k0_pay10 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24) (k0_pay11 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24 x25) x26 x27 x28) := by
  unfold out0_29
  rw [View.canon_unit_zero hz2]
  simp only [View.ld_unit_zero (S := S1024x40) hz2, View.ld_unit_zero (S := S1024x256) hz2, View.ld_unit_zero (S := S1024x80) hz2, View.ld_unit_zero (S := S256x256) hz2, View.ld_unit_zero (S := S256x40) hz2, View.ld_unit_zero (S := S256x80) hz2, View.ld_unit_zero (S := S768x256) hz2, View.ld_unit_zero (S := S40x256) hz2, View.ld_unit_zero (S := S256) hz1, View.ld_unit_zero (S := S768) hz1, View.ld_unit_zero (S := S40) hz1, View.ld_unit_zero (S := S1) hz1]

theorem out30_eq : out0_30 (F := Ideal) x0 x1 x2 x3 x4 x5 x6 x7 x8 x9 x10 x11 x12 x13 x14 x15 x16 x17 x18 x19 x20 x21 x22 x23 x24 x25 x26 x27 x28 = (k0_pay8 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16)) := by
  unfold out0_30
  rw [View.canon_unit_zero hz2]
  simp only [View.ld_unit_zero (S := S1024x40) hz2, View.ld_unit_zero (S := S1024x256) hz2, View.ld_unit_zero (S := S1024x80) hz2, View.ld_unit_zero (S := S256x256) hz2, View.ld_unit_zero (S := S256x40) hz2, View.ld_unit_zero (S := S256x80) hz2, View.ld_unit_zero (S := S768x256) hz2, View.ld_unit_zero (S := S40x256) hz2, View.ld_unit_zero (S := S256) hz1, View.ld_unit_zero (S := S768) hz1, View.ld_unit_zero (S := S40) hz1, View.ld_unit_zero (S := S1) hz1]

theorem out31_eq : out0_31 (F := Ideal) x0 x1 x2 x3 x4 x5 x6 x7 x8 x9 x10 x11 x12 x13 x14 x15 x16 x17 x18 x19 x20 x21 x22 x23 x24 x25 x26 x27 x28 = (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) := by
  unfold out0_31
  rw [View.canon_unit_zero hz2]
  simp only [View.ld_unit_zero (S := S1024x40) hz2, View.ld_unit_zero (S := S1024x256) hz2, View.ld_unit_zero (S := S1024x80) hz2, View.ld_unit_zero (S := S256x256) hz2, View.ld_unit_zero (S := S256x40) hz2, View.ld_unit_zero (S := S256x80) hz2, View.ld_unit_zero (S := S768x256) hz2, View.ld_unit_zero (S := S40x256) hz2, View.ld_unit_zero (S := S256) hz1, View.ld_unit_zero (S := S768) hz1, View.ld_unit_zero (S := S40) hz1, View.ld_unit_zero (S := S1) hz1]

theorem out32_eq : out0_32 (F := Ideal) x0 x1 x2 x3 x4 x5 x6 x7 x8 x9 x10 x11 x12 x13 x14 x15 x16 x17 x18 x19 x20 x21 x22 x23 x24 x25 x26 x27 x28 = (k0_pay10 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24) := by
  unfold out0_32
  rw [View.canon_unit_zero hz2]
  simp only [View.ld_unit_zero (S := S1024x40) hz2, View.ld_unit_zero (S := S1024x256) hz2, View.ld_unit_zero (S := S1024x80) hz2, View.ld_unit_zero (S := S256x256) hz2, View.ld_unit_zero (S := S256x40) hz2, View.ld_unit_zero (S := S256x80) hz2, View.ld_unit_zero (S := S768x256) hz2, View.ld_unit_zero (S := S40x256) hz2, View.ld_unit_zero (S := S256) hz1, View.ld_unit_zero (S := S768) hz1, View.ld_unit_zero (S := S40) hz1, View.ld_unit_zero (S := S1) hz1]

/-! ## The layers on row p, in the arrays' terms -/

variable {A r p x0 x1 x2 x3 x4 x5 x6 x7 x8 x9 x10 x11 x12 x13 x14 x15 x16 x17 x18 x19 x20 x21 x22 x23 x24 x25 x26 x27 x28}

/-- The first dense layer's pre-activation. -/
theorem pre1_of_block (hB : BlockAt A r p x0 x1 x2 x3 x4 x5 x6 x7 x8 x9 x10 x11 x12 x13 x14 x15 x16 x17 x18 x19 x20 x21 x22 x23 x24 x25 x26 x27 x28) (o : Fin 256) :
    (k0_pay2 x1 x0 x2 x6 x7 x9 x8 x10) (ix2 p o) = pre1 A r o := by
  rw [pay2_row p x1 x0 x2 x6 x7 x9 x8 x10 (fun k => A.cond (ix2 r k)) (fun k => A.prev (ix2 r k))
    (fun k => A.phase (ix2 r k)) hB.cond hB.prev hB.phase o]
  unfold pre1 prevn denom
  simp only [hB.wc, hB.wp, hB.wph, hB.wg, hB.d1b]

/-- The first GRU cell. -/
theorem g1_of_block (hB : BlockAt A r p x0 x1 x2 x3 x4 x5 x6 x7 x8 x9 x10 x11 x12 x13 x14 x15 x16 x17 x18 x19 x20 x21 x22 x23 x24 x25 x26 x27 x28) (j : Fin 256) :
    (k0_pay8 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16)) (ix2 p j) = g1 A r j := by
  rw [pay8_row p _ x11 x12 x3 x13 x15 x14 x16 (pre1 A r) (fun k => A.h1 (ix2 r k)) (pre1_of_block hB) hB.h1 j,
    hB.d2w, hB.d2b, hB.wih1, hB.whh1, hB.bih1, hB.bhh1]
  rfl

/-- The second GRU cell. -/
theorem g2_of_block (hB : BlockAt A r p x0 x1 x2 x3 x4 x5 x6 x7 x8 x9 x10 x11 x12 x13 x14 x15 x16 x17 x18 x19 x20 x21 x22 x23 x24 x25 x26 x27 x28) (j : Fin 256) :
    (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) (ix2 p j) = g2 A r j := by
  rw [pay9_row p x3 _ _ _ x4 x17 x19 x18 x20 (g1 A r) (fun k => A.h2 (ix2 r k)) (g1_of_block hB) hB.h2 j,
    hB.wih2, hB.whh2, hB.bih2, hB.bhh2]
  rfl

/-- The third GRU cell. -/
theorem g3_of_block (hB : BlockAt A r p x0 x1 x2 x3 x4 x5 x6 x7 x8 x9 x10 x11 x12 x13 x14 x15 x16 x17 x18 x19 x20 x21 x22 x23 x24 x25 x26 x27 x28) (j : Fin 256) :
    (k0_pay10 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24) (ix2 p j) = g3 A r j := by
  rw [pay10_row p _ x5 x21 x23 x22 x24 (g2 A r) (fun k => A.h3 (ix2 r k)) (g2_of_block hB) hB.h3 j,
    hB.wih3, hB.whh3, hB.bih3, hB.bhh3]
  rfl

/-- The output row. -/
theorem sig_of_block (hB : BlockAt A r p x0 x1 x2 x3 x4 x5 x6 x7 x8 x9 x10 x11 x12 x13 x14 x15 x16 x17 x18 x19 x20 x21 x22 x23 x24 x25 x26 x27 x28) (o : Fin 40) :
    (k0_pay1 (k0_pay10 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24) (k0_pay11 (k0_pay9 x3 (k0_pay5 (k0_pay2 x1 x0 x2 x6 x7 x9 x8 x10) x11 x12 x3 x13 x15 x14 x16) (k0_pay6 (k0_pay2 x1 x0 x2 x6 x7 x9 x8 x10) x11 x12 x3 x13 x15 x14 x16) (k0_pay7 (k0_pay2 x1 x0 x2 x6 x7 x9 x8 x10) x11 x12 x3 x13 x15 x14 x16) x4 x17 x19 x18 x20) x5 x21 x23 x22 x24 x25) x26 x27 x28) (ix2 p o) = Cert.Spec.sig A r o := by
  rw [pay1_row p _ _ x26 x27 x28 (g3 A r) (fun o => ∑ k : Fin 256, g3 A r k * x25 (ix2 o k)) (g3_of_block hB)
    (fun o => pay11_row p _ x5 x21 x23 x22 x24 x25 (g3 A r) (g3_of_block hB) o) o]
  unfold Cert.Spec.sig lin gainLogit
  simp only [hB.gainw, hB.doutw, hB.doutb, hB.gainb]

/-! ## The four blocks -/

variable (A) (r) (p) (x0) (x1) (x2) (x3) (x4) (x5) (x6) (x7) (x8) (x9) (x10) (x11) (x12) (x13) (x14) (x15) (x16) (x17) (x18) (x19) (x20) (x21) (x22) (x23) (x24) (x25) (x26) (x27) (x28)

theorem out29_row (hB : BlockAt A r p x0 x1 x2 x3 x4 x5 x6 x7 x8 x9 x10 x11 x12 x13 x14 x15 x16 x17 x18 x19 x20 x21 x22 x23 x24 x25 x26 x27 x28) (q : Fin 40) :
    out0_29 (F := Ideal) x0 x1 x2 x3 x4 x5 x6 x7 x8 x9 x10 x11 x12 x13 x14 x15 x16 x17 x18 x19 x20 x21 x22 x23 x24 x25 x26 x27 x28 (ix2 p q) = Cert.Spec.sig A r q := by
  rw [out29_eq]; exact sig_of_block hB q

theorem out30_row (hB : BlockAt A r p x0 x1 x2 x3 x4 x5 x6 x7 x8 x9 x10 x11 x12 x13 x14 x15 x16 x17 x18 x19 x20 x21 x22 x23 x24 x25 x26 x27 x28) (q : Fin 256) :
    out0_30 (F := Ideal) x0 x1 x2 x3 x4 x5 x6 x7 x8 x9 x10 x11 x12 x13 x14 x15 x16 x17 x18 x19 x20 x21 x22 x23 x24 x25 x26 x27 x28 (ix2 p q) = g1 A r q := by
  rw [out30_eq]; exact g1_of_block hB q

theorem out31_row (hB : BlockAt A r p x0 x1 x2 x3 x4 x5 x6 x7 x8 x9 x10 x11 x12 x13 x14 x15 x16 x17 x18 x19 x20 x21 x22 x23 x24 x25 x26 x27 x28) (q : Fin 256) :
    out0_31 (F := Ideal) x0 x1 x2 x3 x4 x5 x6 x7 x8 x9 x10 x11 x12 x13 x14 x15 x16 x17 x18 x19 x20 x21 x22 x23 x24 x25 x26 x27 x28 (ix2 p q) = g2 A r q := by
  rw [out31_eq]; exact g2_of_block hB q

theorem out32_row (hB : BlockAt A r p x0 x1 x2 x3 x4 x5 x6 x7 x8 x9 x10 x11 x12 x13 x14 x15 x16 x17 x18 x19 x20 x21 x22 x23 x24 x25 x26 x27 x28) (q : Fin 256) :
    out0_32 (F := Ideal) x0 x1 x2 x3 x4 x5 x6 x7 x8 x9 x10 x11 x12 x13 x14 x15 x16 x17 x18 x19 x20 x21 x22 x23 x24 x25 x26 x27 x28 (ix2 p q) = g3 A r q := by
  rw [out32_eq]; exact g3_of_block hB q

end Cert.KernelIdeal.Rows

end
-- ==== Proof.Blocks.lean ====
/-
  From blocks to whole arrays on the kernel side. The kernel tiles the six activation arrays by rows — grid point t sees
  rows 1024·t … 1024·t + 1023 — and sees every weight array whole; before the region the host cuts the first dense layer's
  256 × 377 weight into its four column stretches (the log-gain column reshaped to a vector), reshapes the gain head's
  1 × 256 weight row to a vector and narrows the matrix weights' format, which is the identity on extended reals.
  Here: each window's block at a grid point read off the argument arrays (`iblk…`, `V_…`), so that the blocks at point t,
  seen from row p, are row 1024·t + p of the arrays (`blockAt`, the hypothesis of the row theorems); then, for each of the
  four result arrays, what point t writes back is block t of the specification's array (`flushed…_eq`), the 64 blocks cover
  the array (`cover…`: row r lies in block r / 1024), so the array ends holding the specification's array (`final…`), and the
  run re-posted with the four arrays named (`run`).
-/
import proofs.«158528_j47012712022158_2_alg».proof.Proof.ValueKernelIdeal
import proofs.«158528_j47012712022158_2_alg».proof.Proof.KernelRows
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The 26 argument arrays of one device, as the specification's record. -/
abbrev Aof (c : Dev nD) : Cert.Spec.Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25)⟩

/-- The grid has 64 points. -/
theorem t_lt (t : Fin cfg0.N) : t.val < 64 := Nat.lt_of_lt_of_eq t.isLt N_0

/-- Row p of the tile at grid point t is row 1024·t + p of the arrays. -/
abbrev rowOf (t : Fin cfg0.N) (p : Fin 1024) : Fin 65536 := ⟨t.val * 1024 + p.val, by have := t_lt t; omega⟩

/-! ## The index maps, decided over the 64 grid points -/

/-- Window 0 moves one block of 1024 rows per grid point and stays at column block 0. -/
theorem idx0 : ∀ t : Fin cfg0.N, win0_0.index t (0 : Fin 2) = t.val ∧ win0_0.index t (1 : Fin 2) = 0 :=
  (by decide +kernel : ∀ t : Fin grid0.N, _)

/-- Window 1 moves one block of 1024 rows per grid point and stays at column block 0. -/
theorem idx1 : ∀ t : Fin cfg0.N, win0_1.index t (0 : Fin 2) = t.val ∧ win0_1.index t (1 : Fin 2) = 0 :=
  (by decide +kernel : ∀ t : Fin grid0.N, _)

/-- Window 2 moves one block of 1024 rows per grid point and stays at column block 0. -/
theorem idx2 : ∀ t : Fin cfg0.N, win0_2.index t (0 : Fin 2) = t.val ∧ win0_2.index t (1 : Fin 2) = 0 :=
  (by decide +kernel : ∀ t : Fin grid0.N, _)

/-- Window 3 moves one block of 1024 rows per grid point and stays at column block 0. -/
theorem idx3 : ∀ t : Fin cfg0.N, win0_3.index t (0 : Fin 2) = t.val ∧ win0_3.index t (1 : Fin 2) = 0 :=
  (by decide +kernel : ∀ t : Fin grid0.N, _)

/-- Window 4 moves one block of 1024 rows per grid point and stays at column block 0. -/
theorem idx4 : ∀ t : Fin cfg0.N, win0_4.index t (0 : Fin 2) = t.val ∧ win0_4.index t (1 : Fin 2) = 0 :=
  (by decide +kernel : ∀ t : Fin grid0.N, _)

/-- Window 5 moves one block of 1024 rows per grid point and stays at column block 0. -/
theorem idx5 : ∀ t : Fin cfg0.N, win0_5.index t (0 : Fin 2) = t.val ∧ win0_5.index t (1 : Fin 2) = 0 :=
  (by decide +kernel : ∀ t : Fin grid0.N, _)

/-- Window 6 stays at block (0, 0): its block is the whole array. -/
theorem idx6 : ∀ t : Fin cfg0.N, win0_6.index t (0 : Fin 2) = 0 ∧ win0_6.index t (1 : Fin 2) = 0 :=
  (by decide +kernel : ∀ t : Fin grid0.N, _)

/-- Window 7 stays at block (0, 0): its block is the whole array. -/
theorem idx7 : ∀ t : Fin cfg0.N, win0_7.index t (0 : Fin 2) = 0 ∧ win0_7.index t (1 : Fin 2) = 0 :=
  (by decide +kernel : ∀ t : Fin grid0.N, _)

/-- Window 8 stays at block 0: its block is the whole array. -/
theorem idx8 : ∀ t : Fin cfg0.N, win0_8.index t (0 : Fin 1) = 0 :=
  (by decide +kernel : ∀ t : Fin grid0.N, _)

/-- Window 9 stays at block (0, 0): its block is the whole array. -/
theorem idx9 : ∀ t : Fin cfg0.N, win0_9.index t (0 : Fin 2) = 0 ∧ win0_9.index t (1 : Fin 2) = 0 :=
  (by decide +kernel : ∀ t : Fin grid0.N, _)

/-- Window 10 stays at block 0: its block is the whole array. -/
theorem idx10 : ∀ t : Fin cfg0.N, win0_10.index t (0 : Fin 1) = 0 :=
  (by decide +kernel : ∀ t : Fin grid0.N, _)

/-- Window 11 stays at block (0, 0): its block is the whole array. -/
theorem idx11 : ∀ t : Fin cfg0.N, win0_11.index t (0 : Fin 2) = 0 ∧ win0_11.index t (1 : Fin 2) = 0 :=
  (by decide +kernel : ∀ t : Fin grid0.N, _)

/-- Window 12 stays at block 0: its block is the whole array. -/
theorem idx12 : ∀ t : Fin cfg0.N, win0_12.index t (0 : Fin 1) = 0 :=
  (by decide +kernel : ∀ t : Fin grid0.N, _)

/-- Window 13 stays at block (0, 0): its block is the whole array. -/
theorem idx13 : ∀ t : Fin cfg0.N, win0_13.index t (0 : Fin 2) = 0 ∧ win0_13.index t (1 : Fin 2) = 0 :=
  (by decide +kernel : ∀ t : Fin grid0.N, _)

/-- Window 14 stays at block (0, 0): its block is the whole array. -/
theorem idx14 : ∀ t : Fin cfg0.N, win0_14.index t (0 : Fin 2) = 0 ∧ win0_14.index t (1 : Fin 2) = 0 :=
  (by decide +kernel : ∀ t : Fin grid0.N, _)

/-- Window 15 stays at block 0: its block is the whole array. -/
theorem idx15 : ∀ t : Fin cfg0.N, win0_15.index t (0 : Fin 1) = 0 :=
  (by decide +kernel : ∀ t : Fin grid0.N, _)

/-- Window 16 stays at block 0: its block is the whole array. -/
theorem idx16 : ∀ t : Fin cfg0.N, win0_16.index t (0 : Fin 1) = 0 :=
  (by decide +kernel : ∀ t : Fin grid0.N, _)

/-- Window 17 stays at block (0, 0): its block is the whole array. -/
theorem idx17 : ∀ t : Fin cfg0.N, win0_17.index t (0 : Fin 2) = 0 ∧ win0_17.index t (1 : Fin 2) = 0 :=
  (by decide +kernel : ∀ t : Fin grid0.N, _)

/-- Window 18 stays at block (0, 0): its block is the whole array. -/
theorem idx18 : ∀ t : Fin cfg0.N, win0_18.index t (0 : Fin 2) = 0 ∧ win0_18.index t (1 : Fin 2) = 0 :=
  (by decide +kernel : ∀ t : Fin grid0.N, _)

/-- Window 19 stays at block 0: its block is the whole array. -/
theorem idx19 : ∀ t : Fin cfg0.N, win0_19.index t (0 : Fin 1) = 0 :=
  (by decide +kernel : ∀ t : Fin grid0.N, _)

/-- Window 20 stays at block 0: its block is the whole array. -/
theorem idx20 : ∀ t : Fin cfg0.N, win0_20.index t (0 : Fin 1) = 0 :=
  (by decide +kernel : ∀ t : Fin grid0.N, _)

/-- Window 21 stays at block (0, 0): its block is the whole array. -/
theorem idx21 : ∀ t : Fin cfg0.N, win0_21.index t (0 : Fin 2) = 0 ∧ win0_21.index t (1 : Fin 2) = 0 :=
  (by decide +kernel : ∀ t : Fin grid0.N, _)

/-- Window 22 stays at block (0, 0): its block is the whole array. -/
theorem idx22 : ∀ t : Fin cfg0.N, win0_22.index t (0 : Fin 2) = 0 ∧ win0_22.index t (1 : Fin 2) = 0 :=
  (by decide +kernel : ∀ t : Fin grid0.N, _)

/-- Window 23 stays at block 0: its block is the whole array. -/
theorem idx23 : ∀ t : Fin cfg0.N, win0_23.index t (0 : Fin 1) = 0 :=
  (by decide +kernel : ∀ t : Fin grid0.N, _)

/-- Window 24 stays at block 0: its block is the whole array. -/
theorem idx24 : ∀ t : Fin cfg0.N, win0_24.index t (0 : Fin 1) = 0 :=
  (by decide +kernel : ∀ t : Fin grid0.N, _)

/-- Window 25 stays at block (0, 0): its block is the whole array. -/
theorem idx25 : ∀ t : Fin cfg0.N, win0_25.index t (0 : Fin 2) = 0 ∧ win0_25.index t (1 : Fin 2) = 0 :=
  (by decide +kernel : ∀ t : Fin grid0.N, _)

/-- Window 26 stays at block 0: its block is the whole array. -/
theorem idx26 : ∀ t : Fin cfg0.N, win0_26.index t (0 : Fin 1) = 0 :=
  (by decide +kernel : ∀ t : Fin grid0.N, _)

/-- Window 27 stays at block 0: its block is the whole array. -/
theorem idx27 : ∀ t : Fin cfg0.N, win0_27.index t (0 : Fin 1) = 0 :=
  (by decide +kernel : ∀ t : Fin grid0.N, _)

/-- Window 28 stays at block 0: its block is the whole array. -/
theorem idx28 : ∀ t : Fin cfg0.N, win0_28.index t (0 : Fin 1) = 0 :=
  (by decide +kernel : ∀ t : Fin grid0.N, _)

/-- Window 29 moves one block of 1024 rows per grid point and stays at column block 0. -/
theorem idx29 : ∀ t : Fin cfg0.N, win0_29.index t (0 : Fin 2) = t.val ∧ win0_29.index t (1 : Fin 2) = 0 :=
  (by decide +kernel : ∀ t : Fin grid0.N, _)

/-- Window 30 moves one block of 1024 rows per grid point and stays at column block 0. -/
theorem idx30 : ∀ t : Fin cfg0.N, win0_30.index t (0 : Fin 2) = t.val ∧ win0_30.index t (1 : Fin 2) = 0 :=
  (by decide +kernel : ∀ t : Fin grid0.N, _)

/-- Window 31 moves one block of 1024 rows per grid point and stays at column block 0. -/
theorem idx31 : ∀ t : Fin cfg0.N, win0_31.index t (0 : Fin 2) = t.val ∧ win0_31.index t (1 : Fin 2) = 0 :=
  (by decide +kernel : ∀ t : Fin grid0.N, _)

/-- Window 32 moves one block of 1024 rows per grid point and stays at column block 0. -/
theorem idx32 : ∀ t : Fin cfg0.N, win0_32.index t (0 : Fin 2) = t.val ∧ win0_32.index t (1 : Fin 2) = 0 :=
  (by decide +kernel : ∀ t : Fin grid0.N, _)

/-! ## What the host operations before the region leave in the windows' buffers -/

/-- The buffer of window 11 holds the d2w array: the narrowing format change is the identity on extended reals. -/
theorem V_main_v9 (c : Dev nD) : (V m c main_v9 : S256x256.Idx → EReal) = (m ((c : Thread nD τ).loc main_arg8) : S256x256.Idx → EReal) := by
  dsimp only [GenP.V, Gen.hostOps0]
  after_results
  rfl

/-- The buffer of window 13 holds the wih1 array: the narrowing format change is the identity on extended reals. -/
theorem V_main_v10 (c : Dev nD) : (V m c main_v10 : S768x256.Idx → EReal) = (m ((c : Thread nD τ).loc main_arg10) : S768x256.Idx → EReal) := by
  dsimp only [GenP.V, Gen.hostOps0]
  after_results
  rfl

/-- The buffer of window 14 holds the whh1 array: the narrowing format change is the identity on extended reals. -/
theorem V_main_v11 (c : Dev nD) : (V m c main_v11 : S768x256.Idx → EReal) = (m ((c : Thread nD τ).loc main_arg11) : S768x256.Idx → EReal) := by
  dsimp only [GenP.V, Gen.hostOps0]
  after_results
  rfl

/-- The buffer of window 17 holds the wih2 array: the narrowing format change is the identity on extended reals. -/
theorem V_main_v12 (c : Dev nD) : (V m c main_v12 : S768x256.Idx → EReal) = (m ((c : Thread nD τ).loc main_arg14) : S768x256.Idx → EReal) := by
  dsimp only [GenP.V, Gen.hostOps0]
  after_results
  rfl

/-- The buffer of window 18 holds the whh2 array: the narrowing format change is the identity on extended reals. -/
theorem V_main_v13 (c : Dev nD) : (V m c main_v13 : S768x256.Idx → EReal) = (m ((c : Thread nD τ).loc main_arg15) : S768x256.Idx → EReal) := by
  dsimp only [GenP.V, Gen.hostOps0]
  after_results
  rfl

/-- The buffer of window 21 holds the wih3 array: the narrowing format change is the identity on extended reals. -/
theorem V_main_v14 (c : Dev nD) : (V m c main_v14 : S768x256.Idx → EReal) = (m ((c : Thread nD τ).loc main_arg18) : S768x256.Idx → EReal) := by
  dsimp only [GenP.V, Gen.hostOps0]
  after_results
  rfl

/-- The buffer of window 22 holds the whh3 array: the narrowing format change is the identity on extended reals. -/
theorem V_main_v15 (c : Dev nD) : (V m c main_v15 : S768x256.Idx → EReal) = (m ((c : Thread nD τ).loc main_arg19) : S768x256.Idx → EReal) := by
  dsimp only [GenP.V, Gen.hostOps0]
  after_results
  rfl

/-- The buffer of window 25 holds the doutw array: the narrowing format change is the identity on extended reals. -/
theorem V_main_v16 (c : Dev nD) : (V m c main_v16 : S40x256.Idx → EReal) = (m ((c : Thread nD τ).loc main_arg22) : S40x256.Idx → EReal) := by
  dsimp only [GenP.V, Gen.hostOps0]
  after_results
  rfl

/-- The buffer of window 6 holds columns 0 … 255 of the first dense layer's weight. -/
theorem V_main_v1_apply (c : Dev nD) (o : Fin 256) (k : Fin 256) :
    (V m c main_v1 : S256x256.Idx → EReal) (ix2 o k) = (m ((c : Thread nD τ).loc main_arg6) : S256x377.Idx → EReal) (ix2 o (Spec.c0 k)) := by
  have e : (V m c main_v1 : S256x256.Idx → EReal) = extractStridedSlice S256x256 ![0, 0] (m ((c : Thread nD τ).loc main_arg6) : S256x377.Idx → EReal) slices_S256x377_S256x256_0_0 := by
    dsimp only [GenP.V, Gen.hostOps0]
    after_results
    rfl
  rw [e]
  refine extractStridedSlice_apply _ _ _ _ _ fun a => ?_
  match a with
  | ⟨0, _⟩ => show o.val = 0 + o.val; omega
  | ⟨1, _⟩ => show k.val = 0 + k.val; omega

/-- The buffer of window 7 holds columns 256 … 295 of the first dense layer's weight. -/
theorem V_main_v3_apply (c : Dev nD) (o : Fin 256) (k : Fin 40) :
    (V m c main_v3 : S256x40.Idx → EReal) (ix2 o k) = (m ((c : Thread nD τ).loc main_arg6) : S256x377.Idx → EReal) (ix2 o (Spec.c1 k)) := by
  have e : (V m c main_v3 : S256x40.Idx → EReal) = extractStridedSlice S256x40 ![0, 256] (m ((c : Thread nD τ).loc main_arg6) : S256x377.Idx → EReal) slices_S256x377_S256x40_0_256 := by
    dsimp only [GenP.V, Gen.hostOps0]
    after_results
    rfl
  rw [e]
  refine extractStridedSlice_apply _ _ _ _ _ fun a => ?_
  match a with
  | ⟨0, _⟩ => show o.val = 0 + o.val; omega
  | ⟨1, _⟩ => show k.val + 256 = 256 + k.val; omega

/-- The buffer of window 8 holds column 296 of the first dense layer's weight, as a vector. -/
theorem V_main_v5_apply (c : Dev nD) (o : Fin 256) :
    (V m c main_v5 : S256.Idx → EReal) (ix1 o) = (m ((c : Thread nD τ).loc main_arg6) : S256x377.Idx → EReal) (ix2 o Spec.c2) := by
  have e : (V m c main_v5 : S256.Idx → EReal) = shapeCast S256 (extractStridedSlice S256x1 ![0, 296] (m ((c : Thread nD τ).loc main_arg6) : S256x377.Idx → EReal) slices_S256x377_S256x1_0_296) shapeCasts_S256x1_S256 := by
    dsimp only [GenP.V, Gen.hostOps0]
    after_results
    rfl
  rw [e]
  refine (shapeCast_apply _ _ (ix1 o) (ix2 o (0 : Fin 1)) ?_).trans ?_
  · rw [Shape.rowMajor_val_two, Shape.rowMajor_val_one]
    show o.val * 1 + 0 = o.val
    omega
  · refine extractStridedSlice_apply _ _ _ _ _ fun a => ?_
    match a with
    | ⟨0, _⟩ => show o.val = 0 + o.val; omega
    | ⟨1, _⟩ => show 296 = 296 + 0; rfl

/-- The buffer of window 9 holds columns 297 … 376 of the first dense layer's weight. -/
theorem V_main_v7_apply (c : Dev nD) (o : Fin 256) (k : Fin 80) :
    (V m c main_v7 : S256x80.Idx → EReal) (ix2 o k) = (m ((c : Thread nD τ).loc main_arg6) : S256x377.Idx → EReal) (ix2 o (Spec.c3 k)) := by
  have e : (V m c main_v7 : S256x80.Idx → EReal) = extractStridedSlice S256x80 ![0, 297] (m ((c : Thread nD τ).loc main_arg6) : S256x377.Idx → EReal) slices_S256x377_S256x80_0_297 := by
    dsimp only [GenP.V, Gen.hostOps0]
    after_results
    rfl
  rw [e]
  refine extractStridedSlice_apply _ _ _ _ _ fun a => ?_
  match a with
  | ⟨0, _⟩ => show o.val = 0 + o.val; omega
  | ⟨1, _⟩ => show k.val + 297 = 297 + k.val; omega

/-- The buffer of window 27 holds the gain head's one weight row, as a vector. -/
theorem V_main_v8_apply (c : Dev nD) (k : Fin 256) :
    (V m c main_v8 : S256.Idx → EReal) (ix1 k) = (m ((c : Thread nD τ).loc main_arg24) : S1x256.Idx → EReal) (ix2 (0 : Fin 1) k) := by
  have e : (V m c main_v8 : S256.Idx → EReal) = shapeCast S256 (m ((c : Thread nD τ).loc main_arg24) : S1x256.Idx → EReal) shapeCasts_S1x256_S256 := by
    dsimp only [GenP.V, Gen.hostOps0]
    after_results
    rfl
  rw [e]
  exact shapeCast_1a_a_apply _ _ k

/-! ## Each window's block at a grid point, read off the arrays -/

/-- Row y₀ of window 0's tile at point t is row 1024·t + y₀ of the cond array. -/
theorem iblk0_apply (c : Dev nD) (t : Fin cfg0.N) (y : S1024x256.Idx) (k : S65536x256.Idx)
    (hk0 : (k 0).val = t.val * 1024 + (y 0).val) (hk1 : (k 1).val = (y 1).val) :
    (iblk m c 0 t : Vec Ideal S1024x256 .f32) y = (m ((c : Thread nD τ).loc main_arg0) : S65536x256.Idx → EReal) k := by
  obtain ⟨h0, h1⟩ := idx0 t
  unfold iblk
  rw [View.read_apply]
  show V m c main_arg0 _ = _
  rw [V_main_arg0]
  congr 1
  funext a
  apply Fin.ext
  match a with
  | ⟨0, _⟩ => show win0_0.index t (0 : Fin 2) * 1024 + 1 * (y 0).val = (k 0).val; rw [h0, hk0]; omega
  | ⟨1, _⟩ => show win0_0.index t (1 : Fin 2) * 256 + 1 * (y 1).val = (k 1).val; rw [h1, hk1]; omega

/-- Row y₀ of window 1's tile at point t is row 1024·t + y₀ of the prev array. -/
theorem iblk1_apply (c : Dev nD) (t : Fin cfg0.N) (y : S1024x40.Idx) (k : S65536x40.Idx)
    (hk0 : (k 0).val = t.val * 1024 + (y 0).val) (hk1 : (k 1).val = (y 1).val) :
    (iblk m c 1 t : Vec Ideal S1024x40 .f32) y = (m ((c : Thread nD τ).loc main_arg1) : S65536x40.Idx → EReal) k := by
  obtain ⟨h0, h1⟩ := idx1 t
  unfold iblk
  rw [View.read_apply]
  show V m c main_arg1 _ = _
  rw [V_main_arg1]
  congr 1
  funext a
  apply Fin.ext
  match a with
  | ⟨0, _⟩ => show win0_1.index t (0 : Fin 2) * 1024 + 1 * (y 0).val = (k 0).val; rw [h0, hk0]; omega
  | ⟨1, _⟩ => show win0_1.index t (1 : Fin 2) * 40 + 1 * (y 1).val = (k 1).val; rw [h1, hk1]; omega

/-- Row y₀ of window 2's tile at point t is row 1024·t + y₀ of the phase array. -/
theorem iblk2_apply (c : Dev nD) (t : Fin cfg0.N) (y : S1024x80.Idx) (k : S65536x80.Idx)
    (hk0 : (k 0).val = t.val * 1024 + (y 0).val) (hk1 : (k 1).val = (y 1).val) :
    (iblk m c 2 t : Vec Ideal S1024x80 .f32) y = (m ((c : Thread nD τ).loc main_arg2) : S65536x80.Idx → EReal) k := by
  obtain ⟨h0, h1⟩ := idx2 t
  unfold iblk
  rw [View.read_apply]
  show V m c main_arg2 _ = _
  rw [V_main_arg2]
  congr 1
  funext a
  apply Fin.ext
  match a with
  | ⟨0, _⟩ => show win0_2.index t (0 : Fin 2) * 1024 + 1 * (y 0).val = (k 0).val; rw [h0, hk0]; omega
  | ⟨1, _⟩ => show win0_2.index t (1 : Fin 2) * 80 + 1 * (y 1).val = (k 1).val; rw [h1, hk1]; omega

/-- Row y₀ of window 3's tile at point t is row 1024·t + y₀ of the h1 array. -/
theorem iblk3_apply (c : Dev nD) (t : Fin cfg0.N) (y : S1024x256.Idx) (k : S65536x256.Idx)
    (hk0 : (k 0).val = t.val * 1024 + (y 0).val) (hk1 : (k 1).val = (y 1).val) :
    (iblk m c 3 t : Vec Ideal S1024x256 .f32) y = (m ((c : Thread nD τ).loc main_arg3) : S65536x256.Idx → EReal) k := by
  obtain ⟨h0, h1⟩ := idx3 t
  unfold iblk
  rw [View.read_apply]
  show V m c main_arg3 _ = _
  rw [V_main_arg3]
  congr 1
  funext a
  apply Fin.ext
  match a with
  | ⟨0, _⟩ => show win0_3.index t (0 : Fin 2) * 1024 + 1 * (y 0).val = (k 0).val; rw [h0, hk0]; omega
  | ⟨1, _⟩ => show win0_3.index t (1 : Fin 2) * 256 + 1 * (y 1).val = (k 1).val; rw [h1, hk1]; omega

/-- Row y₀ of window 4's tile at point t is row 1024·t + y₀ of the h2 array. -/
theorem iblk4_apply (c : Dev nD) (t : Fin cfg0.N) (y : S1024x256.Idx) (k : S65536x256.Idx)
    (hk0 : (k 0).val = t.val * 1024 + (y 0).val) (hk1 : (k 1).val = (y 1).val) :
    (iblk m c 4 t : Vec Ideal S1024x256 .f32) y = (m ((c : Thread nD τ).loc main_arg4) : S65536x256.Idx → EReal) k := by
  obtain ⟨h0, h1⟩ := idx4 t
  unfold iblk
  rw [View.read_apply]
  show V m c main_arg4 _ = _
  rw [V_main_arg4]
  congr 1
  funext a
  apply Fin.ext
  match a with
  | ⟨0, _⟩ => show win0_4.index t (0 : Fin 2) * 1024 + 1 * (y 0).val = (k 0).val; rw [h0, hk0]; omega
  | ⟨1, _⟩ => show win0_4.index t (1 : Fin 2) * 256 + 1 * (y 1).val = (k 1).val; rw [h1, hk1]; omega

/-- Row y₀ of window 5's tile at point t is row 1024·t + y₀ of the h3 array. -/
theorem iblk5_apply (c : Dev nD) (t : Fin cfg0.N) (y : S1024x256.Idx) (k : S65536x256.Idx)
    (hk0 : (k 0).val = t.val * 1024 + (y 0).val) (hk1 : (k 1).val = (y 1).val) :
    (iblk m c 5 t : Vec Ideal S1024x256 .f32) y = (m ((c : Thread nD τ).loc main_arg5) : S65536x256.Idx → EReal) k := by
  obtain ⟨h0, h1⟩ := idx5 t
  unfold iblk
  rw [View.read_apply]
  show V m c main_arg5 _ = _
  rw [V_main_arg5]
  congr 1
  funext a
  apply Fin.ext
  match a with
  | ⟨0, _⟩ => show win0_5.index t (0 : Fin 2) * 1024 + 1 * (y 0).val = (k 0).val; rw [h0, hk0]; omega
  | ⟨1, _⟩ => show win0_5.index t (1 : Fin 2) * 256 + 1 * (y 1).val = (k 1).val; rw [h1, hk1]; omega

/-- Window 6's block, at every point, is the whole array the host operations left in its buffer. -/
theorem iblk6_eq (c : Dev nD) (t : Fin cfg0.N) :
    (iblk m c 6 t : Vec Ideal S256x256 .bf16) = (V m c main_v1 : S256x256.Idx → EReal) := by
  obtain ⟨h0, h1⟩ := idx6 t
  funext y
  unfold iblk
  rw [View.read_apply]
  show V m c main_v1 _ = _
  congr 1
  funext a
  apply Fin.ext
  match a with
  | ⟨0, _⟩ => show win0_6.index t (0 : Fin 2) * 256 + 1 * (y 0).val = (y 0).val; rw [h0]; omega
  | ⟨1, _⟩ => show win0_6.index t (1 : Fin 2) * 256 + 1 * (y 1).val = (y 1).val; rw [h1]; omega

/-- Window 7's block, at every point, is the whole array the host operations left in its buffer. -/
theorem iblk7_eq (c : Dev nD) (t : Fin cfg0.N) :
    (iblk m c 7 t : Vec Ideal S256x40 .bf16) = (V m c main_v3 : S256x40.Idx → EReal) := by
  obtain ⟨h0, h1⟩ := idx7 t
  funext y
  unfold iblk
  rw [View.read_apply]
  show V m c main_v3 _ = _
  congr 1
  funext a
  apply Fin.ext
  match a with
  | ⟨0, _⟩ => show win0_7.index t (0 : Fin 2) * 256 + 1 * (y 0).val = (y 0).val; rw [h0]; omega
  | ⟨1, _⟩ => show win0_7.index t (1 : Fin 2) * 40 + 1 * (y 1).val = (y 1).val; rw [h1]; omega

/-- Window 8's block, at every point, is the whole array the host operations left in its buffer. -/
theorem iblk8_eq (c : Dev nD) (t : Fin cfg0.N) :
    (iblk m c 8 t : Vec Ideal S256 .f32) = (V m c main_v5 : S256.Idx → EReal) := by
  have h0 := idx8 t
  funext y
  unfold iblk
  rw [View.read_apply]
  show V m c main_v5 _ = _
  congr 1
  funext a
  apply Fin.ext
  match a with
  | ⟨0, _⟩ => show win0_8.index t (0 : Fin 1) * 256 + 1 * (y 0).val = (y 0).val; rw [h0]; omega

/-- Window 9's block, at every point, is the whole array the host operations left in its buffer. -/
theorem iblk9_eq (c : Dev nD) (t : Fin cfg0.N) :
    (iblk m c 9 t : Vec Ideal S256x80 .bf16) = (V m c main_v7 : S256x80.Idx → EReal) := by
  obtain ⟨h0, h1⟩ := idx9 t
  funext y
  unfold iblk
  rw [View.read_apply]
  show V m c main_v7 _ = _
  congr 1
  funext a
  apply Fin.ext
  match a with
  | ⟨0, _⟩ => show win0_9.index t (0 : Fin 2) * 256 + 1 * (y 0).val = (y 0).val; rw [h0]; omega
  | ⟨1, _⟩ => show win0_9.index t (1 : Fin 2) * 80 + 1 * (y 1).val = (y 1).val; rw [h1]; omega

/-- Window 10's block, at every point, is the whole d1b array. -/
theorem iblk10_eq (c : Dev nD) (t : Fin cfg0.N) :
    (iblk m c 10 t : Vec Ideal S256 .f32) = (m ((c : Thread nD τ).loc main_arg7) : S256.Idx → EReal) := by
  have h0 := idx10 t
  funext y
  unfold iblk
  rw [View.read_apply]
  show V m c main_arg7 _ = _
  rw [V_main_arg7]
  congr 1
  funext a
  apply Fin.ext
  match a with
  | ⟨0, _⟩ => show win0_10.index t (0 : Fin 1) * 256 + 1 * (y 0).val = (y 0).val; rw [h0]; omega

/-- Window 11's block, at every point, is the whole array the host operations left in its buffer. -/
theorem iblk11_eq (c : Dev nD) (t : Fin cfg0.N) :
    (iblk m c 11 t : Vec Ideal S256x256 .bf16) = (V m c main_v9 : S256x256.Idx → EReal) := by
  obtain ⟨h0, h1⟩ := idx11 t
  funext y
  unfold iblk
  rw [View.read_apply]
  show V m c main_v9 _ = _
  congr 1
  funext a
  apply Fin.ext
  match a with
  | ⟨0, _⟩ => show win0_11.index t (0 : Fin 2) * 256 + 1 * (y 0).val = (y 0).val; rw [h0]; omega
  | ⟨1, _⟩ => show win0_11.index t (1 : Fin 2) * 256 + 1 * (y 1).val = (y 1).val; rw [h1]; omega

/-- Window 12's block, at every point, is the whole d2b array. -/
theorem iblk12_eq (c : Dev nD) (t : Fin cfg0.N) :
    (iblk m c 12 t : Vec Ideal S256 .f32) = (m ((c : Thread nD τ).loc main_arg9) : S256.Idx → EReal) := by
  have h0 := idx12 t
  funext y
  unfold iblk
  rw [View.read_apply]
  show V m c main_arg9 _ = _
  rw [V_main_arg9]
  congr 1
  funext a
  apply Fin.ext
  match a with
  | ⟨0, _⟩ => show win0_12.index t (0 : Fin 1) * 256 + 1 * (y 0).val = (y 0).val; rw [h0]; omega

/-- Window 13's block, at every point, is the whole array the host operations left in its buffer. -/
theorem iblk13_eq (c : Dev nD) (t : Fin cfg0.N) :
    (iblk m c 13 t : Vec Ideal S768x256 .bf16) = (V m c main_v10 : S768x256.Idx → EReal) := by
  obtain ⟨h0, h1⟩ := idx13 t
  funext y
  unfold iblk
  rw [View.read_apply]
  show V m c main_v10 _ = _
  congr 1
  funext a
  apply Fin.ext
  match a with
  | ⟨0, _⟩ => show win0_13.index t (0 : Fin 2) * 768 + 1 * (y 0).val = (y 0).val; rw [h0]; omega
  | ⟨1, _⟩ => show win0_13.index t (1 : Fin 2) * 256 + 1 * (y 1).val = (y 1).val; rw [h1]; omega

/-- Window 14's block, at every point, is the whole array the host operations left in its buffer. -/
theorem iblk14_eq (c : Dev nD) (t : Fin cfg0.N) :
    (iblk m c 14 t : Vec Ideal S768x256 .bf16) = (V m c main_v11 : S768x256.Idx → EReal) := by
  obtain ⟨h0, h1⟩ := idx14 t
  funext y
  unfold iblk
  rw [View.read_apply]
  show V m c main_v11 _ = _
  congr 1
  funext a
  apply Fin.ext
  match a with
  | ⟨0, _⟩ => show win0_14.index t (0 : Fin 2) * 768 + 1 * (y 0).val = (y 0).val; rw [h0]; omega
  | ⟨1, _⟩ => show win0_14.index t (1 : Fin 2) * 256 + 1 * (y 1).val = (y 1).val; rw [h1]; omega

/-- Window 15's block, at every point, is the whole bih1 array. -/
theorem iblk15_eq (c : Dev nD) (t : Fin cfg0.N) :
    (iblk m c 15 t : Vec Ideal S768 .f32) = (m ((c : Thread nD τ).loc main_arg12) : S768.Idx → EReal) := by
  have h0 := idx15 t
  funext y
  unfold iblk
  rw [View.read_apply]
  show V m c main_arg12 _ = _
  rw [V_main_arg12]
  congr 1
  funext a
  apply Fin.ext
  match a with
  | ⟨0, _⟩ => show win0_15.index t (0 : Fin 1) * 768 + 1 * (y 0).val = (y 0).val; rw [h0]; omega

/-- Window 16's block, at every point, is the whole bhh1 array. -/
theorem iblk16_eq (c : Dev nD) (t : Fin cfg0.N) :
    (iblk m c 16 t : Vec Ideal S768 .f32) = (m ((c : Thread nD τ).loc main_arg13) : S768.Idx → EReal) := by
  have h0 := idx16 t
  funext y
  unfold iblk
  rw [View.read_apply]
  show V m c main_arg13 _ = _
  rw [V_main_arg13]
  congr 1
  funext a
  apply Fin.ext
  match a with
  | ⟨0, _⟩ => show win0_16.index t (0 : Fin 1) * 768 + 1 * (y 0).val = (y 0).val; rw [h0]; omega

/-- Window 17's block, at every point, is the whole array the host operations left in its buffer. -/
theorem iblk17_eq (c : Dev nD) (t : Fin cfg0.N) :
    (iblk m c 17 t : Vec Ideal S768x256 .bf16) = (V m c main_v12 : S768x256.Idx → EReal) := by
  obtain ⟨h0, h1⟩ := idx17 t
  funext y
  unfold iblk
  rw [View.read_apply]
  show V m c main_v12 _ = _
  congr 1
  funext a
  apply Fin.ext
  match a with
  | ⟨0, _⟩ => show win0_17.index t (0 : Fin 2) * 768 + 1 * (y 0).val = (y 0).val; rw [h0]; omega
  | ⟨1, _⟩ => show win0_17.index t (1 : Fin 2) * 256 + 1 * (y 1).val = (y 1).val; rw [h1]; omega

/-- Window 18's block, at every point, is the whole array the host operations left in its buffer. -/
theorem iblk18_eq (c : Dev nD) (t : Fin cfg0.N) :
    (iblk m c 18 t : Vec Ideal S768x256 .bf16) = (V m c main_v13 : S768x256.Idx → EReal) := by
  obtain ⟨h0, h1⟩ := idx18 t
  funext y
  unfold iblk
  rw [View.read_apply]
  show V m c main_v13 _ = _
  congr 1
  funext a
  apply Fin.ext
  match a with
  | ⟨0, _⟩ => show win0_18.index t (0 : Fin 2) * 768 + 1 * (y 0).val = (y 0).val; rw [h0]; omega
  | ⟨1, _⟩ => show win0_18.index t (1 : Fin 2) * 256 + 1 * (y 1).val = (y 1).val; rw [h1]; omega

/-- Window 19's block, at every point, is the whole bih2 array. -/
theorem iblk19_eq (c : Dev nD) (t : Fin cfg0.N) :
    (iblk m c 19 t : Vec Ideal S768 .f32) = (m ((c : Thread nD τ).loc main_arg16) : S768.Idx → EReal) := by
  have h0 := idx19 t
  funext y
  unfold iblk
  rw [View.read_apply]
  show V m c main_arg16 _ = _
  rw [V_main_arg16]
  congr 1
  funext a
  apply Fin.ext
  match a with
  | ⟨0, _⟩ => show win0_19.index t (0 : Fin 1) * 768 + 1 * (y 0).val = (y 0).val; rw [h0]; omega

/-- Window 20's block, at every point, is the whole bhh2 array. -/
theorem iblk20_eq (c : Dev nD) (t : Fin cfg0.N) :
    (iblk m c 20 t : Vec Ideal S768 .f32) = (m ((c : Thread nD τ).loc main_arg17) : S768.Idx → EReal) := by
  have h0 := idx20 t
  funext y
  unfold iblk
  rw [View.read_apply]
  show V m c main_arg17 _ = _
  rw [V_main_arg17]
  congr 1
  funext a
  apply Fin.ext
  match a with
  | ⟨0, _⟩ => show win0_20.index t (0 : Fin 1) * 768 + 1 * (y 0).val = (y 0).val; rw [h0]; omega

/-- Window 21's block, at every point, is the whole array the host operations left in its buffer. -/
theorem iblk21_eq (c : Dev nD) (t : Fin cfg0.N) :
    (iblk m c 21 t : Vec Ideal S768x256 .bf16) = (V m c main_v14 : S768x256.Idx → EReal) := by
  obtain ⟨h0, h1⟩ := idx21 t
  funext y
  unfold iblk
  rw [View.read_apply]
  show V m c main_v14 _ = _
  congr 1
  funext a
  apply Fin.ext
  match a with
  | ⟨0, _⟩ => show win0_21.index t (0 : Fin 2) * 768 + 1 * (y 0).val = (y 0).val; rw [h0]; omega
  | ⟨1, _⟩ => show win0_21.index t (1 : Fin 2) * 256 + 1 * (y 1).val = (y 1).val; rw [h1]; omega

/-- Window 22's block, at every point, is the whole array the host operations left in its buffer. -/
theorem iblk22_eq (c : Dev nD) (t : Fin cfg0.N) :
    (iblk m c 22 t : Vec Ideal S768x256 .bf16) = (V m c main_v15 : S768x256.Idx → EReal) := by
  obtain ⟨h0, h1⟩ := idx22 t
  funext y
  unfold iblk
  rw [View.read_apply]
  show V m c main_v15 _ = _
  congr 1
  funext a
  apply Fin.ext
  match a with
  | ⟨0, _⟩ => show win0_22.index t (0 : Fin 2) * 768 + 1 * (y 0).val = (y 0).val; rw [h0]; omega
  | ⟨1, _⟩ => show win0_22.index t (1 : Fin 2) * 256 + 1 * (y 1).val = (y 1).val; rw [h1]; omega

/-- Window 23's block, at every point, is the whole bih3 array. -/
theorem iblk23_eq (c : Dev nD) (t : Fin cfg0.N) :
    (iblk m c 23 t : Vec Ideal S768 .f32) = (m ((c : Thread nD τ).loc main_arg20) : S768.Idx → EReal) := by
  have h0 := idx23 t
  funext y
  unfold iblk
  rw [View.read_apply]
  show V m c main_arg20 _ = _
  rw [V_main_arg20]
  congr 1
  funext a
  apply Fin.ext
  match a with
  | ⟨0, _⟩ => show win0_23.index t (0 : Fin 1) * 768 + 1 * (y 0).val = (y 0).val; rw [h0]; omega

/-- Window 24's block, at every point, is the whole bhh3 array. -/
theorem iblk24_eq (c : Dev nD) (t : Fin cfg0.N) :
    (iblk m c 24 t : Vec Ideal S768 .f32) = (m ((c : Thread nD τ).loc main_arg21) : S768.Idx → EReal) := by
  have h0 := idx24 t
  funext y
  unfold iblk
  rw [View.read_apply]
  show V m c main_arg21 _ = _
  rw [V_main_arg21]
  congr 1
  funext a
  apply Fin.ext
  match a with
  | ⟨0, _⟩ => show win0_24.index t (0 : Fin 1) * 768 + 1 * (y 0).val = (y 0).val; rw [h0]; omega

/-- Window 25's block, at every point, is the whole array the host operations left in its buffer. -/
theorem iblk25_eq (c : Dev nD) (t : Fin cfg0.N) :
    (iblk m c 25 t : Vec Ideal S40x256 .bf16) = (V m c main_v16 : S40x256.Idx → EReal) := by
  obtain ⟨h0, h1⟩ := idx25 t
  funext y
  unfold iblk
  rw [View.read_apply]
  show V m c main_v16 _ = _
  congr 1
  funext a
  apply Fin.ext
  match a with
  | ⟨0, _⟩ => show win0_25.index t (0 : Fin 2) * 40 + 1 * (y 0).val = (y 0).val; rw [h0]; omega
  | ⟨1, _⟩ => show win0_25.index t (1 : Fin 2) * 256 + 1 * (y 1).val = (y 1).val; rw [h1]; omega

/-- Window 26's block, at every point, is the whole doutb array. -/
theorem iblk26_eq (c : Dev nD) (t : Fin cfg0.N) :
    (iblk m c 26 t : Vec Ideal S40 .f32) = (m ((c : Thread nD τ).loc main_arg23) : S40.Idx → EReal) := by
  have h0 := idx26 t
  funext y
  unfold iblk
  rw [View.read_apply]
  show V m c main_arg23 _ = _
  rw [V_main_arg23]
  congr 1
  funext a
  apply Fin.ext
  match a with
  | ⟨0, _⟩ => show win0_26.index t (0 : Fin 1) * 40 + 1 * (y 0).val = (y 0).val; rw [h0]; omega

/-- Window 27's block, at every point, is the whole array the host operations left in its buffer. -/
theorem iblk27_eq (c : Dev nD) (t : Fin cfg0.N) :
    (iblk m c 27 t : Vec Ideal S256 .f32) = (V m c main_v8 : S256.Idx → EReal) := by
  have h0 := idx27 t
  funext y
  unfold iblk
  rw [View.read_apply]
  show V m c main_v8 _ = _
  congr 1
  funext a
  apply Fin.ext
  match a with
  | ⟨0, _⟩ => show win0_27.index t (0 : Fin 1) * 256 + 1 * (y 0).val = (y 0).val; rw [h0]; omega

/-- Window 28's block, at every point, is the whole gainb array. -/
theorem iblk28_eq (c : Dev nD) (t : Fin cfg0.N) :
    (iblk m c 28 t : Vec Ideal S1 .f32) = (m ((c : Thread nD τ).loc main_arg25) : S1.Idx → EReal) := by
  have h0 := idx28 t
  funext y
  unfold iblk
  rw [View.read_apply]
  show V m c main_arg25 _ = _
  rw [V_main_arg25]
  congr 1
  funext a
  apply Fin.ext
  match a with
  | ⟨0, _⟩ => show win0_28.index t (0 : Fin 1) * 1 + 1 * (y 0).val = (y 0).val; rw [h0]; omega

/-! ## The blocks at a grid point are a row of the arrays -/

/-- THE BLOCKS AT A GRID POINT, seen from row p of the tiles, are row 1024·t + p of the activation arrays and the whole
    weight arrays: the first dense layer's weight as its four column stretches, the gain head's weight row as a vector. -/
theorem blockAt (c : Dev nD) (t : Fin cfg0.N) (p : Fin 1024) :
    Spec.BlockAt (Aof m c) (rowOf t p) p (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) :=
  { cond := fun k => iblk0_apply m c t (ix2 p k) (ix2 (rowOf t p) k) rfl rfl
    prev := fun k => iblk1_apply m c t (ix2 p k) (ix2 (rowOf t p) k) rfl rfl
    phase := fun k => iblk2_apply m c t (ix2 p k) (ix2 (rowOf t p) k) rfl rfl
    h1 := fun k => iblk3_apply m c t (ix2 p k) (ix2 (rowOf t p) k) rfl rfl
    h2 := fun k => iblk4_apply m c t (ix2 p k) (ix2 (rowOf t p) k) rfl rfl
    h3 := fun k => iblk5_apply m c t (ix2 p k) (ix2 (rowOf t p) k) rfl rfl
    wc := fun o k => (congrFun (iblk6_eq m c t) (ix2 o k)).trans (V_main_v1_apply m c o k)
    wp := fun o k => (congrFun (iblk7_eq m c t) (ix2 o k)).trans (V_main_v3_apply m c o k)
    wg := fun o => (congrFun (iblk8_eq m c t) (ix1 o)).trans (V_main_v5_apply m c o)
    wph := fun o k => (congrFun (iblk9_eq m c t) (ix2 o k)).trans (V_main_v7_apply m c o k)
    d1b := iblk10_eq m c t
    d2w := (iblk11_eq m c t).trans (V_main_v9 m c)
    d2b := iblk12_eq m c t
    wih1 := (iblk13_eq m c t).trans (V_main_v10 m c)
    whh1 := (iblk14_eq m c t).trans (V_main_v11 m c)
    bih1 := iblk15_eq m c t
    bhh1 := iblk16_eq m c t
    wih2 := (iblk17_eq m c t).trans (V_main_v12 m c)
    whh2 := (iblk18_eq m c t).trans (V_main_v13 m c)
    bih2 := iblk19_eq m c t
    bhh2 := iblk20_eq m c t
    wih3 := (iblk21_eq m c t).trans (V_main_v14 m c)
    whh3 := (iblk22_eq m c t).trans (V_main_v15 m c)
    bih3 := iblk23_eq m c t
    bhh3 := iblk24_eq m c t
    doutw := (iblk25_eq m c t).trans (V_main_v16 m c)
    doutb := iblk26_eq m c t
    gainw := fun k => (congrFun (iblk27_eq m c t) (ix1 k)).trans (V_main_v8_apply m c k)
    gainb := iblk28_eq m c t }

/-! ## Output window 30 -/

/-- The body's result for window 30 at an index of the tile, by coordinates: row y₀ of the tile is `Spec.g1` of the arrays' row. -/
theorem out30_at (A : Spec.Args) (r : Fin 65536) (x0 : Vec Ideal S1024x256 .f32) (x1 : Vec Ideal S1024x40 .f32) (x2 : Vec Ideal S1024x80 .f32) (x3 : Vec Ideal S1024x256 .f32) (x4 : Vec Ideal S1024x256 .f32) (x5 : Vec Ideal S1024x256 .f32) (x6 : Vec Ideal S256x256 .bf16) (x7 : Vec Ideal S256x40 .bf16) (x8 : Vec Ideal S256 .f32) (x9 : Vec Ideal S256x80 .bf16) (x10 : Vec Ideal S256 .f32) (x11 : Vec Ideal S256x256 .bf16) (x12 : Vec Ideal S256 .f32) (x13 : Vec Ideal S768x256 .bf16) (x14 : Vec Ideal S768x256 .bf16) (x15 : Vec Ideal S768 .f32) (x16 : Vec Ideal S768 .f32) (x17 : Vec Ideal S768x256 .bf16) (x18 : Vec Ideal S768x256 .bf16) (x19 : Vec Ideal S768 .f32) (x20 : Vec Ideal S768 .f32) (x21 : Vec Ideal S768x256 .bf16) (x22 : Vec Ideal S768x256 .bf16) (x23 : Vec Ideal S768 .f32) (x24 : Vec Ideal S768 .f32) (x25 : Vec Ideal S40x256 .bf16) (x26 : Vec Ideal S40 .f32) (x27 : Vec Ideal S256 .f32) (x28 : Vec Ideal S1 .f32) (y : S1024x256.Idx)
    (hB : Spec.BlockAt A r (y 0) x0 x1 x2 x3 x4 x5 x6 x7 x8 x9 x10 x11 x12 x13 x14 x15 x16 x17 x18 x19 x20 x21 x22 x23 x24 x25 x26 x27 x28) :
    out0_30 (F := Ideal) x0 x1 x2 x3 x4 x5 x6 x7 x8 x9 x10 x11 x12 x13 x14 x15 x16 x17 x18 x19 x20 x21 x22 x23 x24 x25 x26 x27 x28 y = Spec.g1 A r (y 1) :=
  (congrArg (out0_30 (F := Ideal) x0 x1 x2 x3 x4 x5 x6 x7 x8 x9 x10 x11 x12 x13 x14 x15 x16 x17 x18 x19 x20 x21 x22 x23 x24 x25 x26 x27 x28) (eq_ix2 y)).trans
    (Rows.out30_row A r (y 0) x0 x1 x2 x3 x4 x5 x6 x7 x8 x9 x10 x11 x12 x13 x14 x15 x16 x17 x18 x19 x20 x21 x22 x23 x24 x25 x26 x27 x28 hB (y 1))

/-- WHAT POINT t WRITES BACK is block t of `Spec.G1` of the argument arrays. -/
theorem flushed30_eq (c : Dev nD) (t : Fin cfg0.N) :
    (dats m 0 c).flushed 30 t = ((cfg0.win 30).blk t).view.read (Elt Ideal) (Spec.G1 (Aof m c)) := by
  obtain ⟨h0, h1⟩ := idx30 t
  rw [ValueP.flushed30]
  refine funext fun (y : S1024x256.Idx) => ?_
  show out0_30 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y = Spec.G1 (Aof m c) (((cfg0.win 30).blk t).view.emb y)
  refine (out30_at (Aof m c) (rowOf t (y 0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y (blockAt m c t (y 0))).trans ?_
  show Spec.g1 (Aof m c) (rowOf t (y 0)) (y 1) = Spec.g1 (Aof m c) ((((cfg0.win 30).blk t).view.emb y) 0) ((((cfg0.win 30).blk t).view.emb y) 1)
  have e0 : rowOf t (y 0) = (((cfg0.win 30).blk t).view.emb y) 0 :=
    Fin.ext (by show t.val * 1024 + (y 0).val = win0_30.index t (0 : Fin 2) * 1024 + 1 * (y 0).val; rw [h0]; omega)
  have e1 : y 1 = (((cfg0.win 30).blk t).view.emb y) 1 :=
    Fin.ext (by show (y 1).val = win0_30.index t (1 : Fin 2) * 256 + 1 * (y 1).val; rw [h1]; omega)
  exact congrArg₂ (Spec.g1 (Aof m c)) e0 e1

/-- An index of the array is in point t's block iff each coordinate is in the block's range on its axis. -/
theorem mem_blk30 (t : Fin cfg0.N) (i : S65536x256.Idx) :
    i ∈ ((cfg0.win 30).blk t).view.set ↔ ∀ a : Fin 2, win0_30.index t a * S1024x256.size a ≤ (i a).val ∧ (i a).val < win0_30.index t a * S1024x256.size a + S1024x256.size a := by
  show i ∈ ((View.whole main_v17_1).slice (win0_30.rect t)).set ↔ _
  rw [View.set_slice_whole, Rect.mem_set_unit]
  exact Iff.rfl

/-- Every index of the array is in some point's block: row r is covered by point r / 1024. -/
theorem cover30 (i : S65536x256.Idx) : ∃ t : Fin cfg0.N, (cfg0.win 30).flush t = true ∧ i ∈ ((cfg0.win 30).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨h0, h1⟩ := idx30 t
  refine ⟨t, flush0_30 t, ?_⟩
  rw [mem_blk30]
  intro a
  match a with
  | ⟨0, _⟩ => show win0_30.index t (0 : Fin 2) * 1024 ≤ (i 0).val ∧ (i 0).val < win0_30.index t (0 : Fin 2) * 1024 + 1024; rw [h0, ht]; omega
  | ⟨1, _⟩ => show win0_30.index t (1 : Fin 2) * 256 ≤ (i 1).val ∧ (i 1).val < win0_30.index t (1 : Fin 2) * 256 + 256; rw [h1]; omega

/-- THE ARRAY after the run is `Spec.G1` of the argument arrays. -/
theorem final30 (c : Dev nD) : (dats m 0 c).arrAt 30 cfg0.N = Spec.G1 (Aof m c) :=
  (dats m 0 c).arrAt_eq_of_cover 30 (Spec.G1 (Aof m c)) (fun t _ => flushed30_eq m c t) cover30

/-! ## Output window 31 -/

/-- The body's result for window 31 at an index of the tile, by coordinates: row y₀ of the tile is `Spec.g2` of the arrays' row. -/
theorem out31_at (A : Spec.Args) (r : Fin 65536) (x0 : Vec Ideal S1024x256 .f32) (x1 : Vec Ideal S1024x40 .f32) (x2 : Vec Ideal S1024x80 .f32) (x3 : Vec Ideal S1024x256 .f32) (x4 : Vec Ideal S1024x256 .f32) (x5 : Vec Ideal S1024x256 .f32) (x6 : Vec Ideal S256x256 .bf16) (x7 : Vec Ideal S256x40 .bf16) (x8 : Vec Ideal S256 .f32) (x9 : Vec Ideal S256x80 .bf16) (x10 : Vec Ideal S256 .f32) (x11 : Vec Ideal S256x256 .bf16) (x12 : Vec Ideal S256 .f32) (x13 : Vec Ideal S768x256 .bf16) (x14 : Vec Ideal S768x256 .bf16) (x15 : Vec Ideal S768 .f32) (x16 : Vec Ideal S768 .f32) (x17 : Vec Ideal S768x256 .bf16) (x18 : Vec Ideal S768x256 .bf16) (x19 : Vec Ideal S768 .f32) (x20 : Vec Ideal S768 .f32) (x21 : Vec Ideal S768x256 .bf16) (x22 : Vec Ideal S768x256 .bf16) (x23 : Vec Ideal S768 .f32) (x24 : Vec Ideal S768 .f32) (x25 : Vec Ideal S40x256 .bf16) (x26 : Vec Ideal S40 .f32) (x27 : Vec Ideal S256 .f32) (x28 : Vec Ideal S1 .f32) (y : S1024x256.Idx)
    (hB : Spec.BlockAt A r (y 0) x0 x1 x2 x3 x4 x5 x6 x7 x8 x9 x10 x11 x12 x13 x14 x15 x16 x17 x18 x19 x20 x21 x22 x23 x24 x25 x26 x27 x28) :
    out0_31 (F := Ideal) x0 x1 x2 x3 x4 x5 x6 x7 x8 x9 x10 x11 x12 x13 x14 x15 x16 x17 x18 x19 x20 x21 x22 x23 x24 x25 x26 x27 x28 y = Spec.g2 A r (y 1) :=
  (congrArg (out0_31 (F := Ideal) x0 x1 x2 x3 x4 x5 x6 x7 x8 x9 x10 x11 x12 x13 x14 x15 x16 x17 x18 x19 x20 x21 x22 x23 x24 x25 x26 x27 x28) (eq_ix2 y)).trans
    (Rows.out31_row A r (y 0) x0 x1 x2 x3 x4 x5 x6 x7 x8 x9 x10 x11 x12 x13 x14 x15 x16 x17 x18 x19 x20 x21 x22 x23 x24 x25 x26 x27 x28 hB (y 1))

/-- WHAT POINT t WRITES BACK is block t of `Spec.G2` of the argument arrays. -/
theorem flushed31_eq (c : Dev nD) (t : Fin cfg0.N) :
    (dats m 0 c).flushed 31 t = ((cfg0.win 31).blk t).view.read (Elt Ideal) (Spec.G2 (Aof m c)) := by
  obtain ⟨h0, h1⟩ := idx31 t
  rw [ValueP.flushed31]
  refine funext fun (y : S1024x256.Idx) => ?_
  show out0_31 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y = Spec.G2 (Aof m c) (((cfg0.win 31).blk t).view.emb y)
  refine (out31_at (Aof m c) (rowOf t (y 0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y (blockAt m c t (y 0))).trans ?_
  show Spec.g2 (Aof m c) (rowOf t (y 0)) (y 1) = Spec.g2 (Aof m c) ((((cfg0.win 31).blk t).view.emb y) 0) ((((cfg0.win 31).blk t).view.emb y) 1)
  have e0 : rowOf t (y 0) = (((cfg0.win 31).blk t).view.emb y) 0 :=
    Fin.ext (by show t.val * 1024 + (y 0).val = win0_31.index t (0 : Fin 2) * 1024 + 1 * (y 0).val; rw [h0]; omega)
  have e1 : y 1 = (((cfg0.win 31).blk t).view.emb y) 1 :=
    Fin.ext (by show (y 1).val = win0_31.index t (1 : Fin 2) * 256 + 1 * (y 1).val; rw [h1]; omega)
  exact congrArg₂ (Spec.g2 (Aof m c)) e0 e1

/-- An index of the array is in point t's block iff each coordinate is in the block's range on its axis. -/
theorem mem_blk31 (t : Fin cfg0.N) (i : S65536x256.Idx) :
    i ∈ ((cfg0.win 31).blk t).view.set ↔ ∀ a : Fin 2, win0_31.index t a * S1024x256.size a ≤ (i a).val ∧ (i a).val < win0_31.index t a * S1024x256.size a + S1024x256.size a := by
  show i ∈ ((View.whole main_v17_2).slice (win0_31.rect t)).set ↔ _
  rw [View.set_slice_whole, Rect.mem_set_unit]
  exact Iff.rfl

/-- Every index of the array is in some point's block: row r is covered by point r / 1024. -/
theorem cover31 (i : S65536x256.Idx) : ∃ t : Fin cfg0.N, (cfg0.win 31).flush t = true ∧ i ∈ ((cfg0.win 31).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨h0, h1⟩ := idx31 t
  refine ⟨t, flush0_31 t, ?_⟩
  rw [mem_blk31]
  intro a
  match a with
  | ⟨0, _⟩ => show win0_31.index t (0 : Fin 2) * 1024 ≤ (i 0).val ∧ (i 0).val < win0_31.index t (0 : Fin 2) * 1024 + 1024; rw [h0, ht]; omega
  | ⟨1, _⟩ => show win0_31.index t (1 : Fin 2) * 256 ≤ (i 1).val ∧ (i 1).val < win0_31.index t (1 : Fin 2) * 256 + 256; rw [h1]; omega

/-- THE ARRAY after the run is `Spec.G2` of the argument arrays. -/
theorem final31 (c : Dev nD) : (dats m 0 c).arrAt 31 cfg0.N = Spec.G2 (Aof m c) :=
  (dats m 0 c).arrAt_eq_of_cover 31 (Spec.G2 (Aof m c)) (fun t _ => flushed31_eq m c t) cover31

/-! ## Output window 32 -/

/-- The body's result for window 32 at an index of the tile, by coordinates: row y₀ of the tile is `Spec.g3` of the arrays' row. -/
theorem out32_at (A : Spec.Args) (r : Fin 65536) (x0 : Vec Ideal S1024x256 .f32) (x1 : Vec Ideal S1024x40 .f32) (x2 : Vec Ideal S1024x80 .f32) (x3 : Vec Ideal S1024x256 .f32) (x4 : Vec Ideal S1024x256 .f32) (x5 : Vec Ideal S1024x256 .f32) (x6 : Vec Ideal S256x256 .bf16) (x7 : Vec Ideal S256x40 .bf16) (x8 : Vec Ideal S256 .f32) (x9 : Vec Ideal S256x80 .bf16) (x10 : Vec Ideal S256 .f32) (x11 : Vec Ideal S256x256 .bf16) (x12 : Vec Ideal S256 .f32) (x13 : Vec Ideal S768x256 .bf16) (x14 : Vec Ideal S768x256 .bf16) (x15 : Vec Ideal S768 .f32) (x16 : Vec Ideal S768 .f32) (x17 : Vec Ideal S768x256 .bf16) (x18 : Vec Ideal S768x256 .bf16) (x19 : Vec Ideal S768 .f32) (x20 : Vec Ideal S768 .f32) (x21 : Vec Ideal S768x256 .bf16) (x22 : Vec Ideal S768x256 .bf16) (x23 : Vec Ideal S768 .f32) (x24 : Vec Ideal S768 .f32) (x25 : Vec Ideal S40x256 .bf16) (x26 : Vec Ideal S40 .f32) (x27 : Vec Ideal S256 .f32) (x28 : Vec Ideal S1 .f32) (y : S1024x256.Idx)
    (hB : Spec.BlockAt A r (y 0) x0 x1 x2 x3 x4 x5 x6 x7 x8 x9 x10 x11 x12 x13 x14 x15 x16 x17 x18 x19 x20 x21 x22 x23 x24 x25 x26 x27 x28) :
    out0_32 (F := Ideal) x0 x1 x2 x3 x4 x5 x6 x7 x8 x9 x10 x11 x12 x13 x14 x15 x16 x17 x18 x19 x20 x21 x22 x23 x24 x25 x26 x27 x28 y = Spec.g3 A r (y 1) :=
  (congrArg (out0_32 (F := Ideal) x0 x1 x2 x3 x4 x5 x6 x7 x8 x9 x10 x11 x12 x13 x14 x15 x16 x17 x18 x19 x20 x21 x22 x23 x24 x25 x26 x27 x28) (eq_ix2 y)).trans
    (Rows.out32_row A r (y 0) x0 x1 x2 x3 x4 x5 x6 x7 x8 x9 x10 x11 x12 x13 x14 x15 x16 x17 x18 x19 x20 x21 x22 x23 x24 x25 x26 x27 x28 hB (y 1))

/-- WHAT POINT t WRITES BACK is block t of `Spec.G3` of the argument arrays. -/
theorem flushed32_eq (c : Dev nD) (t : Fin cfg0.N) :
    (dats m 0 c).flushed 32 t = ((cfg0.win 32).blk t).view.read (Elt Ideal) (Spec.G3 (Aof m c)) := by
  obtain ⟨h0, h1⟩ := idx32 t
  rw [ValueP.flushed32]
  refine funext fun (y : S1024x256.Idx) => ?_
  show out0_32 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y = Spec.G3 (Aof m c) (((cfg0.win 32).blk t).view.emb y)
  refine (out32_at (Aof m c) (rowOf t (y 0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y (blockAt m c t (y 0))).trans ?_
  show Spec.g3 (Aof m c) (rowOf t (y 0)) (y 1) = Spec.g3 (Aof m c) ((((cfg0.win 32).blk t).view.emb y) 0) ((((cfg0.win 32).blk t).view.emb y) 1)
  have e0 : rowOf t (y 0) = (((cfg0.win 32).blk t).view.emb y) 0 :=
    Fin.ext (by show t.val * 1024 + (y 0).val = win0_32.index t (0 : Fin 2) * 1024 + 1 * (y 0).val; rw [h0]; omega)
  have e1 : y 1 = (((cfg0.win 32).blk t).view.emb y) 1 :=
    Fin.ext (by show (y 1).val = win0_32.index t (1 : Fin 2) * 256 + 1 * (y 1).val; rw [h1]; omega)
  exact congrArg₂ (Spec.g3 (Aof m c)) e0 e1

/-- An index of the array is in point t's block iff each coordinate is in the block's range on its axis. -/
theorem mem_blk32 (t : Fin cfg0.N) (i : S65536x256.Idx) :
    i ∈ ((cfg0.win 32).blk t).view.set ↔ ∀ a : Fin 2, win0_32.index t a * S1024x256.size a ≤ (i a).val ∧ (i a).val < win0_32.index t a * S1024x256.size a + S1024x256.size a := by
  show i ∈ ((View.whole main_v17_3).slice (win0_32.rect t)).set ↔ _
  rw [View.set_slice_whole, Rect.mem_set_unit]
  exact Iff.rfl

/-- Every index of the array is in some point's block: row r is covered by point r / 1024. -/
theorem cover32 (i : S65536x256.Idx) : ∃ t : Fin cfg0.N, (cfg0.win 32).flush t = true ∧ i ∈ ((cfg0.win 32).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨h0, h1⟩ := idx32 t
  refine ⟨t, flush0_32 t, ?_⟩
  rw [mem_blk32]
  intro a
  match a with
  | ⟨0, _⟩ => show win0_32.index t (0 : Fin 2) * 1024 ≤ (i 0).val ∧ (i 0).val < win0_32.index t (0 : Fin 2) * 1024 + 1024; rw [h0, ht]; omega
  | ⟨1, _⟩ => show win0_32.index t (1 : Fin 2) * 256 ≤ (i 1).val ∧ (i 1).val < win0_32.index t (1 : Fin 2) * 256 + 256; rw [h1]; omega

/-- THE ARRAY after the run is `Spec.G3` of the argument arrays. -/
theorem final32 (c : Dev nD) : (dats m 0 c).arrAt 32 cfg0.N = Spec.G3 (Aof m c) :=
  (dats m 0 c).arrAt_eq_of_cover 32 (Spec.G3 (Aof m c)) (fun t _ => flushed32_eq m c t) cover32

/-! ## Output window 29 -/

/-- The body's result for window 29 at an index of the tile, by coordinates: row y₀ of the tile is `Spec.sig` of the arrays' row. -/
theorem out29_at (A : Spec.Args) (r : Fin 65536) (x0 : Vec Ideal S1024x256 .f32) (x1 : Vec Ideal S1024x40 .f32) (x2 : Vec Ideal S1024x80 .f32) (x3 : Vec Ideal S1024x256 .f32) (x4 : Vec Ideal S1024x256 .f32) (x5 : Vec Ideal S1024x256 .f32) (x6 : Vec Ideal S256x256 .bf16) (x7 : Vec Ideal S256x40 .bf16) (x8 : Vec Ideal S256 .f32) (x9 : Vec Ideal S256x80 .bf16) (x10 : Vec Ideal S256 .f32) (x11 : Vec Ideal S256x256 .bf16) (x12 : Vec Ideal S256 .f32) (x13 : Vec Ideal S768x256 .bf16) (x14 : Vec Ideal S768x256 .bf16) (x15 : Vec Ideal S768 .f32) (x16 : Vec Ideal S768 .f32) (x17 : Vec Ideal S768x256 .bf16) (x18 : Vec Ideal S768x256 .bf16) (x19 : Vec Ideal S768 .f32) (x20 : Vec Ideal S768 .f32) (x21 : Vec Ideal S768x256 .bf16) (x22 : Vec Ideal S768x256 .bf16) (x23 : Vec Ideal S768 .f32) (x24 : Vec Ideal S768 .f32) (x25 : Vec Ideal S40x256 .bf16) (x26 : Vec Ideal S40 .f32) (x27 : Vec Ideal S256 .f32) (x28 : Vec Ideal S1 .f32) (y : S1024x40.Idx)
    (hB : Spec.BlockAt A r (y 0) x0 x1 x2 x3 x4 x5 x6 x7 x8 x9 x10 x11 x12 x13 x14 x15 x16 x17 x18 x19 x20 x21 x22 x23 x24 x25 x26 x27 x28) :
    out0_29 (F := Ideal) x0 x1 x2 x3 x4 x5 x6 x7 x8 x9 x10 x11 x12 x13 x14 x15 x16 x17 x18 x19 x20 x21 x22 x23 x24 x25 x26 x27 x28 y = Spec.sig A r (y 1) :=
  (congrArg (out0_29 (F := Ideal) x0 x1 x2 x3 x4 x5 x6 x7 x8 x9 x10 x11 x12 x13 x14 x15 x16 x17 x18 x19 x20 x21 x22 x23 x24 x25 x26 x27 x28) (eq_ix2 y)).trans
    (Rows.out29_row A r (y 0) x0 x1 x2 x3 x4 x5 x6 x7 x8 x9 x10 x11 x12 x13 x14 x15 x16 x17 x18 x19 x20 x21 x22 x23 x24 x25 x26 x27 x28 hB (y 1))

/-- WHAT POINT t WRITES BACK is block t of `Spec.Gsig` of the argument arrays. -/
theorem flushed29_eq (c : Dev nD) (t : Fin cfg0.N) :
    (dats m 0 c).flushed 29 t = ((cfg0.win 29).blk t).view.read (Elt Ideal) (Spec.Gsig (Aof m c)) := by
  obtain ⟨h0, h1⟩ := idx29 t
  rw [ValueP.flushed29]
  refine funext fun (y : S1024x40.Idx) => ?_
  show out0_29 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y = Spec.Gsig (Aof m c) (((cfg0.win 29).blk t).view.emb y)
  refine (out29_at (Aof m c) (rowOf t (y 0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y (blockAt m c t (y 0))).trans ?_
  show Spec.sig (Aof m c) (rowOf t (y 0)) (y 1) = Spec.sig (Aof m c) ((((cfg0.win 29).blk t).view.emb y) 0) ((((cfg0.win 29).blk t).view.emb y) 1)
  have e0 : rowOf t (y 0) = (((cfg0.win 29).blk t).view.emb y) 0 :=
    Fin.ext (by show t.val * 1024 + (y 0).val = win0_29.index t (0 : Fin 2) * 1024 + 1 * (y 0).val; rw [h0]; omega)
  have e1 : y 1 = (((cfg0.win 29).blk t).view.emb y) 1 :=
    Fin.ext (by show (y 1).val = win0_29.index t (1 : Fin 2) * 40 + 1 * (y 1).val; rw [h1]; omega)
  exact congrArg₂ (Spec.sig (Aof m c)) e0 e1

/-- An index of the array is in point t's block iff each coordinate is in the block's range on its axis. -/
theorem mem_blk29 (t : Fin cfg0.N) (i : S65536x40.Idx) :
    i ∈ ((cfg0.win 29).blk t).view.set ↔ ∀ a : Fin 2, win0_29.index t a * S1024x40.size a ≤ (i a).val ∧ (i a).val < win0_29.index t a * S1024x40.size a + S1024x40.size a := by
  show i ∈ ((View.whole main_v17_0).slice (win0_29.rect t)).set ↔ _
  rw [View.set_slice_whole, Rect.mem_set_unit]
  exact Iff.rfl

/-- Every index of the array is in some point's block: row r is covered by point r / 1024. -/
theorem cover29 (i : S65536x40.Idx) : ∃ t : Fin cfg0.N, (cfg0.win 29).flush t = true ∧ i ∈ ((cfg0.win 29).blk t).view.set := by
  have hi0 : (i 0).val < 65536 := (i 0).isLt
  have hi1 : (i 1).val < 40 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨h0, h1⟩ := idx29 t
  refine ⟨t, flush0_29 t, ?_⟩
  rw [mem_blk29]
  intro a
  match a with
  | ⟨0, _⟩ => show win0_29.index t (0 : Fin 2) * 1024 ≤ (i 0).val ∧ (i 0).val < win0_29.index t (0 : Fin 2) * 1024 + 1024; rw [h0, ht]; omega
  | ⟨1, _⟩ => show win0_29.index t (1 : Fin 2) * 40 ≤ (i 1).val ∧ (i 1).val < win0_29.index t (1 : Fin 2) * 40 + 40; rw [h1]; omega

/-- THE ARRAY after the run is `Spec.Gsig` of the argument arrays. -/
theorem final29 (c : Dev nD) : (dats m 0 c).arrAt 29 cfg0.N = Spec.Gsig (Aof m c) :=
  (dats m 0 c).arrAt_eq_of_cover 29 (Spec.Gsig (Aof m c)) (fun t _ => flushed29_eq m c t) cover29

/-! ## The run, read -/

/-- The kernel's run: the four result arrays end at the specification's arrays of the arguments, the arguments unchanged. -/
theorem run : θ_run defs (onTc (τ := τ) (main (F := Ideal))) ⟨m, fun _ => 0, ρ⟩ fun r => ∀ c : Dev nD,
      r.2.mem ((c : Thread nD τ).loc main_v17_0) = Spec.Gsig (Aof m c)
      ∧ r.2.mem ((c : Thread nD τ).loc main_v17_1) = Spec.G1 (Aof m c)
      ∧ r.2.mem ((c : Thread nD τ).loc main_v17_2) = Spec.G2 (Aof m c)
      ∧ r.2.mem ((c : Thread nD τ).loc main_v17_3) = Spec.G3 (Aof m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final29 m c), (h c).2.1.trans (final30 m c),
      (h c).2.2.1.trans (final31 m c), (h c).2.2.2.1.trans (final32 m c), (h c).2.2.2.2⟩)
    (ValueP.run_blocks m ρ)

end Cert.KernelIdeal.Blocks

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.RefRows.lean ====
/-
  The reference program read row by row.

  Every stage of the reference network, read at row r and column o, is the specification's row function of the
  same name: the first dense layer over the concatenated row [cond | prev / denom | log denom | phase], its tanh,
  the second dense layer, three GRU cells whose sigmoids are written 1 / (1 + exp (-x)), and the output head
  tanh (g3 · doutwᵀ + doutb) · exp (g3 · gainwᵀ + gainb). Each layer is one small statement that takes the previous
  layer's reading as given; the four results of the program are then the four arrays of the specification.
-/
import proofs.«158528_j47012712022158_2_alg».proof.Proof.Gen.ReferenceIdeal.Read
import proofs.«158528_j47012712022158_2_alg».proof.Proof.Spec
import proofs.«158528_j47012712022158_2_alg».proof.Proof.LibConcatCols

noncomputable section

open scoped BigOperators

namespace Cert.ReferenceIdeal.Rows

open Cert.ReferenceIdeal Cert.ReferenceIdeal.Gen Cert.ReferenceIdeal.Read Idealize.ShloMosaic Idealize.ShloMosaic.ValueIdx
open Cert.Spec

/-- An index of a two-axis array is fixed by its two coordinates. -/
theorem ix2_of_vals {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- An index of a one-axis array is fixed by its coordinate. -/
theorem ix1_of_val {n : Nat} (f : (⟨1, ![n]⟩ : Shape).Idx) (a : Fin n) (h0 : (f 0).val = a.val) : f = ix1 a := by
  funext d
  match d with
  | ⟨0, _⟩ => exact Fin.ext h0

/-- Three arrays of 65536 rows, 256, 41 and 80 columns wide, laid side by side: column k of row r falls in the piece whose
    span holds k, at k less the widths before it. -/
theorem cat3_apply (x0 : Mat 65536 256) (y : Mat 65536 41) (x2 : Mat 65536 80) (r : Fin 65536) (k : Fin 377) :
    concatenate S65536x377 1 [⟨S65536x256, x0⟩, ⟨S65536x41, y⟩, ⟨S65536x80, x2⟩]
      concatenates_S65536x256_S65536x41_S65536x80_S65536x377_d1 (ix2 r k)
      = if h : k.val < 256 then x0 (ix2 r ⟨k.val, h⟩)
        else if h' : k.val < 297 then y (ix2 r ⟨k.val - 256, by omega⟩)
        else x2 (ix2 r ⟨k.val - 297, by have := k.isLt; omega⟩) := by
  split
  · rename_i h
    exact concatenate_apply_piece (t := S65536x377) (1 : Fin S65536x377.rank)
      [⟨S65536x256, x0⟩, ⟨S65536x41, y⟩, ⟨S65536x80, x2⟩] concatenates_S65536x256_S65536x41_S65536x80_S65536x377_d1 (ix2 r k)
      0 (by show (0 : ℕ) < 3; omega) S65536x256 x0 rfl rfl 0 rfl (ix2 r ⟨k.val, h⟩)
      (fun b hb => match b, hb with
        | ⟨0, _⟩, _ => rfl
        | ⟨1, _⟩, hb => absurd rfl hb)
      (by show 0 + k.val = k.val; omega)
  · rename_i h
    split
    · rename_i h1
      exact concatenate_apply_piece (t := S65536x377) (1 : Fin S65536x377.rank)
        [⟨S65536x256, x0⟩, ⟨S65536x41, y⟩, ⟨S65536x80, x2⟩] concatenates_S65536x256_S65536x41_S65536x80_S65536x377_d1 (ix2 r k)
        1 (by show (1 : ℕ) < 3; omega) S65536x41 y rfl rfl 256 rfl (ix2 r ⟨k.val - 256, by omega⟩)
        (fun b hb => match b, hb with
          | ⟨0, _⟩, _ => rfl
          | ⟨1, _⟩, hb => absurd rfl hb)
        (by show 256 + (k.val - 256) = k.val; omega)
    · rename_i h1
      exact concatenate_apply_piece (t := S65536x377) (1 : Fin S65536x377.rank)
        [⟨S65536x256, x0⟩, ⟨S65536x41, y⟩, ⟨S65536x80, x2⟩] concatenates_S65536x256_S65536x41_S65536x80_S65536x377_d1 (ix2 r k)
        2 (by show (2 : ℕ) < 3; omega) S65536x80 x2 rfl rfl 297 rfl (ix2 r ⟨k.val - 297, by have := k.isLt; omega⟩)
        (fun b hb => match b, hb with
          | ⟨0, _⟩, _ => rfl
          | ⟨1, _⟩, hb => absurd rfl hb)
        (by show 297 + (k.val - 297) = k.val; omega)

variable (A : Args) (r : Fin 65536)

/-! ## The norm, the normalized row, the concatenated row -/

/-- The row's Euclidean norm, at the one column of the 65536 × 1 array: the reduction starts from 0, which adds nothing. -/
theorem v0_at (c : Fin 1) :
    val_main_v0 (F := Ideal) A.prev (ix2 r c) = Ideal.sqrt (∑ k : Fin 40, A.prev (ix2 r k) * A.prev (ix2 r k)) := by
  rw [val_main_v0_apply, Ideal.hostUnary_sqrt_def, val_main_call0_v2_apply, val_main_call0_v1_apply,
    val_main_call0_cst_apply, Ideal.ofBits_def, Ideal.ofBits_zero_f32, zero_add]
  refine congrArg Ideal.sqrt (Finset.sum_congr rfl fun k _ => ?_)
  have e : idx_main_call0_v1 (idx_main_call0_v2 (ix2 r c)) k = ix2 r k := ix2_of_vals _ _ _ rfl rfl
  rw [val_main_call0_v0_apply, Ideal.mulf_def, e]

/-- 1e-5 plus the norm (the divisor's copy). -/
theorem v2_at (c : Fin 1) : val_main_v2 (F := Ideal) A.prev (ix2 r c) = denom A r := by
  rw [val_main_v2_apply, Ideal.addf_def, val_main_v1_apply, val_main_cst_apply, Ideal.ofBits_def, v0_at]
  rfl

/-- 1e-5 plus the norm (the logarithm's copy). -/
theorem v6_at (c : Fin 1) : val_main_v6 (F := Ideal) A.prev (ix2 r c) = denom A r := by
  rw [val_main_v6_apply, Ideal.addf_def, val_main_v5_apply, val_main_cst_0_apply, Ideal.ofBits_def, v0_at]
  rfl

/-- The normalized prev row. -/
theorem v4_at (k : Fin 40) : val_main_v4 (F := Ideal) A.prev (ix2 r k) = prevn A r k := by
  rw [val_main_v4_apply, Ideal.hostDivf_def, val_main_v3_apply]
  have e : idx_main_v3 (ix2 r k) = ix2 r (0 : Fin 1) := ix2_of_vals _ _ _ rfl rfl
  rw [e, v2_at]
  rfl

/-- The logarithm of the divisor. -/
theorem v7_at (c : Fin 1) : val_main_v7 (F := Ideal) A.prev (ix2 r c) = Ideal.log (denom A r) := by
  rw [val_main_v7_apply, Ideal.hostUnary_log_def, v6_at]

/-- The 41 columns [prev / denom | log denom]. -/
theorem v8_at (k : Fin 41) :
    val_main_v8 (F := Ideal) A.prev (ix2 r k) = if h : k.val < 40 then prevn A r ⟨k.val, h⟩ else Ideal.log (denom A r) := by
  unfold val_main_v8
  refine (ConcatCols.concat_cols_apply (R := 65536) (A := 40) (B := 1) (C := 41) rfl _ _
    concatenates_S65536x40_S65536x1_S65536x41_d1 r k).trans ?_
  unfold ConcatCols.catRow
  split
  · exact v4_at A r _
  · exact v7_at A r _

/-- The 377 columns [cond | prev / denom | log denom | phase]: the middle piece is the 41 columns above, whose last
    column is the logarithm. -/
theorem v9_at (k : Fin 377) : val_main_v9 (F := Ideal) A.cond A.prev A.phase (ix2 r k) = catRow A r k := by
  unfold val_main_v9
  rw [cat3_apply]
  unfold catRow
  by_cases h : k.val < 256
  · rw [dif_pos h, dif_pos h]
  · rw [dif_neg h, dif_neg h]
    by_cases h1 : k.val < 296
    · rw [dif_pos (show k.val < 297 by omega), dif_pos h1, v8_at]
      exact dif_pos (show k.val - 256 < 40 by omega)
    · rw [dif_neg h1]
      by_cases h2 : k.val < 297
      · rw [dif_pos h2, dif_pos h2, v8_at]
        exact dif_neg (show ¬ k.val - 256 < 40 by omega)
      · rw [dif_neg h2, dif_neg h2]

/-! ## The two dense layers -/

/-- The first dense layer before its tanh: the product over the 377 concatenated columns is the sum of the four stretches' products. -/
theorem v14_at (o : Fin 256) : val_main_v14 (F := Ideal) A.cond A.prev A.phase A.d1w A.d1b (ix2 r o) = pre1 A r o := by
  rw [← pre1_eq_concat]
  rw [val_main_v14_apply, Ideal.addf_def, val_main_v11_apply, val_main_v13_apply, val_main_v12_apply]
  unfold lin
  refine congrArg₂ (· + ·) (Finset.sum_congr rfl fun k _ => congrArg₂ (· * ·) ?_ ?_) ?_
  · exact (congrArg _ (ix2_of_vals _ r k rfl rfl)).trans (v9_at A r k)
  · rw [val_main_v10_apply]
    exact congrArg _ (ix2_of_vals _ o k rfl rfl)
  · exact congrArg _ (ix1_of_val _ o rfl)

theorem v15_at (o : Fin 256) : val_main_v15 (F := Ideal) A.cond A.prev A.phase A.d1w A.d1b (ix2 r o) = t1 A r o := by
  rw [val_main_v15_apply, Ideal.hostUnary_tanh_def, v14_at]
  rfl

/-- The second dense layer before its tanh. -/
theorem v20_at (o : Fin 256) : val_main_v20 (F := Ideal) A.cond A.prev A.phase A.d1w A.d1b A.d2w A.d2b (ix2 r o) = lin (t1 A r) A.d2w A.d2b o := by
  rw [val_main_v20_apply, Ideal.addf_def, val_main_v17_apply, val_main_v19_apply, val_main_v18_apply]
  unfold lin
  refine congrArg₂ (· + ·) (Finset.sum_congr rfl fun k _ => congrArg₂ (· * ·) ?_ ?_) ?_
  · exact (congrArg _ (ix2_of_vals _ r k rfl rfl)).trans (v15_at A r k)
  · rw [val_main_v16_apply]
    exact congrArg _ (ix2_of_vals _ o k rfl rfl)
  · exact congrArg _ (ix1_of_val _ o rfl)

theorem v21_at (o : Fin 256) : val_main_v21 (F := Ideal) A.cond A.prev A.phase A.d1w A.d1b A.d2w A.d2b (ix2 r o) = t2 A r o := by
  rw [val_main_v21_apply, Ideal.hostUnary_tanh_def, v20_at]
  rfl

/-! ## The three GRU cells -/

/-- The input side of GRU cell 1: all 768 gate pre-activations of row r. -/
theorem v26_at (o : Fin 768) : val_main_v26 (F := Ideal) A.cond A.prev A.phase A.d1w A.d1b A.d2w A.d2b A.wih1 A.bih1 (ix2 r o) = lin (t2 A r) A.wih1 A.bih1 o := by
  rw [val_main_v26_apply, Ideal.addf_def, val_main_v23_apply, val_main_v25_apply, val_main_v24_apply]
  unfold lin
  refine congrArg₂ (· + ·) (Finset.sum_congr rfl fun k _ => congrArg₂ (· * ·) ?_ ?_) ?_
  · exact (congrArg _ (ix2_of_vals _ r k rfl rfl)).trans (v21_at A r k)
  · rw [val_main_v22_apply]
    exact congrArg _ (ix2_of_vals _ o k rfl rfl)
  · exact congrArg _ (ix1_of_val _ o rfl)

/-- The state side of GRU cell 1: all 768 gate pre-activations of row r. -/
theorem v31_at (o : Fin 768) : val_main_v31 (F := Ideal) A.h1 A.whh1 A.bhh1 (ix2 r o) = lin (fun k => A.h1 (ix2 r k)) A.whh1 A.bhh1 o := by
  rw [val_main_v31_apply, Ideal.addf_def, val_main_v28_apply, val_main_v30_apply, val_main_v29_apply]
  unfold lin
  refine congrArg₂ (· + ·) (Finset.sum_congr rfl fun k _ => congrArg₂ (· * ·) ?_ ?_) ?_
  · exact congrArg _ (ix2_of_vals _ r k rfl rfl)
  · rw [val_main_v27_apply]
    exact congrArg _ (ix2_of_vals _ o k rfl rfl)
  · exact congrArg _ (ix1_of_val _ o rfl)

/-- GRU cell 1 at row r: the reset and update gates are the logistic function of the summed pre-activations (written
    1 / (1 + exp (-x)) in the program), the candidate is tanh of the input part plus reset times the state part, and the new
    state mixes candidate and old state by the update gate. -/
theorem v59_at (j : Fin 256) : val_main_v59 (F := Ideal) A.cond A.prev A.phase A.h1 A.d1w A.d1b A.d2w A.d2b A.wih1 A.whh1 A.bih1 A.bhh1 (ix2 r j) = g1 A r j := by
  simp only [val_main_v59_apply, val_main_v58_apply, val_main_v57_apply, val_main_v56_apply, val_main_v55_apply, val_main_cst_5_apply, val_main_v54_apply, val_main_v53_apply,
    val_main_v52_apply, val_main_v51_apply, val_main_v50_apply, val_main_cst_4_apply, val_main_v49_apply, val_main_v48_apply, val_main_cst_3_apply, val_main_v47_apply,
    val_main_v46_apply, val_main_v45_apply, val_main_v44_apply, val_main_v43_apply, val_main_cst_2_apply, val_main_v42_apply, val_main_v41_apply, val_main_cst_1_apply,
    val_main_v40_apply, val_main_v39_apply, val_main_v38_apply, val_main_v37_apply, val_main_v36_apply, val_main_v35_apply, val_main_v34_apply, val_main_v33_apply, val_main_v32_apply,
    Ideal.addf_def, Ideal.subf_def, Ideal.mulf_def, Ideal.hostDivf_def, Ideal.hostNegf_def, Ideal.negf_def,
    Ideal.hostUnary_exp_def, Ideal.hostUnary_tanh_def, Ideal.ofBits_def]
  have e0 : idx_main_v32 (ix2 r j) = ix2 r (lo j) := ix2_of_vals _ _ _ rfl rfl
  have e1 : idx_main_v33 (ix2 r j) = ix2 r (mid j) := ix2_of_vals _ _ _ rfl (Nat.add_comm 256 j.val)
  have e2 : idx_main_v34 (ix2 r j) = ix2 r (hi j) := ix2_of_vals _ _ _ rfl (Nat.add_comm 512 j.val)
  have e3 : idx_main_v35 (ix2 r j) = ix2 r (lo j) := ix2_of_vals _ _ _ rfl rfl
  have e4 : idx_main_v36 (ix2 r j) = ix2 r (mid j) := ix2_of_vals _ _ _ rfl (Nat.add_comm 256 j.val)
  have e5 : idx_main_v37 (ix2 r j) = ix2 r (hi j) := ix2_of_vals _ _ _ rfl (Nat.add_comm 512 j.val)
  simp only [e0, e1, e2, e3, e4, e5, v26_at, v31_at, logistic_spelled]
  rfl

/-- The input side of GRU cell 2: all 768 gate pre-activations of row r. -/
theorem v64_at (o : Fin 768) : val_main_v64 (F := Ideal) A.cond A.prev A.phase A.h1 A.d1w A.d1b A.d2w A.d2b A.wih1 A.whh1 A.bih1 A.bhh1 A.wih2 A.bih2 (ix2 r o) = lin (g1 A r) A.wih2 A.bih2 o := by
  rw [val_main_v64_apply, Ideal.addf_def, val_main_v61_apply, val_main_v63_apply, val_main_v62_apply]
  unfold lin
  refine congrArg₂ (· + ·) (Finset.sum_congr rfl fun k _ => congrArg₂ (· * ·) ?_ ?_) ?_
  · exact (congrArg _ (ix2_of_vals _ r k rfl rfl)).trans (v59_at A r k)
  · rw [val_main_v60_apply]
    exact congrArg _ (ix2_of_vals _ o k rfl rfl)
  · exact congrArg _ (ix1_of_val _ o rfl)

/-- The state side of GRU cell 2: all 768 gate pre-activations of row r. -/
theorem v69_at (o : Fin 768) : val_main_v69 (F := Ideal) A.h2 A.whh2 A.bhh2 (ix2 r o) = lin (fun k => A.h2 (ix2 r k)) A.whh2 A.bhh2 o := by
  rw [val_main_v69_apply, Ideal.addf_def, val_main_v66_apply, val_main_v68_apply, val_main_v67_apply]
  unfold lin
  refine congrArg₂ (· + ·) (Finset.sum_congr rfl fun k _ => congrArg₂ (· * ·) ?_ ?_) ?_
  · exact congrArg _ (ix2_of_vals _ r k rfl rfl)
  · rw [val_main_v65_apply]
    exact congrArg _ (ix2_of_vals _ o k rfl rfl)
  · exact congrArg _ (ix1_of_val _ o rfl)

/-- GRU cell 2 at row r: the reset and update gates are the logistic function of the summed pre-activations (written
    1 / (1 + exp (-x)) in the program), the candidate is tanh of the input part plus reset times the state part, and the new
    state mixes candidate and old state by the update gate. -/
theorem v97_at (j : Fin 256) : val_main_v97 (F := Ideal) A.cond A.prev A.phase A.h1 A.h2 A.d1w A.d1b A.d2w A.d2b A.wih1 A.whh1 A.bih1 A.bhh1 A.wih2 A.whh2 A.bih2 A.bhh2 (ix2 r j) = g2 A r j := by
  simp only [val_main_v97_apply, val_main_v96_apply, val_main_v95_apply, val_main_v94_apply, val_main_v93_apply, val_main_cst_10_apply, val_main_v92_apply, val_main_v91_apply,
    val_main_v90_apply, val_main_v89_apply, val_main_v88_apply, val_main_cst_9_apply, val_main_v87_apply, val_main_v86_apply, val_main_cst_8_apply, val_main_v85_apply,
    val_main_v84_apply, val_main_v83_apply, val_main_v82_apply, val_main_v81_apply, val_main_cst_7_apply, val_main_v80_apply, val_main_v79_apply, val_main_cst_6_apply,
    val_main_v78_apply, val_main_v77_apply, val_main_v76_apply, val_main_v75_apply, val_main_v74_apply, val_main_v73_apply, val_main_v72_apply, val_main_v71_apply, val_main_v70_apply,
    Ideal.addf_def, Ideal.subf_def, Ideal.mulf_def, Ideal.hostDivf_def, Ideal.hostNegf_def, Ideal.negf_def,
    Ideal.hostUnary_exp_def, Ideal.hostUnary_tanh_def, Ideal.ofBits_def]
  have e0 : idx_main_v70 (ix2 r j) = ix2 r (lo j) := ix2_of_vals _ _ _ rfl rfl
  have e1 : idx_main_v71 (ix2 r j) = ix2 r (mid j) := ix2_of_vals _ _ _ rfl (Nat.add_comm 256 j.val)
  have e2 : idx_main_v72 (ix2 r j) = ix2 r (hi j) := ix2_of_vals _ _ _ rfl (Nat.add_comm 512 j.val)
  have e3 : idx_main_v73 (ix2 r j) = ix2 r (lo j) := ix2_of_vals _ _ _ rfl rfl
  have e4 : idx_main_v74 (ix2 r j) = ix2 r (mid j) := ix2_of_vals _ _ _ rfl (Nat.add_comm 256 j.val)
  have e5 : idx_main_v75 (ix2 r j) = ix2 r (hi j) := ix2_of_vals _ _ _ rfl (Nat.add_comm 512 j.val)
  simp only [e0, e1, e2, e3, e4, e5, v64_at, v69_at, logistic_spelled]
  rfl

/-- The input side of GRU cell 3: all 768 gate pre-activations of row r. -/
theorem v102_at (o : Fin 768) : val_main_v102 (F := Ideal) A.cond A.prev A.phase A.h1 A.h2 A.d1w A.d1b A.d2w A.d2b A.wih1 A.whh1 A.bih1 A.bhh1 A.wih2 A.whh2 A.bih2 A.bhh2 A.wih3 A.bih3 (ix2 r o) = lin (g2 A r) A.wih3 A.bih3 o := by
  rw [val_main_v102_apply, Ideal.addf_def, val_main_v99_apply, val_main_v101_apply, val_main_v100_apply]
  unfold lin
  refine congrArg₂ (· + ·) (Finset.sum_congr rfl fun k _ => congrArg₂ (· * ·) ?_ ?_) ?_
  · exact (congrArg _ (ix2_of_vals _ r k rfl rfl)).trans (v97_at A r k)
  · rw [val_main_v98_apply]
    exact congrArg _ (ix2_of_vals _ o k rfl rfl)
  · exact congrArg _ (ix1_of_val _ o rfl)

/-- The state side of GRU cell 3: all 768 gate pre-activations of row r. -/
theorem v107_at (o : Fin 768) : val_main_v107 (F := Ideal) A.h3 A.whh3 A.bhh3 (ix2 r o) = lin (fun k => A.h3 (ix2 r k)) A.whh3 A.bhh3 o := by
  rw [val_main_v107_apply, Ideal.addf_def, val_main_v104_apply, val_main_v106_apply, val_main_v105_apply]
  unfold lin
  refine congrArg₂ (· + ·) (Finset.sum_congr rfl fun k _ => congrArg₂ (· * ·) ?_ ?_) ?_
  · exact congrArg _ (ix2_of_vals _ r k rfl rfl)
  · rw [val_main_v103_apply]
    exact congrArg _ (ix2_of_vals _ o k rfl rfl)
  · exact congrArg _ (ix1_of_val _ o rfl)

/-- GRU cell 3 at row r: the reset and update gates are the logistic function of the summed pre-activations (written
    1 / (1 + exp (-x)) in the program), the candidate is tanh of the input part plus reset times the state part, and the new
    state mixes candidate and old state by the update gate. -/
theorem v135_at (j : Fin 256) : val_main_v135 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 (ix2 r j) = g3 A r j := by
  simp only [val_main_v135_apply, val_main_v134_apply, val_main_v133_apply, val_main_v132_apply, val_main_v131_apply, val_main_cst_15_apply, val_main_v130_apply, val_main_v129_apply,
    val_main_v128_apply, val_main_v127_apply, val_main_v126_apply, val_main_cst_14_apply, val_main_v125_apply, val_main_v124_apply, val_main_cst_13_apply, val_main_v123_apply,
    val_main_v122_apply, val_main_v121_apply, val_main_v120_apply, val_main_v119_apply, val_main_cst_12_apply, val_main_v118_apply, val_main_v117_apply, val_main_cst_11_apply,
    val_main_v116_apply, val_main_v115_apply, val_main_v114_apply, val_main_v113_apply, val_main_v112_apply, val_main_v111_apply, val_main_v110_apply, val_main_v109_apply, val_main_v108_apply,
    Ideal.addf_def, Ideal.subf_def, Ideal.mulf_def, Ideal.hostDivf_def, Ideal.hostNegf_def, Ideal.negf_def,
    Ideal.hostUnary_exp_def, Ideal.hostUnary_tanh_def, Ideal.ofBits_def]
  have e0 : idx_main_v108 (ix2 r j) = ix2 r (lo j) := ix2_of_vals _ _ _ rfl rfl
  have e1 : idx_main_v109 (ix2 r j) = ix2 r (mid j) := ix2_of_vals _ _ _ rfl (Nat.add_comm 256 j.val)
  have e2 : idx_main_v110 (ix2 r j) = ix2 r (hi j) := ix2_of_vals _ _ _ rfl (Nat.add_comm 512 j.val)
  have e3 : idx_main_v111 (ix2 r j) = ix2 r (lo j) := ix2_of_vals _ _ _ rfl rfl
  have e4 : idx_main_v112 (ix2 r j) = ix2 r (mid j) := ix2_of_vals _ _ _ rfl (Nat.add_comm 256 j.val)
  have e5 : idx_main_v113 (ix2 r j) = ix2 r (hi j) := ix2_of_vals _ _ _ rfl (Nat.add_comm 512 j.val)
  simp only [e0, e1, e2, e3, e4, e5, v102_at, v107_at, logistic_spelled]
  rfl

/-! ## The output head -/

/-- The output layer before its tanh. -/
theorem v140_at (o : Fin 40) : val_main_v140 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 A.doutw A.doutb (ix2 r o) = lin (g3 A r) A.doutw A.doutb o := by
  rw [val_main_v140_apply, Ideal.addf_def, val_main_v137_apply, val_main_v139_apply, val_main_v138_apply]
  unfold lin
  refine congrArg₂ (· + ·) (Finset.sum_congr rfl fun k _ => congrArg₂ (· * ·) ?_ ?_) ?_
  · exact (congrArg _ (ix2_of_vals _ r k rfl rfl)).trans (v135_at A r k)
  · rw [val_main_v136_apply]
    exact congrArg _ (ix2_of_vals _ o k rfl rfl)
  · exact congrArg _ (ix1_of_val _ o rfl)

/-- The gain's logit, at the one column of the 65536 × 1 array. -/
theorem v146_at (c : Fin 1) : val_main_v146 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 A.gainw A.gainb (ix2 r c) = gainLogit A r := by
  obtain rfl : c = 0 := Subsingleton.elim _ _
  rw [val_main_v146_apply, Ideal.addf_def, val_main_v143_apply, val_main_v145_apply, val_main_v144_apply]
  unfold gainLogit
  refine congrArg₂ (· + ·) (Finset.sum_congr rfl fun k _ => congrArg₂ (· * ·) ?_ ?_) ?_
  · exact (congrArg _ (ix2_of_vals _ r k rfl rfl)).trans (v135_at A r k)
  · rw [val_main_v142_apply]
    exact congrArg _ (ix2_of_vals _ (0 : Fin 1) k rfl rfl)
  · exact congrArg _ (ix1_of_val _ (0 : Fin 1) rfl)

/-- The output: tanh of the output layer times the exponential of the gain's logit. -/
theorem v149_at (o : Fin 40) : val_main_v149 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 A.doutw A.doutb A.gainw A.gainb (ix2 r o) = Cert.Spec.sig A r o := by
  rw [val_main_v149_apply, Ideal.mulf_def, val_main_v141_apply, Ideal.hostUnary_tanh_def, v140_at, val_main_v148_apply,
    val_main_v147_apply, Ideal.hostUnary_exp_def]
  have e : idx_main_v148 (ix2 r o) = ix2 r (0 : Fin 1) := ix2_of_vals _ _ _ rfl rfl
  rw [e, v146_at]
  rfl

/-! ## The four results -/

/-- The first GRU state the program returns is the specification's. -/
theorem ref_g1 : val_main_v59 (F := Ideal) A.cond A.prev A.phase A.h1 A.d1w A.d1b A.d2w A.d2b A.wih1 A.whh1 A.bih1 A.bhh1 = G1 A :=
  funext fun i => (congrArg _ (eq_ix2 i)).trans (v59_at A (i 0) (i 1))

/-- The second GRU state. -/
theorem ref_g2 : val_main_v97 (F := Ideal) A.cond A.prev A.phase A.h1 A.h2 A.d1w A.d1b A.d2w A.d2b A.wih1 A.whh1 A.bih1 A.bhh1 A.wih2 A.whh2 A.bih2 A.bhh2 = G2 A :=
  funext fun i => (congrArg _ (eq_ix2 i)).trans (v97_at A (i 0) (i 1))

/-- The third GRU state. -/
theorem ref_g3 : val_main_v135 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 = G3 A :=
  funext fun i => (congrArg _ (eq_ix2 i)).trans (v135_at A (i 0) (i 1))

/-- The output array. -/
theorem ref_sig : val_main_v149 (F := Ideal) A.cond A.prev A.phase A.h1 A.h2 A.h3 A.d1w A.d1b A.d2w A.d2b A.wih1 A.whh1 A.bih1 A.bhh1 A.wih2 A.whh2 A.bih2 A.bhh2 A.wih3 A.whh3 A.bih3 A.bhh3 A.doutw A.doutb A.gainw A.gainb = Gsig A :=
  funext fun i => (congrArg _ (eq_ix2 i)).trans (v149_at A (i 0) (i 1))

end Cert.ReferenceIdeal.Rows

end
-- ==== Proof.lean ====
/-
  The proof of `Cert.Claim`: a three-cell GRU decoder step (two dense layers with tanh, three GRU cells, an output layer
  tanh(·)·exp(gain)) computed by one kernel over 64 tiles of 1024 rows, against the same network written with whole-array
  operations.

  Every result row depends only on the same row of the six activation arrays and on the weights, so both programs are compared
  row by row against one specification (Proof/Spec.lean): `Spec.sig`, `Spec.g1`, `Spec.g2`, `Spec.g3` of the 26 argument
  arrays. On the extended reals a change of float format is the identity, a product accumulated into zero is a plain sum, and
  the kernel's logistic is 1/(1 + e^(-x)), which is how the other program spells its sigmoids. The only difference between the
  two programs is the first dense layer: one product over the 377 concatenated columns [cond | prev/denom | log denom | phase]
  on one side, four separate terms over the column stretches of the weight on the other. A sum over consecutive positions is
  the sum of its stretches in any order (`Spec.pre1_eq_concat`): commutativity and associativity of + only, so finiteness of
  the inputs is never used.

  Kernel side: each output block is one store's payload; the payloads are read on one row layer by layer (Proof/KVec.lean,
  Proof/KPay.lean, Proof/KernelRows.lean); row p of tile t is row 1024·t + p of the arrays, and the 64 tiles cover every row
  (Proof/Blocks.lean). Other side: its stages read at an index, layer by layer (Proof/RefRows.lean).
  The kernel's two frames are the generated ones (imported as patched copies: Proof/FrameKernel.lean, Proof/FrameKernelIdeal.lean),
  the whole-array program's frame is its generated run with the results dropped,
  and the claim's fourth conjunct is the proposition True.
-/
import proofs.«158528_j47012712022158_2_alg».proof.Defs
import proofs.«158528_j47012712022158_2_alg».proof.Proof.Gen.Kernel
import proofs.«158528_j47012712022158_2_alg».proof.Proof.Gen.Kernel.Skeleton
import proofs.«158528_j47012712022158_2_alg».proof.Proof.Gen.Kernel.Launch
import proofs.«158528_j47012712022158_2_alg».proof.Proof.Gen.Kernel.Points
import proofs.«158528_j47012712022158_2_alg».proof.Proof.FrameKernel
import proofs.«158528_j47012712022158_2_alg».proof.Proof.Gen.KernelIdeal
import proofs.«158528_j47012712022158_2_alg».proof.Proof.Gen.KernelIdeal.Skeleton
import proofs.«158528_j47012712022158_2_alg».proof.Proof.Gen.KernelIdeal.Launch
import proofs.«158528_j47012712022158_2_alg».proof.Proof.Gen.KernelIdeal.Points
import proofs.«158528_j47012712022158_2_alg».proof.Proof.FrameKernelIdeal
import proofs.«158528_j47012712022158_2_alg».proof.Proof.Gen.ReferenceIdeal
import proofs.«158528_j47012712022158_2_alg».proof.Proof.Gen.Pre_finite_inputs
import proofs.«158528_j47012712022158_2_alg».proof.Proof.ValueKernelIdeal
import proofs.«158528_j47012712022158_2_alg».proof.Proof.Gen.ReferenceIdeal.Run
import proofs.«158528_j47012712022158_2_alg».proof.Proof.Gen.ReferenceIdeal.Read
import proofs.«158528_j47012712022158_2_alg».proof.Proof.Blocks
import proofs.«158528_j47012712022158_2_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The whole-array program's frame: its run, with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Both programs end with the four result arrays at the specification's arrays of the (agreeing) arguments. -/
theorem algebraic : Cert.algebraic_KernelIdeal_ReferenceIdeal := by
  intro m ρ m' ρ' _ hagree
  refine ⟨fun c => Cert.Spec.Gsig (Cert.KernelIdeal.Blocks.Aof m c), fun c => Cert.Spec.G1 (Cert.KernelIdeal.Blocks.Aof m c),
    fun c => Cert.Spec.G2 (Cert.KernelIdeal.Blocks.Aof m c), fun c => Cert.Spec.G3 (Cert.KernelIdeal.Blocks.Aof m c),
    Cert.KernelIdeal.Blocks.run m ρ, ?_⟩
  refine (θ_run Cert.ReferenceIdeal.defs _ _).mono (fun _ h c => ?_) (Cert.ReferenceIdeal.Value.run (F := Ideal) m' ρ')
  obtain ⟨h0, h1, h2, h3, hkept⟩ := h c
  obtain ⟨a0, a1, a2, a3, a4, a5, a6, a7, a8, a9, a10, a11, a12, a13, a14, a15, a16, a17, a18, a19, a20, a21, a22, a23, a24, a25⟩ := hagree c
  refine ⟨h0.trans ?_, h1.trans ?_, h2.trans ?_, h3.trans ?_, hkept⟩
  · rw [Cert.ReferenceIdeal.Read.val_main_v149_eq, a0, a1, a2, a3, a4, a5, a6, a7, a8, a9, a10, a11, a12, a13, a14, a15, a16, a17, a18, a19, a20, a21, a22, a23, a24, a25]
    exact Cert.ReferenceIdeal.Rows.ref_sig (Cert.KernelIdeal.Blocks.Aof m c)
  · rw [Cert.ReferenceIdeal.Read.val_main_v59_eq, a0, a1, a2, a3, a6, a7, a8, a9, a10, a11, a12, a13]
    exact Cert.ReferenceIdeal.Rows.ref_g1 (Cert.KernelIdeal.Blocks.Aof m c)
  · rw [Cert.ReferenceIdeal.Read.val_main_v97_eq, a0, a1, a2, a3, a4, a6, a7, a8, a9, a10, a11, a12, a13, a14, a15, a16, a17]
    exact Cert.ReferenceIdeal.Rows.ref_g2 (Cert.KernelIdeal.Blocks.Aof m c)
  · rw [Cert.ReferenceIdeal.Read.val_main_v135_eq, a0, a1, a2, a3, a4, a5, a6, a7, a8, a9, a10, a11, a12, a13, a14, a15, a16, a17, a18, a19, a20, a21]
    exact Cert.ReferenceIdeal.Rows.ref_g3 (Cert.KernelIdeal.Blocks.Aof m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
